-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S3072 .f32) (main_arg5 : FVec F S1024x1024 .f32) (main_arg6 : FVec F S1024 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024 .f32) (main_arg2 : FVec F S1024 .f32) (main_arg3 : FVec F S3072x1024 .f32) (main_arg4 : FVec F S3072 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S1024x3072 : Shape := ⟨2, ![1024, 3072]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩
abbrev S1x3072 : Shape := ⟨2, ![1, 3072]⟩

abbrev nBuf : Space → Nat
  | .hbm => 14
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S1024x1024, .f32⟩
  | .hbm, ⟨10, _⟩ => ⟨S1024x1024, .bf16⟩
  | .hbm, ⟨11, _⟩ => ⟨S4x4096x1024, .bf16⟩
  | .hbm, ⟨12, _⟩ => ⟨S4x1024x1024, .bf16⟩
  | .hbm, ⟨13, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024, .f32⟩
  | .local _ .vmem, ⟨4, _⟩ => ⟨S1024x3072, .bf16⟩
  | .local _ .vmem, ⟨5, _⟩ => ⟨S3072, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1024x1024, .bf16⟩
  | .local _ .vmem, ⟨16, _⟩ => ⟨S1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_21 : BitVec 32 := 0#32
  let v54 : BitVec 1 := Scalar.cmpi .ne v53 c0_i32_21
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  broadcasts_S1x1024_S1024x1024 : S1x1024.Broadcasts S1024x1024
  dot_S512x1024_S1024x3072_S512x3072_1_0_0_1_n_n_wf : DotDims.WF S512x1024 S1024x3072 S512x3072 [1] [0] [0] [1] [] []
  dot_S512x1024_S512x1024_S1024x1024_0_0_1_1_n_n_wf : DotDims.WF S512x1024 S512x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072.size a ≤ S3072.size a
  hwx0_4 : ∀ i : grid0.Coords, EltTy.bits .f32 = 32 ∨ (Rect.block (s := S3072) S3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x4096x1024.size a
  hwx0_5 : ∀ i : grid0.Coords, EltTy.bits .bf16 = 32 ∨ (Rect.block (s := S4x4096x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S4x1024x1024.size a
  hwx0_6 : ∀ i : grid0.Coords, EltTy.bits .bf16 = 32 ∨ (Rect.block (s := S4x1024x1024) S1x1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .bf16 = 32 ∨ (Rect.block (s := S4x1024x1024) S1x1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x1024.size a
  hwx1_4 : ∀ i : grid1.Coords, EltTy.bits .f32 = 32 ∨ (Rect.block (s := S4x4096x1024) S1x1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S4x4096x1024.size a
  hwx1_5 : ∀ i : grid1.Coords, EltTy.bits .f32 = 32 ∨ (Rect.block (s := S4x4096x1024) S1x1024x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v4_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  halias1_5 : Pipeline.Aliased win1 4 5

variable [Facts]
-- ==== ReferenceIdeal.lean ====
abbrev S4x4096x1024 : Shape := ⟨3, ![4, 4096, 1024]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S1x1x3072 : Shape := ⟨3, ![1, 1, 3072]⟩
abbrev S4x4096x4096 : Shape := ⟨3, ![4, 4096, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S3072x1024, .f32⟩
  | .hbm, ⟨4, _⟩ => ⟨S3072, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S4x4096x3072, .f32⟩
  | .hbm, ⟨37, _⟩ => ⟨S1x1x3072, .f32⟩
  | .hbm, ⟨38, _⟩ => ⟨S4x4096x3072, .f32⟩
  | .hbm, ⟨39, _⟩ => ⟨S4x4096x3072, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x4096, .f32⟩
  | .hbm, ⟨44, _⟩ => ⟨S_, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x1024, .f32⟩
  | .hbm, ⟨49, _⟩ => ⟨S4x4096x1024, .f32⟩
  | .hbm, ⟨50, _⟩ => ⟨S1x1x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x4096 : S_.BroadcastsInDim S4x4096x4096 (![] : Fin 0 → Fin S4x4096x4096.rank)
  dot_S4x4096x1024_S3072x1024_S4x4096x3072_2_1_01_0_n_n_wf : DotDims.WF S4x4096x1024 S3072x1024 S4x4096x3072 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.K.R0Base.lean ====
/-
  Region 0 of the program (the first kernel call: LayerNorm of a 512-row tile, the fused q/k/v projection, the q tile
  written out, kᵀv accumulated in a 1024×1024 scratch over the 8 tiles of a batch and written out at the last one):
  what its frame and its value are stated over. The blocks of the windows read off the arrays as the region finds
  them, the two branch conditions of the body decided over the grid (the first tile of a batch; the last), where the
  kᵀv output window is idle, and the scratch and staging memrefs by name.
-/
import proofs.«126821_j79027398246801_2_alg».proof.Proof.Gen.Kernel.Launch
import proofs.«126821_j79027398246801_2_alg».proof.Proof.Gen.Kernel.Skeleton
import proofs.«126821_j79027398246801_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched the block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched the block index has not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched the block index has not moved), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when it is not
    fetched the block index has not moved), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when it is not
    fetched the block index has not moved), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches -/

/-- The first branch of the body (zero the accumulator): the second grid coordinate is 0. -/
abbrev cond0_0 (i : grid0.Coords) : Prop := (Scalar.cmpi .ne (Scalar.extui (Scalar.cmpi .eq (BitVec.ofNat 32 (i 1).val) 0#32)) 0#32) = 1#1
/-- It is taken at the first of every 8 points. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (write the accumulator out): the second grid coordinate is 7. -/
abbrev cond0_1 (i : grid0.Coords) : Prop := k0_cond2 i = 1#1
/-- It is taken at the last of every 8 points. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last tile of a batch the kᵀv window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last tile it is live. -/
theorem liveAt0_6 : ∀ t : Fin cfg0.N, cond0_1 (grid0.coords t) → cfg0.idle 6 (grid0.coords t) = false := by decide +kernel

/-! ## The staging and scratch memrefs -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1024 .bf16 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S1024x1024 .f32 := Memref.whole cc0_scratch0
abbrev VS0_0 : View sig .tc .vmem S1024x1024 .f32 := scM0_0.view
/-- One staging buffer of each output window, through which its contents are stated. -/
abbrev VO0_5 : View sig .tc .vmem S1x512x1024 .bf16 := (Memref.whole cc0_stg5_0 : Memref sig .tc .vmem S1x512x1024 .bf16).view
abbrev VO0_6 : View sig .tc .vmem S1x1024x1024 .bf16 := (Memref.whole cc0_stg6_0 : Memref sig .tc .vmem S1x1024x1024 .bf16).view

/-- The scoped buffers of the core that region 0 never touches (the other call's staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant of a body that describes nothing: the accumulator at some contents, the untouched scoped
    buffers, the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Hand

end
-- ==== Proof.K.R0RunA.lean ====
/-
  The body of region 0 run at the first tile of a batch (the accumulator is zeroed, then this tile's kᵀv added; nothing is written to the kᵀv window): on whole staging memrefs holding the input blocks, it runs to
  the end leaving the inputs as they were and, in each buffer it stores into, the pieces its stores wrote (found by
  running it).
-/
import proofs.«126821_j79027398246801_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the q window's buffer and in the accumulator (last store first), with the
    triple: the inputs' memrefs at their contents, the q window's at anything, the kᵀv window's handed back untouched,
    the accumulator at anything. -/
noncomputable def kernelRun0_A (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole)
    (hc0 : cond0_0 i) (hc1 : ¬cond0_1 i)
    (x0 : Vec F S1x512x1024 .f32) (x1 : Vec F S1024 .f32) (x2 : Vec F S1024 .f32) (x3 : Vec F S1024x3072 .bf16) (x4 : Vec F S3072 .f32) :
    Σ' (L5 : List (View.Piece (Elt F) S1x512x1024 .bf16)), { LS0 : List (View.Piece (Elt F) S1024x1024 .f32) //
      ∀ (xi6 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, fun xi6 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.Kernel.Hand

end
-- ==== Proof.K.R0RunB.lean ====
/-
  The body of region 0 run at a middle tile of a batch (this tile's kᵀv is added to the accumulator the tile before left; nothing is written to the kᵀv window): on whole staging memrefs holding the input blocks, it runs to
  the end leaving the inputs as they were and, in each buffer it stores into, the pieces its stores wrote (found by
  running it).
-/
import proofs.«126821_j79027398246801_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the q window's buffer and in the accumulator (last store first), with the
    triple: the inputs' memrefs at their contents, the q window's at anything, the kᵀv window's handed back untouched,
    the accumulator at what the tile before left. -/
noncomputable def kernelRun0_B (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole)
    (hc0 : ¬cond0_0 i) (hc1 : ¬cond0_1 i)
    (x0 : Vec F S1x512x1024 .f32) (x1 : Vec F S1024 .f32) (x2 : Vec F S1024 .f32) (x3 : Vec F S1024x3072 .bf16) (x4 : Vec F S3072 .f32) (xs0 : Vec F S1024x1024 .f32) :
    Σ' (L5 : List (View.Piece (Elt F) S1x512x1024 .bf16)), { LS0 : List (View.Piece (Elt F) S1024x1024 .f32) //
      ∀ (xi6 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, fun xi6 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.Kernel.Hand

end
-- ==== Proof.K.R0RunC.lean ====
/-
  The body of region 0 run at the last tile of a batch (this tile's kᵀv is added to the accumulator the tile before left, and the sum is written to the kᵀv window): on whole staging memrefs holding the input blocks, it runs to
  the end leaving the inputs as they were and, in each buffer it stores into, the pieces its stores wrote (found by
  running it).
-/
import proofs.«126821_j79027398246801_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the q window's buffer, in the kᵀv window's buffer and in the accumulator (last store first), with the
    triple: the inputs' memrefs at their contents, the q window's at anything, the kᵀv window's at anything,
    the accumulator at what the tile before left. -/
noncomputable def kernelRun0_C (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole)
    (hc0 : ¬cond0_0 i) (hc1 : cond0_1 i)
    (x0 : Vec F S1x512x1024 .f32) (x1 : Vec F S1024 .f32) (x2 : Vec F S1024 .f32) (x3 : Vec F S1024x3072 .bf16) (x4 : Vec F S3072 .f32) (xs0 : Vec F S1024x1024 .f32) :
    Σ' (L5 : List (View.Piece (Elt F) S1x512x1024 .bf16)) (L6 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.Region0.lean ====
/-
  Region 0 (LayerNorm, the fused q/k/v projection, kᵀv accumulated over the 8 tiles of a batch): what its outputs and
  its accumulator hold point by point, the proof data of its pipeline, the body obligation at every grid point, and the
  region invariant — before the first point the scratch at anything; after a point the accumulator at that point's sum.
-/
import proofs.«126821_j79027398246801_2_alg».proof.Proof.K.R0RunA
import proofs.«126821_j79027398246801_2_alg».proof.Proof.K.R0RunB
import proofs.«126821_j79027398246801_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- The one store into the q window's buffer covers it. -/
theorem cover0_A_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) (y : S1x512x1024.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x512x1024.size (by sl_kernel_rfl) y
/-- What the body leaves in the q window's buffer: its pieces read back. -/
def out0_A_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) : Vec F S1x512x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)
/-- The stores into the accumulator cover it. -/
theorem scover0_A_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) (y : S1024x1024.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x1024.size (by sl_kernel_rfl) y
/-- What the body leaves in the accumulator: its pieces read back. -/
def sout0_A_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- The one store into the q window's buffer covers it. -/
theorem cover0_B_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1x512x1024.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S1x512x1024.size (by sl_kernel_rfl) y
/-- What the body leaves in the q window's buffer: its pieces read back. -/
def out0_B_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1x512x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)
/-- The stores into the accumulator cover it. -/
theorem scover0_B_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1024x1024.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S1024x1024.size (by sl_kernel_rfl) y
/-- What the body leaves in the accumulator: its pieces read back. -/
def sout0_B_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)

/-- The one store into the q window's buffer covers it. -/
theorem cover0_C_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1x512x1024.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S1x512x1024.size (by sl_kernel_rfl) y
/-- What the body leaves in the q window's buffer: its pieces read back. -/
def out0_C_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1x512x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)
/-- The stores into the accumulator cover it. -/
theorem scover0_C_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1024x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.2.1 S1024x1024.size (by sl_kernel_rfl) y
/-- What the body leaves in the accumulator: its pieces read back. -/
def sout0_C_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.2.1)
/-- The one store into the kᵀv window's buffer covers it. -/
theorem cover0_C_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S1x1024x1024.size (by sl_kernel_rfl) y
/-- What the body leaves in the kᵀv window's buffer at the last tile of a batch: its pieces read back. -/
def out0_C_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1x1024x1024 .bf16 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs0).2.1)

/-- Where the body stores nothing into the kᵀv window (the window is idle there and not written back): a placeholder
    that nothing consults. -/
def out0_idle_6 : Vec F S1x1024x1024 .bf16 := VO0_6.read (Elt F) (VO0_6.writes (Elt F) VO0_6.junk [])

/-! ## What the outputs and the accumulator hold after each point -/

/-- After the body at position `n`: the q window's buffer, the kᵀv window's buffer, the accumulator. The first tile of
    a batch starts the accumulator afresh; every other tile adds to what the point before left. -/
def outsAt0 (c : Dev nD) : (n : ℕ) → n < cfg0.N → Vec F S1x512x1024 .bf16 × Vec F S1x1024x1024 .bf16 × Vec F S1024x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_idle_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_idle_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, out0_idle_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), out0_idle_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2, out0_idle_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the scratch at anything; afterwards the accumulator at what the point before
    left, beside the scoped buffers the region never touches and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The pipeline's proof data -/

/-- The arrays as the region finds them; after the body at point `t` each input's buffer at its block, the q window's
    and the kᵀv window's at what the point leaves; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; which of the three kinds the point is of is decided by
    its position in the batch; the invariant hands the body the accumulator at what the point before left (at anything
    at the very first point, and where a batch starts the old sum is simply overwritten) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 32 := lt_of_lt_of_eq t.isLt (show cfg0.N = 32 from N_0)
  by_cases h0 : t.val % 8 = 0
  · have h1 : ¬t.val % 8 = 7 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_5 sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
  · by_cases h1 : t.val % 8 = 7
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 sout0_C_0 out0_C_6; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _)
    · rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_5 sout0_B_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scratch back at some contents: the accumulator's sum is forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Cert.Kernel.Hand

end
-- ==== Proof.K.Region1.lean ====
/- REGION 1 of the program: the second kernel call, out = ((q · kv) · (1/32)) · projWT + proj_b + residual on
   whole 1024×1024 blocks, over a 4×4 grid.  This module states, generically in the float instance and at a parameter
   `V` (the core's buffer contents when the region is entered), each window's block at a grid point, what the body
   leaves in the output window's buffer as a closed function of the five input blocks, the body's triple, the
   pipeline's proof data and the body obligation at every point.

   The mathematics: the body reads its five input buffers whole, computes one value from them and writes it over the
   whole output buffer; so after the body the output buffer holds exactly that value, whatever it held before
   (the body also reads the output buffer once, and discards what it read).  Every input buffer holds its window's
   block at every point, whether or not it was fetched there: a window whose block index did not move keeps the
   block it already had. -/
import proofs.«126821_j79027398246801_2_alg».proof.Proof.Gen.Kernel.Launch
import proofs.«126821_j79027398246801_2_alg».proof.Proof.Gen.Kernel.Skeleton
import proofs.«126821_j79027398246801_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (q, one block per point): its current staging buffer holds its block at every point, fetched there or not, for
    any proof data whose array is `V`'s (`hA`) and whose body leaves the block in place (`hafter`). Where the
    window is not fetched its block index has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (kv, one block per batch: its index moves only when the batch does): its current staging buffer holds its block at every point, fetched there or not, for
    any proof data whose array is `V`'s (`hA`) and whose body leaves the block in place (`hafter`). Where the
    window is not fetched its block index has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the projection matrix, one block for the whole grid): its current staging buffer holds its block at every point, fetched there or not, for
    any proof data whose array is `V`'s (`hA`) and whose body leaves the block in place (`hafter`). Where the
    window is not fetched its block index has not moved, so the block already there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the projection bias, one block for the whole grid): its current staging buffer holds its block at every point, fetched there or not, for
    any proof data whose array is `V`'s (`hA`) and whose body leaves the block in place (`hafter`). Where the
    window is not fetched its block index has not moved, so the block already there is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the residual, one block per point): its current staging buffer holds its block at every point, fetched there or not, for
    any proof data whose array is `V`'s (`hA`) and whose body leaves the block in place (`hafter`). Where the
    window is not fetched its block index has not moved, so the block already there is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read, and the output buffer written, through its whole-shape rectangle -/

abbrev r1_a : Rect S1x1024x1024 := Rect.unit (s := S1x1024x1024) ![0, 0, 0] S1x1024x1024.size inb_S1x1024x1024_S1x1024x1024_0_0_0
abbrev r1_b : Rect S1024x1024 := Rect.unit (s := S1024x1024) ![0, 0] S1024x1024.size inb_S1024x1024_S1024x1024_0_0
abbrev r1_c : Rect S1024 := Rect.unit (s := S1024) ![0] S1024.size inb_S1024_S1024_0

/-! ## What the body leaves in the output window's buffer -/

/-- Window 5's staging buffer after the body, from the five input blocks: its one store, of the whole block, of the
    value computed from the five whole-buffer loads. -/
def out1_5 (x0 : Vec F S1x1024x1024 .bf16) (x1 : Vec F S1x1024x1024 .bf16) (x2 : Vec F S1024x1024 .bf16) (x3 : Vec F S1024 .f32)
    (x4 : Vec F S1x1024x1024 .f32) : Vec F S1x1024x1024 .f32 :=
  View.canon [⟨r1_a, k1_pay1 (View.ld x0 r1_a) (View.ld x1 r1_a) (View.ld x2 r1_b) (View.ld x3 r1_c) (View.ld x4 r1_a)⟩]

/-- The one store's rectangle is the whole shape at zero offsets, so every index of the buffer lies in it. -/
theorem cover1_5 (p0 : Vec F S1x1024x1024 .f32) (y : S1x1024x1024.Idx) :
    ∃ pc ∈ ([⟨r1_a, p0⟩] : List (View.Piece (Elt F) S1x1024x1024 .f32)), y ∈ pc.1.set :=
  ⟨_, List.mem_singleton_self _, View.mem_set_unit_zero (by funext a; fin_cases a <;> rfl) inb_S1x1024x1024_S1x1024x1024_0_0_0 y⟩

/-- One store of the whole block leaves its payload, and a whole-buffer load reads the contents: the output buffer
    after the body is the computed value of the five input blocks themselves. -/
theorem out1_5_eq (x0 : Vec F S1x1024x1024 .bf16) (x1 : Vec F S1x1024x1024 .bf16) (x2 : Vec F S1024x1024 .bf16) (x3 : Vec F S1024 .f32)
    (x4 : Vec F S1x1024x1024 .f32) : out1_5 x0 x1 x2 x3 x4 = k1_pay1 x0 x1 x2 x3 x4 := by
  unfold out1_5
  rw [View.canon_unit_zero (by funext a; fin_cases a <;> rfl),
    View.ld_unit_zero (by funext a; fin_cases a <;> rfl) _ x0, View.ld_unit_zero (by funext a; fin_cases a <;> rfl) _ x1,
    View.ld_unit_zero (by funext a; fin_cases a <;> rfl) _ x2, View.ld_unit_zero (by funext a; fin_cases a <;> rfl) _ x3,
    View.ld_unit_zero (by funext a; fin_cases a <;> rfl) _ x4]

/-! ## The body's triple -/

set_option maxHeartbeats 1000000 in
/-- The body on whole staging memrefs — the five inputs' at read contents `x0 … x4`, the output's at anything — runs
    to the continuation holding the inputs' as they were and the output's at `out1_5` of the inputs': it reads the
    five inputs, reads the output buffer once (the value read is not used), and writes the computed value over the
    whole output buffer, which therefore holds it whatever it held before. -/
theorem sound_kernel1 (c : Dev nD) (E : Set ℕ) (i : grid1.Coords)
    (arg2 : Memref sig .tc .vmem S1x1024x1024 .bf16) (harg2 : arg2.IsWhole) (arg3 : Memref sig .tc .vmem S1x1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x1024x1024 .f32) (harg6 : arg6.IsWhole) (arg7 : Memref sig .tc .vmem S1x1024x1024 .f32) (harg7 : arg7.IsWhole)
    (x0 : Vec F S1x1024x1024 .bf16) (x1 : Vec F S1x1024x1024 .bf16) (x2 : Vec F S1024x1024 .bf16) (x3 : Vec F S1024 .f32)
    (x4 : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body at point
    `t` each input's buffer still at its block and the output's at `out1_5` of the five input blocks; the invariant
    is that the core's other scoped buffers and its generator register are untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one: the invariant, what the core owes, each input's
    current buffer at what it then holds, and the output's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same at the next point, every buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as four segments — the host operations that transpose and round the two weight matrices, region 0,
  the copy of x into the result's buffer, region 1 — and its run: from any memory with zero counters every weakly
  fair execution terminates, and every unscoped buffer ends at the contents the fold through the segments computes.
  The contents at each boundary: a host stretch applies its operations; a region leaves each of its arrays at what
  its write-backs leave and every other buffer as it found it.
-/
import proofs.«126821_j79027398246801_2_alg».proof.Proof.K.Region0
import proofs.«126821_j79027398246801_2_alg».proof.Proof.K.Region1
import proofs.«126821_j79027398246801_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wa0 : Dev nD → Valuation τ sig (Elt F) := fun c b => (s₀ m ρ).mem ((c : Dev nD), b)
/-- After the first host stretch (region 0's entry). -/
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
/-- At region 0's exit. -/
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

/-- After the copy of x into the result's buffer (region 1's entry). -/
abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
/-- At region 1's exit. -/
def Wa4 (c : Dev nD) : Valuation τ sig (Elt F) :=
  Pipeline.withArrays spec1 c (Wa3 m ρ c) fun w => (dat1 (Va3 m ρ) c).arrAt w cfg1.N
theorem Wa4_arr (c : Dev nD) (w : Fin cfg1.W) :
    Wa4 m ρ c (Proc.devRef .tc (Pipeline.arrRef spec1 w)) = (dat1 (Va3 m ρ) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m ρ c (Proc.devRef .tc b) = Wa3 m ρ c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m ρ c b
theorem hF1 (c : Dev nD) (w : Fin cfg1.W) : (dat1 (Va3 m ρ) c).arrAt w cfg1.N = Va4 m ρ c (Pipeline.arrRef spec1 w) :=
  (Wa4_arr m ρ c w).symm
theorem hrest1 (c : Dev nD) : ∀ b, b ∉ Finset.univ.image (Pipeline.arrRef spec1) → Va4 m ρ c b = Va3 m ρ c b :=
  fun b hb => Wa4_of_ne m ρ c b fun w e => hb (Finset.mem_image.mpr ⟨w, Finset.mem_univ _, e⟩)

/-- A host stretch changes only the buffers its operations write. -/
theorem Wa1_keep (c : Dev nD) (b : Ref sig .tc) (h : b ∉ hostOps0_W) : Wa1 m ρ c (Proc.devRef .tc b) = Wa0 m ρ c (Proc.devRef .tc b) :=
  StableHlo.after_of_writes_sub hostOps0 _ hostOps0_writes h
theorem Wa3_keep (c : Dev nD) (b : Ref sig .tc) (h : b ∉ hostOps1_W) : Wa3 m ρ c (Proc.devRef .tc b) = Wa2 m ρ c (Proc.devRef .tc b) :=
  StableHlo.after_of_writes_sub hostOps1 _ hostOps1_writes h

/-! ## The arguments end as launched -/

theorem Wa4_main_arg0 (c : Dev nD) : Wa4 m ρ c (Proc.devRef .tc main_arg0) = m ((c : Thread nD τ).loc main_arg0) :=
  calc Wa4 m ρ c (Proc.devRef .tc main_arg0)
    _ = Wa3 m ρ c (Proc.devRef .tc main_arg0) := (Wa4_arr m ρ c 4).trans (((dat1 (Va3 m ρ) c).arrAt_in 4 rfl _).trans (A_eq1 (Va3 m ρ) c 4))
    _ = Wa2 m ρ c (Proc.devRef .tc main_arg0) := Wa3_keep m ρ c main_arg0 (by decide)
    _ = Wa1 m ρ c (Proc.devRef .tc main_arg0) := (Wa2_arr m ρ c 0).trans (((dat0 (Va1 m ρ) c).arrAt_in 0 rfl _).trans (A_eq0 (Va1 m ρ) c 0))
    _ = Wa0 m ρ c (Proc.devRef .tc main_arg0) := Wa1_keep m ρ c main_arg0 (by decide)
    _ = m ((c : Thread nD τ).loc main_arg0) := rfl
theorem Wa4_main_arg1 (c : Dev nD) : Wa4 m ρ c (Proc.devRef .tc main_arg1) = m ((c : Thread nD τ).loc main_arg1) :=
  calc Wa4 m ρ c (Proc.devRef .tc main_arg1)
    _ = Wa3 m ρ c (Proc.devRef .tc main_arg1) := Wa4_of_ne m ρ c main_arg1 (by decide)
    _ = Wa2 m ρ c (Proc.devRef .tc main_arg1) := Wa3_keep m ρ c main_arg1 (by decide)
    _ = Wa1 m ρ c (Proc.devRef .tc main_arg1) := (Wa2_arr m ρ c 1).trans (((dat0 (Va1 m ρ) c).arrAt_in 1 rfl _).trans (A_eq0 (Va1 m ρ) c 1))
    _ = Wa0 m ρ c (Proc.devRef .tc main_arg1) := Wa1_keep m ρ c main_arg1 (by decide)
    _ = m ((c : Thread nD τ).loc main_arg1) := rfl
theorem Wa4_main_arg2 (c : Dev nD) : Wa4 m ρ c (Proc.devRef .tc main_arg2) = m ((c : Thread nD τ).loc main_arg2) :=
  calc Wa4 m ρ c (Proc.devRef .tc main_arg2)
    _ = Wa3 m ρ c (Proc.devRef .tc main_arg2) := Wa4_of_ne m ρ c main_arg2 (by decide)
    _ = Wa2 m ρ c (Proc.devRef .tc main_arg2) := Wa3_keep m ρ c main_arg2 (by decide)
    _ = Wa1 m ρ c (Proc.devRef .tc main_arg2) := (Wa2_arr m ρ c 2).trans (((dat0 (Va1 m ρ) c).arrAt_in 2 rfl _).trans (A_eq0 (Va1 m ρ) c 2))
    _ = Wa0 m ρ c (Proc.devRef .tc main_arg2) := Wa1_keep m ρ c main_arg2 (by decide)
    _ = m ((c : Thread nD τ).loc main_arg2) := rfl
theorem Wa4_main_arg3 (c : Dev nD) : Wa4 m ρ c (Proc.devRef .tc main_arg3) = m ((c : Thread nD τ).loc main_arg3) :=
  calc Wa4 m ρ c (Proc.devRef .tc main_arg3)
    _ = Wa3 m ρ c (Proc.devRef .tc main_arg3) := Wa4_of_ne m ρ c main_arg3 (by decide)
    _ = Wa2 m ρ c (Proc.devRef .tc main_arg3) := Wa3_keep m ρ c main_arg3 (by decide)
    _ = Wa1 m ρ c (Proc.devRef .tc main_arg3) := Wa2_of_ne m ρ c main_arg3 (by decide)
    _ = Wa0 m ρ c (Proc.devRef .tc main_arg3) := Wa1_keep m ρ c main_arg3 (by decide)
    _ = m ((c : Thread nD τ).loc main_arg3) := rfl
theorem Wa4_main_arg4 (c : Dev nD) : Wa4 m ρ c (Proc.devRef .tc main_arg4) = m ((c : Thread nD τ).loc main_arg4) :=
  calc Wa4 m ρ c (Proc.devRef .tc main_arg4)
    _ = Wa3 m ρ c (Proc.devRef .tc main_arg4) := Wa4_of_ne m ρ c main_arg4 (by decide)
    _ = Wa2 m ρ c (Proc.devRef .tc main_arg4) := Wa3_keep m ρ c main_arg4 (by decide)
    _ = Wa1 m ρ c (Proc.devRef .tc main_arg4) := (Wa2_arr m ρ c 4).trans (((dat0 (Va1 m ρ) c).arrAt_in 4 rfl _).trans (A_eq0 (Va1 m ρ) c 4))
    _ = Wa0 m ρ c (Proc.devRef .tc main_arg4) := Wa1_keep m ρ c main_arg4 (by decide)
    _ = m ((c : Thread nD τ).loc main_arg4) := rfl
theorem Wa4_main_arg5 (c : Dev nD) : Wa4 m ρ c (Proc.devRef .tc main_arg5) = m ((c : Thread nD τ).loc main_arg5) :=
  calc Wa4 m ρ c (Proc.devRef .tc main_arg5)
    _ = Wa3 m ρ c (Proc.devRef .tc main_arg5) := Wa4_of_ne m ρ c main_arg5 (by decide)
    _ = Wa2 m ρ c (Proc.devRef .tc main_arg5) := Wa3_keep m ρ c main_arg5 (by decide)
    _ = Wa1 m ρ c (Proc.devRef .tc main_arg5) := Wa2_of_ne m ρ c main_arg5 (by decide)
    _ = Wa0 m ρ c (Proc.devRef .tc main_arg5) := Wa1_keep m ρ c main_arg5 (by decide)
    _ = m ((c : Thread nD τ).loc main_arg5) := rfl
theorem Wa4_main_arg6 (c : Dev nD) : Wa4 m ρ c (Proc.devRef .tc main_arg6) = m ((c : Thread nD τ).loc main_arg6) :=
  calc Wa4 m ρ c (Proc.devRef .tc main_arg6)
    _ = Wa3 m ρ c (Proc.devRef .tc main_arg6) := (Wa4_arr m ρ c 3).trans (((dat1 (Va3 m ρ) c).arrAt_in 3 rfl _).trans (A_eq1 (Va3 m ρ) c 3))
    _ = Wa2 m ρ c (Proc.devRef .tc main_arg6) := Wa3_keep m ρ c main_arg6 (by decide)
    _ = Wa1 m ρ c (Proc.devRef .tc main_arg6) := Wa2_of_ne m ρ c main_arg6 (by decide)
    _ = Wa0 m ρ c (Proc.devRef .tc main_arg6) := Wa1_keep m ρ c main_arg6 (by decide)
    _ = m ((c : Thread nD τ).loc main_arg6) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (Va1 m ρ) c
  | ⟨1, _⟩ => fun c => dat1 (Va3 m ρ) c
abbrev VarH : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RstH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RstH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev TnH (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
/-- Region 0 over the thread state: entered from every unscoped buffer at the contents before it, left with its arrays at
    what the pipeline's write-backs leave and every other buffer as entered. Its arrays are split out of the unscoped
    buffers and put back; the generator register goes into the region invariant and comes out; nothing is owed; the
    kernel has no semaphore of its own. -/
def reg0H : Pipeline.RegionSeg (pcfgs (F := F)) adm (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RstH c)
  post c := iprop(StableHlo.held (c : Thread nD τ) (Pipeline.ucRefs τ sig) (Wa2 m ρ c) ∗ RstH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (P : sProp 𝕄), iprop((∃ r, prngReg c r) ∗ P ∗ Pipeline.scopedRest (Ix := Unit) (Name := ℕ) (U := UR sig nD τ) (Lvl := ℕ) (Val := Elt F) spec0 c) ⊢ (Pipeline.ΦA spec0 c : sProp 𝕄) := by
      intro P; unfold Pipeline.ΦA
      iintro ⟨Hp, -, Hr⟩
      isplitl [Hr]; · iexact Hr
      iexact Hp
    exact (h _).trans (hin0 (Va1 m ρ) c)
  hout c := by
    rw [Pipeline.ownSems0_none]
    have h : (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (Va1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays at
    what the pipeline's write-backs leave and every other buffer as entered. Its arrays are split out of the unscoped
    buffers and put back; the generator register goes into the region invariant and comes out; nothing is owed; the
    kernel has no semaphore of its own. -/
def reg1H : Pipeline.RegionSeg (pcfgs (F := F)) adm (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ LH lvH 1 fun _ _ => rfl
  pre c := iprop(StableHlo.held (c : Thread nD τ) (Pipeline.ucRefs τ sig) (Wa3 m ρ c) ∗ RstH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (Va3 m ρ c) (Va4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm (pdatsH m ρ) () defs₀ VarH LH lvH) :=
  [ .host (hsegH hostOps0 hostOps0_sub hostOps0_fresh (Wa0 m ρ)),
    .region (reg0H m ρ),
    .host (hsegH hostOps1 hostOps1_sub hostOps1_fresh (Wa2 m ρ)),
    .region (reg1H m ρ) ]
theorem main_runH (c : Dev nD) : main (F := F) c = Pipeline.Seg.run (segsH m ρ) := (main_chain c).trans (by chain_rfl)

set_option backward.isDefEq.respectTransparency.types false in
/-- THE RUN: every weakly fair execution terminates, nothing faulting, and every unscoped buffer ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) adm (pdatsH m ρ) () cellOf_inj emb₁ defs₀ VarH LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RstH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c => h c)

/-- The frame: the seven argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_ucH main_arg0 (by decide))).trans (Wa4_main_arg0 m ρ c),
    (h c _ (mem_ucH main_arg1 (by decide))).trans (Wa4_main_arg1 m ρ c),
    (h c _ (mem_ucH main_arg2 (by decide))).trans (Wa4_main_arg2 m ρ c),
    (h c _ (mem_ucH main_arg3 (by decide))).trans (Wa4_main_arg3 m ρ c),
    (h c _ (mem_ucH main_arg4 (by decide))).trans (Wa4_main_arg4 m ρ c),
    (h c _ (mem_ucH main_arg5 (by decide))).trans (Wa4_main_arg5 m ρ c),
    (h c _ (mem_ucH main_arg6 (by decide))).trans (Wa4_main_arg6 m ρ c)⟩) (run_all m ρ)

/-- The run with the result named: the result's buffer ends at the last boundary's contents there, the arguments as launched. -/
theorem run_valH : θ_run defs (onTc (τ := τ) (main (F := F))) ⟨m, fun _ => 0, ρ⟩ (fun r => ∀ c : Dev nD,
      r.2.mem ((c.tc : Thread nD τ).loc main_v5) = Wa4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c _ (mem_ucH main_v5 (by decide)), (h c _ (mem_ucH main_arg0 (by decide))).trans (Wa4_main_arg0 m ρ c),
    (h c _ (mem_ucH main_arg1 (by decide))).trans (Wa4_main_arg1 m ρ c),
    (h c _ (mem_ucH main_arg2 (by decide))).trans (Wa4_main_arg2 m ρ c),
    (h c _ (mem_ucH main_arg3 (by decide))).trans (Wa4_main_arg3 m ρ c),
    (h c _ (mem_ucH main_arg4 (by decide))).trans (Wa4_main_arg4 m ρ c),
    (h c _ (mem_ucH main_arg5 (by decide))).trans (Wa4_main_arg5 m ρ c),
    (h c _ (mem_ucH main_arg6 (by decide))).trans (Wa4_main_arg6 m ρ c)⟩) (run_all m ρ)

end Cert.Kernel.Hand

end
-- ==== Proof.KI.R0Base.lean ====
/-
  Region 0 of the program (the first kernel call: LayerNorm of a 512-row tile, the fused q/k/v projection, the q tile
  written out, kᵀv accumulated in a 1024×1024 scratch over the 8 tiles of a batch and written out at the last one):
  what its frame and its value are stated over. The blocks of the windows read off the arrays as the region finds
  them, the two branch conditions of the body decided over the grid (the first tile of a batch; the last), where the
  kᵀv output window is idle, and the scratch and staging memrefs by name.
-/
import proofs.«126821_j79027398246801_2_alg».proof.Proof.Gen.KernelIdeal.Launch
import proofs.«126821_j79027398246801_2_alg».proof.Proof.Gen.KernelIdeal.Skeleton
import proofs.«126821_j79027398246801_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched the block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched the block index has not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched the block index has not moved), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when it is not
    fetched the block index has not moved), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when it is not
    fetched the block index has not moved), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches -/

/-- The first branch of the body (zero the accumulator): the second grid coordinate is 0. -/
abbrev cond0_0 (i : grid0.Coords) : Prop := (Scalar.cmpi .ne (Scalar.extui (Scalar.cmpi .eq (BitVec.ofNat 32 (i 1).val) 0#32)) 0#32) = 1#1
/-- It is taken at the first of every 8 points. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (write the accumulator out): the second grid coordinate is 7. -/
abbrev cond0_1 (i : grid0.Coords) : Prop := k0_cond2 i = 1#1
/-- It is taken at the last of every 8 points. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last tile of a batch the kᵀv window is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last tile it is live. -/
theorem liveAt0_6 : ∀ t : Fin cfg0.N, cond0_1 (grid0.coords t) → cfg0.idle 6 (grid0.coords t) = false := by decide +kernel

/-! ## The staging and scratch memrefs -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1024 .bf16 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S1024x1024 .f32 := Memref.whole cc0_scratch0
abbrev VS0_0 : View sig .tc .vmem S1024x1024 .f32 := scM0_0.view
/-- One staging buffer of each output window, through which its contents are stated. -/
abbrev VO0_5 : View sig .tc .vmem S1x512x1024 .bf16 := (Memref.whole cc0_stg5_0 : Memref sig .tc .vmem S1x512x1024 .bf16).view
abbrev VO0_6 : View sig .tc .vmem S1x1024x1024 .bf16 := (Memref.whole cc0_stg6_0 : Memref sig .tc .vmem S1x1024x1024 .bf16).view

/-- The scoped buffers of the core that region 0 never touches (the other call's staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant of a body that describes nothing: the accumulator at some contents, the untouched scoped
    buffers, the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Hand

end
-- ==== Proof.KI.R0RunA.lean ====
/-
  The body of region 0 run at the first tile of a batch (the accumulator is zeroed, then this tile's kᵀv added; nothing is written to the kᵀv window): on whole staging memrefs holding the input blocks, it runs to
  the end leaving the inputs as they were and, in each buffer it stores into, the pieces its stores wrote (found by
  running it).
-/
import proofs.«126821_j79027398246801_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the q window's buffer and in the accumulator (last store first), with the
    triple: the inputs' memrefs at their contents, the q window's at anything, the kᵀv window's handed back untouched,
    the accumulator at anything. -/
noncomputable def kernelRun0_A (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole)
    (hc0 : cond0_0 i) (hc1 : ¬cond0_1 i)
    (x0 : Vec F S1x512x1024 .f32) (x1 : Vec F S1024 .f32) (x2 : Vec F S1024 .f32) (x3 : Vec F S1024x3072 .bf16) (x4 : Vec F S3072 .f32) :
    Σ' (L5 : List (View.Piece (Elt F) S1x512x1024 .bf16)), { LS0 : List (View.Piece (Elt F) S1024x1024 .f32) //
      ∀ (xi6 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, fun xi6 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.KernelIdeal.Hand

end
-- ==== Proof.KI.R0RunB.lean ====
/-
  The body of region 0 run at a middle tile of a batch (this tile's kᵀv is added to the accumulator the tile before left; nothing is written to the kᵀv window): on whole staging memrefs holding the input blocks, it runs to
  the end leaving the inputs as they were and, in each buffer it stores into, the pieces its stores wrote (found by
  running it).
-/
import proofs.«126821_j79027398246801_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the q window's buffer and in the accumulator (last store first), with the
    triple: the inputs' memrefs at their contents, the q window's at anything, the kᵀv window's handed back untouched,
    the accumulator at what the tile before left. -/
noncomputable def kernelRun0_B (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole)
    (hc0 : ¬cond0_0 i) (hc1 : ¬cond0_1 i)
    (x0 : Vec F S1x512x1024 .f32) (x1 : Vec F S1024 .f32) (x2 : Vec F S1024 .f32) (x3 : Vec F S1024x3072 .bf16) (x4 : Vec F S3072 .f32) (xs0 : Vec F S1024x1024 .f32) :
    Σ' (L5 : List (View.Piece (Elt F) S1x512x1024 .bf16)), { LS0 : List (View.Piece (Elt F) S1024x1024 .f32) //
      ∀ (xi6 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, fun xi6 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.KernelIdeal.Hand

end
-- ==== Proof.KI.R0RunC.lean ====
/-
  The body of region 0 run at the last tile of a batch (this tile's kᵀv is added to the accumulator the tile before left, and the sum is written to the kᵀv window): on whole staging memrefs holding the input blocks, it runs to
  the end leaving the inputs as they were and, in each buffer it stores into, the pieces its stores wrote (found by
  running it).
-/
import proofs.«126821_j79027398246801_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the q window's buffer, in the kᵀv window's buffer and in the accumulator (last store first), with the
    triple: the inputs' memrefs at their contents, the q window's at anything, the kᵀv window's at anything,
    the accumulator at what the tile before left. -/
noncomputable def kernelRun0_C (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole)
    (hc0 : ¬cond0_0 i) (hc1 : cond0_1 i)
    (x0 : Vec F S1x512x1024 .f32) (x1 : Vec F S1024 .f32) (x2 : Vec F S1024 .f32) (x3 : Vec F S1024x3072 .bf16) (x4 : Vec F S3072 .f32) (xs0 : Vec F S1024x1024 .f32) :
    Σ' (L5 : List (View.Piece (Elt F) S1x512x1024 .bf16)) (L6 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8 arg9 harg9) K } := by
  refine ⟨?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.Region0.lean ====
/-
  Region 0 (LayerNorm, the fused q/k/v projection, kᵀv accumulated over the 8 tiles of a batch): what its outputs and
  its accumulator hold point by point, the proof data of its pipeline, the body obligation at every grid point, and the
  region invariant — before the first point the scratch at anything; after a point the accumulator at that point's sum.
-/
import proofs.«126821_j79027398246801_2_alg».proof.Proof.KI.R0RunA
import proofs.«126821_j79027398246801_2_alg».proof.Proof.KI.R0RunB
import proofs.«126821_j79027398246801_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- The one store into the q window's buffer covers it. -/
theorem cover0_A_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) (y : S1x512x1024.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1x512x1024.size (by sl_kernel_rfl) y
/-- What the body leaves in the q window's buffer: its pieces read back. -/
def out0_A_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) : Vec F S1x512x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)
/-- The stores into the accumulator cover it. -/
theorem scover0_A_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) (y : S1024x1024.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x1024.size (by sl_kernel_rfl) y
/-- What the body leaves in the accumulator: its pieces read back. -/
def sout0_A_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- The one store into the q window's buffer covers it. -/
theorem cover0_B_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1x512x1024.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S1x512x1024.size (by sl_kernel_rfl) y
/-- What the body leaves in the q window's buffer: its pieces read back. -/
def out0_B_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1x512x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)
/-- The stores into the accumulator cover it. -/
theorem scover0_B_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1024x1024.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S1024x1024.size (by sl_kernel_rfl) y
/-- What the body leaves in the accumulator: its pieces read back. -/
def sout0_B_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)

/-- The one store into the q window's buffer covers it. -/
theorem cover0_C_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1x512x1024.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S1x512x1024.size (by sl_kernel_rfl) y
/-- What the body leaves in the q window's buffer: its pieces read back. -/
def out0_C_5 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1x512x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)
/-- The stores into the accumulator cover it. -/
theorem scover0_C_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1024x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.2.1 S1024x1024.size (by sl_kernel_rfl) y
/-- What the body leaves in the accumulator: its pieces read back. -/
def sout0_C_0 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.2.1)
/-- The one store into the kᵀv window's buffer covers it. -/
theorem cover0_C_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S1x1024x1024.size (by sl_kernel_rfl) y
/-- What the body leaves in the kᵀv window's buffer at the last tile of a batch: its pieces read back. -/
def out0_C_6 (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) : Vec F S1x1024x1024 .bf16 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 xs0).2.1)

/-- Where the body stores nothing into the kᵀv window (the window is idle there and not written back): a placeholder
    that nothing consults. -/
def out0_idle_6 : Vec F S1x1024x1024 .bf16 := VO0_6.read (Elt F) (VO0_6.writes (Elt F) VO0_6.junk [])

/-! ## What the outputs and the accumulator hold after each point -/

/-- After the body at position `n`: the q window's buffer, the kᵀv window's buffer, the accumulator. The first tile of
    a batch starts the accumulator afresh; every other tile adds to what the point before left. -/
def outsAt0 (c : Dev nD) : (n : ℕ) → n < cfg0.N → Vec F S1x512x1024 .bf16 × Vec F S1x1024x1024 .bf16 × Vec F S1024x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_idle_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_idle_6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, out0_idle_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), out0_idle_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2, out0_idle_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the scratch at anything; afterwards the accumulator at what the point before
    left, beside the scoped buffers the region never touches and the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 c) ∗ (∃ r, prngReg c r)) := by
  cases n with
  | zero => exact absurd rfl hz
  | succ n => rfl

/-! ## The pipeline's proof data -/

/-- The arrays as the region finds them; after the body at point `t` each input's buffer at its block, the q window's
    and the kᵀv window's at what the point leaves; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; which of the three kinds the point is of is decided by
    its position in the batch; the invariant hands the body the accumulator at what the point before left (at anything
    at the very first point, and where a batch starts the old sum is simply overwritten) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 32 := lt_of_lt_of_eq t.isLt (show cfg0.N = 32 from N_0)
  by_cases h0 : t.val % 8 = 0
  · have h1 : ¬t.val % 8 = 7 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_5 sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      iexists _; iexact H6
  · by_cases h1 : t.val % 8 = 7
    · rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 sout0_C_0 out0_C_6; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _)
    · rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_5 sout0_B_0; (try dsimp only)
      have hz : t.val ≠ 0 := by omega
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scratch back at some contents: the accumulator's sum is forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Cert.KernelIdeal.Hand

end
-- ==== Proof.KI.Region1.lean ====
/- REGION 1 of the program: the second kernel call, out = ((q · kv) · (1/32)) · projWT + proj_b + residual on
   whole 1024×1024 blocks, over a 4×4 grid.  This module states, generically in the float instance and at a parameter
   `V` (the core's buffer contents when the region is entered), each window's block at a grid point, what the body
   leaves in the output window's buffer as a closed function of the five input blocks, the body's triple, the
   pipeline's proof data and the body obligation at every point.

   The mathematics: the body reads its five input buffers whole, computes one value from them and writes it over the
   whole output buffer; so after the body the output buffer holds exactly that value, whatever it held before
   (the body also reads the output buffer once, and discards what it read).  Every input buffer holds its window's
   block at every point, whether or not it was fetched there: a window whose block index did not move keeps the
   block it already had. -/
import proofs.«126821_j79027398246801_2_alg».proof.Proof.Gen.KernelIdeal.Launch
import proofs.«126821_j79027398246801_2_alg».proof.Proof.Gen.KernelIdeal.Skeleton
import proofs.«126821_j79027398246801_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (q, one block per point): its current staging buffer holds its block at every point, fetched there or not, for
    any proof data whose array is `V`'s (`hA`) and whose body leaves the block in place (`hafter`). Where the
    window is not fetched its block index has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (kv, one block per batch: its index moves only when the batch does): its current staging buffer holds its block at every point, fetched there or not, for
    any proof data whose array is `V`'s (`hA`) and whose body leaves the block in place (`hafter`). Where the
    window is not fetched its block index has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the projection matrix, one block for the whole grid): its current staging buffer holds its block at every point, fetched there or not, for
    any proof data whose array is `V`'s (`hA`) and whose body leaves the block in place (`hafter`). Where the
    window is not fetched its block index has not moved, so the block already there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the projection bias, one block for the whole grid): its current staging buffer holds its block at every point, fetched there or not, for
    any proof data whose array is `V`'s (`hA`) and whose body leaves the block in place (`hafter`). Where the
    window is not fetched its block index has not moved, so the block already there is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the residual, one block per point): its current staging buffer holds its block at every point, fetched there or not, for
    any proof data whose array is `V`'s (`hA`) and whose body leaves the block in place (`hafter`). Where the
    window is not fetched its block index has not moved, so the block already there is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read, and the output buffer written, through its whole-shape rectangle -/

abbrev r1_a : Rect S1x1024x1024 := Rect.unit (s := S1x1024x1024) ![0, 0, 0] S1x1024x1024.size inb_S1x1024x1024_S1x1024x1024_0_0_0
abbrev r1_b : Rect S1024x1024 := Rect.unit (s := S1024x1024) ![0, 0] S1024x1024.size inb_S1024x1024_S1024x1024_0_0
abbrev r1_c : Rect S1024 := Rect.unit (s := S1024) ![0] S1024.size inb_S1024_S1024_0

/-! ## What the body leaves in the output window's buffer -/

/-- Window 5's staging buffer after the body, from the five input blocks: its one store, of the whole block, of the
    value computed from the five whole-buffer loads. -/
def out1_5 (x0 : Vec F S1x1024x1024 .bf16) (x1 : Vec F S1x1024x1024 .bf16) (x2 : Vec F S1024x1024 .bf16) (x3 : Vec F S1024 .f32)
    (x4 : Vec F S1x1024x1024 .f32) : Vec F S1x1024x1024 .f32 :=
  View.canon [⟨r1_a, k1_pay1 (View.ld x0 r1_a) (View.ld x1 r1_a) (View.ld x2 r1_b) (View.ld x3 r1_c) (View.ld x4 r1_a)⟩]

/-- The one store's rectangle is the whole shape at zero offsets, so every index of the buffer lies in it. -/
theorem cover1_5 (p0 : Vec F S1x1024x1024 .f32) (y : S1x1024x1024.Idx) :
    ∃ pc ∈ ([⟨r1_a, p0⟩] : List (View.Piece (Elt F) S1x1024x1024 .f32)), y ∈ pc.1.set :=
  ⟨_, List.mem_singleton_self _, View.mem_set_unit_zero (by funext a; fin_cases a <;> rfl) inb_S1x1024x1024_S1x1024x1024_0_0_0 y⟩

/-- One store of the whole block leaves its payload, and a whole-buffer load reads the contents: the output buffer
    after the body is the computed value of the five input blocks themselves. -/
theorem out1_5_eq (x0 : Vec F S1x1024x1024 .bf16) (x1 : Vec F S1x1024x1024 .bf16) (x2 : Vec F S1024x1024 .bf16) (x3 : Vec F S1024 .f32)
    (x4 : Vec F S1x1024x1024 .f32) : out1_5 x0 x1 x2 x3 x4 = k1_pay1 x0 x1 x2 x3 x4 := by
  unfold out1_5
  rw [View.canon_unit_zero (by funext a; fin_cases a <;> rfl),
    View.ld_unit_zero (by funext a; fin_cases a <;> rfl) _ x0, View.ld_unit_zero (by funext a; fin_cases a <;> rfl) _ x1,
    View.ld_unit_zero (by funext a; fin_cases a <;> rfl) _ x2, View.ld_unit_zero (by funext a; fin_cases a <;> rfl) _ x3,
    View.ld_unit_zero (by funext a; fin_cases a <;> rfl) _ x4]

/-! ## The body's triple -/

set_option maxHeartbeats 1000000 in
/-- The body on whole staging memrefs — the five inputs' at read contents `x0 … x4`, the output's at anything — runs
    to the continuation holding the inputs' as they were and the output's at `out1_5` of the inputs': it reads the
    five inputs, reads the output buffer once (the value read is not used), and writes the computed value over the
    whole output buffer, which therefore holds it whatever it held before. -/
theorem sound_kernel1 (c : Dev nD) (E : Set ℕ) (i : grid1.Coords)
    (arg2 : Memref sig .tc .vmem S1x1024x1024 .bf16) (harg2 : arg2.IsWhole) (arg3 : Memref sig .tc .vmem S1x1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x1024x1024 .f32) (harg6 : arg6.IsWhole) (arg7 : Memref sig .tc .vmem S1x1024x1024 .f32) (harg7 : arg7.IsWhole)
    (x0 : Vec F S1x1024x1024 .bf16) (x1 : Vec F S1x1024x1024 .bf16) (x2 : Vec F S1024x1024 .bf16) (x3 : Vec F S1024 .f32)
    (x4 : Vec F S1x1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them (`V`); after the body at point
    `t` each input's buffer still at its block and the output's at `out1_5` of the five input blocks; the invariant
    is that the core's other scoped buffers and its generator register are untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one: the invariant, what the core owes, each input's
    current buffer at what it then holds, and the output's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same at the next point, every buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as four segments — the host operations that transpose and round the two weight matrices, region 0,
  the copy of x into the result's buffer, region 1 — and its run: from any memory with zero counters every weakly
  fair execution terminates, and every unscoped buffer ends at the contents the fold through the segments computes.
  The contents at each boundary: a host stretch applies its operations; a region leaves each of its arrays at what
  its write-backs leave and every other buffer as it found it.
-/
import proofs.«126821_j79027398246801_2_alg».proof.Proof.KI.Region0
import proofs.«126821_j79027398246801_2_alg».proof.Proof.KI.Region1
import proofs.«126821_j79027398246801_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev Wa0 : Dev nD → Valuation τ sig (Elt F) := fun c b => (s₀ m ρ).mem ((c : Dev nD), b)
/-- After the first host stretch (region 0's entry). -/
abbrev Wa1 : Dev nD → Valuation τ sig (Elt F) := fun c => StableHlo.after hostOps0 (Wa0 m ρ c)
abbrev Va1 : (c : Dev nD) → (b : Ref sig .tc) → Buf (Elt F) ((c : Thread nD τ).loc b) := fun c b => Wa1 m ρ c b
/-- At region 0's exit. -/
def Wa2 (c : Dev nD) : Valuation τ sig (Elt F) :=
  Pipeline.withArrays spec0 c (Wa1 m ρ c) fun w => (dat0 (Va1 m ρ) c).arrAt w cfg0.N
theorem Wa2_arr (c : Dev nD) (w : Fin cfg0.W) :
    Wa2 m ρ c (Proc.devRef .tc (Pipeline.arrRef spec0 w)) = (dat0 (Va1 m ρ) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m ρ c (Proc.devRef .tc b) = Wa1 m ρ c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m ρ c b
theorem hF0 (c : Dev nD) (w : Fin cfg0.W) : (dat0 (Va1 m ρ) c).arrAt w cfg0.N = Va2 m ρ c (Pipeline.arrRef spec0 w) :=
  (Wa2_arr m ρ c w).symm
theorem hrest0 (c : Dev nD) : ∀ b, b ∉ Finset.univ.image (Pipeline.arrRef spec0) → Va2 m ρ c b = Va1 m ρ c b :=
  fun b hb => Wa2_of_ne m ρ c b fun w e => hb (Finset.mem_image.mpr ⟨w, Finset.mem_univ _, e⟩)

/-- After the copy of x into the result's buffer (region 1's entry). -/
abbrev Wa3 : Dev nD → Valuation τ sig (Elt F) := fun c => StableHlo.after hostOps1 (Wa2 m ρ c)
abbrev Va3 : (c : Dev nD) → (b : Ref sig .tc) → Buf (Elt F) ((c : Thread nD τ).loc b) := fun c b => Wa3 m ρ c b
/-- At region 1's exit. -/
def Wa4 (c : Dev nD) : Valuation τ sig (Elt F) :=
  Pipeline.withArrays spec1 c (Wa3 m ρ c) fun w => (dat1 (Va3 m ρ) c).arrAt w cfg1.N
theorem Wa4_arr (c : Dev nD) (w : Fin cfg1.W) :
    Wa4 m ρ c (Proc.devRef .tc (Pipeline.arrRef spec1 w)) = (dat1 (Va3 m ρ) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m ρ c (Proc.devRef .tc b) = Wa3 m ρ c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m ρ c b
theorem hF1 (c : Dev nD) (w : Fin cfg1.W) : (dat1 (Va3 m ρ) c).arrAt w cfg1.N = Va4 m ρ c (Pipeline.arrRef spec1 w) :=
  (Wa4_arr m ρ c w).symm
theorem hrest1 (c : Dev nD) : ∀ b, b ∉ Finset.univ.image (Pipeline.arrRef spec1) → Va4 m ρ c b = Va3 m ρ c b :=
  fun b hb => Wa4_of_ne m ρ c b fun w e => hb (Finset.mem_image.mpr ⟨w, Finset.mem_univ _, e⟩)

/-- A host stretch changes only the buffers its operations write. -/
theorem Wa1_keep (c : Dev nD) (b : Ref sig .tc) (h : b ∉ hostOps0_W) : Wa1 m ρ c (Proc.devRef .tc b) = Wa0 m ρ c (Proc.devRef .tc b) :=
  StableHlo.after_of_writes_sub hostOps0 _ hostOps0_writes h
theorem Wa3_keep (c : Dev nD) (b : Ref sig .tc) (h : b ∉ hostOps1_W) : Wa3 m ρ c (Proc.devRef .tc b) = Wa2 m ρ c (Proc.devRef .tc b) :=
  StableHlo.after_of_writes_sub hostOps1 _ hostOps1_writes h

/-! ## The arguments end as launched -/

theorem Wa4_main_arg0 (c : Dev nD) : Wa4 m ρ c (Proc.devRef .tc main_arg0) = m ((c : Thread nD τ).loc main_arg0) :=
  calc Wa4 m ρ c (Proc.devRef .tc main_arg0)
    _ = Wa3 m ρ c (Proc.devRef .tc main_arg0) := (Wa4_arr m ρ c 4).trans (((dat1 (Va3 m ρ) c).arrAt_in 4 rfl _).trans (A_eq1 (Va3 m ρ) c 4))
    _ = Wa2 m ρ c (Proc.devRef .tc main_arg0) := Wa3_keep m ρ c main_arg0 (by decide)
    _ = Wa1 m ρ c (Proc.devRef .tc main_arg0) := (Wa2_arr m ρ c 0).trans (((dat0 (Va1 m ρ) c).arrAt_in 0 rfl _).trans (A_eq0 (Va1 m ρ) c 0))
    _ = Wa0 m ρ c (Proc.devRef .tc main_arg0) := Wa1_keep m ρ c main_arg0 (by decide)
    _ = m ((c : Thread nD τ).loc main_arg0) := rfl
theorem Wa4_main_arg1 (c : Dev nD) : Wa4 m ρ c (Proc.devRef .tc main_arg1) = m ((c : Thread nD τ).loc main_arg1) :=
  calc Wa4 m ρ c (Proc.devRef .tc main_arg1)
    _ = Wa3 m ρ c (Proc.devRef .tc main_arg1) := Wa4_of_ne m ρ c main_arg1 (by decide)
    _ = Wa2 m ρ c (Proc.devRef .tc main_arg1) := Wa3_keep m ρ c main_arg1 (by decide)
    _ = Wa1 m ρ c (Proc.devRef .tc main_arg1) := (Wa2_arr m ρ c 1).trans (((dat0 (Va1 m ρ) c).arrAt_in 1 rfl _).trans (A_eq0 (Va1 m ρ) c 1))
    _ = Wa0 m ρ c (Proc.devRef .tc main_arg1) := Wa1_keep m ρ c main_arg1 (by decide)
    _ = m ((c : Thread nD τ).loc main_arg1) := rfl
theorem Wa4_main_arg2 (c : Dev nD) : Wa4 m ρ c (Proc.devRef .tc main_arg2) = m ((c : Thread nD τ).loc main_arg2) :=
  calc Wa4 m ρ c (Proc.devRef .tc main_arg2)
    _ = Wa3 m ρ c (Proc.devRef .tc main_arg2) := Wa4_of_ne m ρ c main_arg2 (by decide)
    _ = Wa2 m ρ c (Proc.devRef .tc main_arg2) := Wa3_keep m ρ c main_arg2 (by decide)
    _ = Wa1 m ρ c (Proc.devRef .tc main_arg2) := (Wa2_arr m ρ c 2).trans (((dat0 (Va1 m ρ) c).arrAt_in 2 rfl _).trans (A_eq0 (Va1 m ρ) c 2))
    _ = Wa0 m ρ c (Proc.devRef .tc main_arg2) := Wa1_keep m ρ c main_arg2 (by decide)
    _ = m ((c : Thread nD τ).loc main_arg2) := rfl
theorem Wa4_main_arg3 (c : Dev nD) : Wa4 m ρ c (Proc.devRef .tc main_arg3) = m ((c : Thread nD τ).loc main_arg3) :=
  calc Wa4 m ρ c (Proc.devRef .tc main_arg3)
    _ = Wa3 m ρ c (Proc.devRef .tc main_arg3) := Wa4_of_ne m ρ c main_arg3 (by decide)
    _ = Wa2 m ρ c (Proc.devRef .tc main_arg3) := Wa3_keep m ρ c main_arg3 (by decide)
    _ = Wa1 m ρ c (Proc.devRef .tc main_arg3) := Wa2_of_ne m ρ c main_arg3 (by decide)
    _ = Wa0 m ρ c (Proc.devRef .tc main_arg3) := Wa1_keep m ρ c main_arg3 (by decide)
    _ = m ((c : Thread nD τ).loc main_arg3) := rfl
theorem Wa4_main_arg4 (c : Dev nD) : Wa4 m ρ c (Proc.devRef .tc main_arg4) = m ((c : Thread nD τ).loc main_arg4) :=
  calc Wa4 m ρ c (Proc.devRef .tc main_arg4)
    _ = Wa3 m ρ c (Proc.devRef .tc main_arg4) := Wa4_of_ne m ρ c main_arg4 (by decide)
    _ = Wa2 m ρ c (Proc.devRef .tc main_arg4) := Wa3_keep m ρ c main_arg4 (by decide)
    _ = Wa1 m ρ c (Proc.devRef .tc main_arg4) := (Wa2_arr m ρ c 4).trans (((dat0 (Va1 m ρ) c).arrAt_in 4 rfl _).trans (A_eq0 (Va1 m ρ) c 4))
    _ = Wa0 m ρ c (Proc.devRef .tc main_arg4) := Wa1_keep m ρ c main_arg4 (by decide)
    _ = m ((c : Thread nD τ).loc main_arg4) := rfl
theorem Wa4_main_arg5 (c : Dev nD) : Wa4 m ρ c (Proc.devRef .tc main_arg5) = m ((c : Thread nD τ).loc main_arg5) :=
  calc Wa4 m ρ c (Proc.devRef .tc main_arg5)
    _ = Wa3 m ρ c (Proc.devRef .tc main_arg5) := Wa4_of_ne m ρ c main_arg5 (by decide)
    _ = Wa2 m ρ c (Proc.devRef .tc main_arg5) := Wa3_keep m ρ c main_arg5 (by decide)
    _ = Wa1 m ρ c (Proc.devRef .tc main_arg5) := Wa2_of_ne m ρ c main_arg5 (by decide)
    _ = Wa0 m ρ c (Proc.devRef .tc main_arg5) := Wa1_keep m ρ c main_arg5 (by decide)
    _ = m ((c : Thread nD τ).loc main_arg5) := rfl
theorem Wa4_main_arg6 (c : Dev nD) : Wa4 m ρ c (Proc.devRef .tc main_arg6) = m ((c : Thread nD τ).loc main_arg6) :=
  calc Wa4 m ρ c (Proc.devRef .tc main_arg6)
    _ = Wa3 m ρ c (Proc.devRef .tc main_arg6) := (Wa4_arr m ρ c 3).trans (((dat1 (Va3 m ρ) c).arrAt_in 3 rfl _).trans (A_eq1 (Va3 m ρ) c 3))
    _ = Wa2 m ρ c (Proc.devRef .tc main_arg6) := Wa3_keep m ρ c main_arg6 (by decide)
    _ = Wa1 m ρ c (Proc.devRef .tc main_arg6) := Wa2_of_ne m ρ c main_arg6 (by decide)
    _ = Wa0 m ρ c (Proc.devRef .tc main_arg6) := Wa1_keep m ρ c main_arg6 (by decide)
    _ = m ((c : Thread nD τ).loc main_arg6) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (Va1 m ρ) c
  | ⟨1, _⟩ => fun c => dat1 (Va3 m ρ) c
abbrev VarH : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RstH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RstH

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev TnH (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
/-- Region 0 over the thread state: entered from every unscoped buffer at the contents before it, left with its arrays at
    what the pipeline's write-backs leave and every other buffer as entered. Its arrays are split out of the unscoped
    buffers and put back; the generator register goes into the region invariant and comes out; nothing is owed; the
    kernel has no semaphore of its own. -/
def reg0H : Pipeline.RegionSeg (pcfgs (F := F)) adm (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (Va1 m ρ) c).loose
  hwaits := Pipeline.hwaits_of_owed_zero _ _ _ _ LH lvH 0 fun _ _ => rfl
  pre c := iprop(StableHlo.held (c : Thread nD τ) (Pipeline.ucRefs τ sig) (Wa1 m ρ c) ∗ RstH c)
  post c := iprop(StableHlo.held (c : Thread nD τ) (Pipeline.ucRefs τ sig) (Wa2 m ρ c) ∗ RstH c)
  X c := iprop(∃ r, prngReg c r)
  Y c := iprop(∃ r, prngReg c r)
  Z c := Pipeline.unscopedRest (Ix := Unit) (Name := ℕ) (U := UR sig nD τ) (Lvl := ℕ) spec0 c (Va1 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (P : sProp 𝕄), iprop((∃ r, prngReg c r) ∗ P ∗ Pipeline.scopedRest (Ix := Unit) (Name := ℕ) (U := UR sig nD τ) (Lvl := ℕ) (Val := Elt F) spec0 c) ⊢ (Pipeline.ΦA spec0 c : sProp 𝕄) := by
      intro P; unfold Pipeline.ΦA
      iintro ⟨Hp, -, Hr⟩
      isplitl [Hr]; · iexact Hr
      iexact Hp
    exact (h _).trans (hin0 (Va1 m ρ) c)
  hout c := by
    rw [Pipeline.ownSems0_none]
    have h : (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (Va1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (Va1 m ρ c) (Va2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays at
    what the pipeline's write-backs leave and every other buffer as entered. Its arrays are split out of the unscoped
    buffers and put back; the generator register goes into the region invariant and comes out; nothing is owed; the
    kernel has no semaphore of its own. -/
def reg1H : Pipeline.RegionSeg (pcfgs (F := F)) adm (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (Va3 m ρ) c).loose
  hwaits := Pipeline.hwaits_of_owed_zero _ _ _ _ LH lvH 1 fun _ _ => rfl
  pre c := iprop(StableHlo.held (c : Thread nD τ) (Pipeline.ucRefs τ sig) (Wa3 m ρ c) ∗ RstH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (Va3 m ρ c) (Va4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) adm (pdatsH m ρ) () defs₀ VarH LH lvH) :=
  [ .host (hsegH hostOps0 hostOps0_sub hostOps0_fresh (Wa0 m ρ)),
    .region (reg0H m ρ),
    .host (hsegH hostOps1 hostOps1_sub hostOps1_fresh (Wa2 m ρ)),
    .region (reg1H m ρ) ]
theorem main_runH (c : Dev nD) : main (F := F) c = Pipeline.Seg.run (segsH m ρ) := (main_chain c).trans (by chain_rfl)

set_option backward.isDefEq.respectTransparency.types false in
/-- THE RUN: every weakly fair execution terminates, nothing faulting, and every unscoped buffer ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) adm (pdatsH m ρ) () cellOf_inj emb₁ defs₀ VarH LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ RstH c)) (Tₙ := TnH m ρ)
    (hch := ⟨fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c => h c)

/-- The frame: the seven argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_ucH main_arg0 (by decide))).trans (Wa4_main_arg0 m ρ c),
    (h c _ (mem_ucH main_arg1 (by decide))).trans (Wa4_main_arg1 m ρ c),
    (h c _ (mem_ucH main_arg2 (by decide))).trans (Wa4_main_arg2 m ρ c),
    (h c _ (mem_ucH main_arg3 (by decide))).trans (Wa4_main_arg3 m ρ c),
    (h c _ (mem_ucH main_arg4 (by decide))).trans (Wa4_main_arg4 m ρ c),
    (h c _ (mem_ucH main_arg5 (by decide))).trans (Wa4_main_arg5 m ρ c),
    (h c _ (mem_ucH main_arg6 (by decide))).trans (Wa4_main_arg6 m ρ c)⟩) (run_all m ρ)

/-- The run with the result named: the result's buffer ends at the last boundary's contents there, the arguments as launched. -/
theorem run_valH : θ_run defs (onTc (τ := τ) (main (F := F))) ⟨m, fun _ => 0, ρ⟩ (fun r => ∀ c : Dev nD,
      r.2.mem ((c.tc : Thread nD τ).loc main_v5) = Wa4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c _ (mem_ucH main_v5 (by decide)), (h c _ (mem_ucH main_arg0 (by decide))).trans (Wa4_main_arg0 m ρ c),
    (h c _ (mem_ucH main_arg1 (by decide))).trans (Wa4_main_arg1 m ρ c),
    (h c _ (mem_ucH main_arg2 (by decide))).trans (Wa4_main_arg2 m ρ c),
    (h c _ (mem_ucH main_arg3 (by decide))).trans (Wa4_main_arg3 m ρ c),
    (h c _ (mem_ucH main_arg4 (by decide))).trans (Wa4_main_arg4 m ρ c),
    (h c _ (mem_ucH main_arg5 (by decide))).trans (Wa4_main_arg5 m ρ c),
    (h c _ (mem_ucH main_arg6 (by decide))).trans (Wa4_main_arg6 m ρ c)⟩) (run_all m ρ)

end Cert.KernelIdeal.Hand

end
-- ==== Proof.Frames.lean ====
/-
  The three frame claims and the (empty) idealization ledger. The kernel program's frame, at the word-level instance
  and at the exact one, is the run of its four segments read at the argument arrays; the reference has no kernel
  region, and its frame is its run with the result dropped.
-/
import proofs.«126821_j79027398246801_2_alg».proof.Defs
import proofs.«126821_j79027398246801_2_alg».proof.Proof.Gen.Kernel
import proofs.«126821_j79027398246801_2_alg».proof.Proof.Gen.KernelIdeal
import proofs.«126821_j79027398246801_2_alg».proof.Proof.Gen.ReferenceIdeal
import proofs.«126821_j79027398246801_2_alg».proof.Proof.Gen.Pre_finite_inputs
import proofs.«126821_j79027398246801_2_alg».proof.Proof.Gen.ReferenceIdeal.Run
import proofs.«126821_j79027398246801_2_alg».proof.Proof.K.Run
import proofs.«126821_j79027398246801_2_alg».proof.Proof.KI.Run

noncomputable section

namespace Cert.Proof

open Idealize.ShloMosaic Idealize.SL.Sem

theorem frame_k : Cert.frame_Kernel := fun m ρ _ => Cert.Kernel.Hand.frameH m ρ

theorem frame_ki : Cert.frame_KernelIdeal := fun m ρ _ => Cert.KernelIdeal.Hand.frameH m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

end Cert.Proof

end
-- ==== Proof.KI.HostVals.lean ====
/-
  What the host operations before region 0 leave, read at an index at the exact instance: the fused q/k/v weight and the
  projection weight transposed (rounding to the narrow format changes nothing there), and the buffers no host
  operation writes at their launch contents.
-/
import proofs.«126821_j79027398246801_2_alg».proof.Proof.KI.Run
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- Entry (c, o) of the transposed q/k/v weight is entry (o, c) of the weight. -/
theorem Wa1_main_v1_apply (c : Dev nD) (cc : Fin 1024) (o : Fin 3072) :
    (Wa1 m ρ c (Proc.devRef .tc main_v1) : S1024x3072.Idx → EReal) (ix2 cc o)
      = (m ((c : Thread nD τ).loc main_arg3) : S3072x1024.Idx → EReal) (ix2 o cc) := by
  have e : (Wa1 m ρ c (Proc.devRef .tc main_v1) : S1024x3072.Idx → EReal)
      = truncf (F := Ideal) .bf16 (transpose S1024x3072 [1, 0] (m ((c : Thread nD τ).loc main_arg3) : FVec Ideal S3072x1024 .f32) transposes_S3072x1024_S1024x3072_1_0) bitsLt_bf16_f32 := by
    dsimp only [Wa1, Wa0, hostOps0]; after_results
  rw [e]
  exact transpose_ix2_apply (m ((c : Thread nD τ).loc main_arg3) : S3072x1024.Idx → EReal) transposes_S3072x1024_S1024x3072_1_0 cc o

/-- Entry (c', o) of the transposed projection weight is entry (o, c') of the weight. -/
theorem Wa1_main_v3_apply (c : Dev nD) (cc : Fin 1024) (o : Fin 1024) :
    (Wa1 m ρ c (Proc.devRef .tc main_v3) : S1024x1024.Idx → EReal) (ix2 cc o)
      = (m ((c : Thread nD τ).loc main_arg5) : S1024x1024.Idx → EReal) (ix2 o cc) := by
  have e : (Wa1 m ρ c (Proc.devRef .tc main_v3) : S1024x1024.Idx → EReal)
      = truncf (F := Ideal) .bf16 (transpose S1024x1024 [1, 0] (m ((c : Thread nD τ).loc main_arg5) : FVec Ideal S1024x1024 .f32) transposes_S1024x1024_S1024x1024_1_0) bitsLt_bf16_f32 := by
    dsimp only [Wa1, Wa0, hostOps0]; after_results
  rw [e]
  exact transpose_ix2_apply (m ((c : Thread nD τ).loc main_arg5) : S1024x1024.Idx → EReal) transposes_S1024x1024_S1024x1024_1_0 cc o

end Cert.KernelIdeal.Hand

end
-- ==== Proof.KI.Value1.lean ====
/- The VALUE of region 1 at the exact (extended-real) instance: what the second kernel call leaves in its result array,
   as ONE function of the five arrays it reads, index by index.

   The mathematics.  At row (b, t) and column o the call computes
       out[b,t,o] = (Σ_{c'} ((Σ_c q[b,t,c] · kv[b,c,c']) · s) · W[c',o]  +  bias[o])  +  x[b,t,o],
   with s the fixed scale (the value of the 32-bit word 0x3D000000), W the transposed projection matrix and x the
   residual.  On a block the body forms q·kv by a matrix product into a zero accumulator (so: just the sum), scales
   it entry by entry, multiplies by W the same way, adds the bias along rows and the residual entry by entry; changes
   of float format are the identity on exact values, and the reshapes only add or drop a leading axis of extent one.
   The grid's point p = 4·b + s handles rows 1024·s … 1024·s + 1023 of batch b: block (b, s, 0) of q, of x and of the
   result, block (b, 0, 0) of kv, and the whole of W and of the bias.  Every row (b, t) lies in exactly the block of
   point 4·b + t / 1024, and every point writes its block back, so the result array ends holding the function above
   everywhere. -/
import proofs.«126821_j79027398246801_2_alg».proof.Proof.KI.Region1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The specification -/

/-- The result at row `(b, t)`, column `o`: q's row times kv, scaled, times the projection matrix, plus the bias, plus
    the residual. -/
def G1at (Q : FVec Ideal S4x4096x1024 .bf16) (KV : FVec Ideal S4x1024x1024 .bf16) (PWT : FVec Ideal S1024x1024 .bf16)
    (PB : FVec Ideal S1024 .f32) (X : FVec Ideal S4x4096x1024 .f32) (b : Fin 4) (t : Fin 4096) (o : Fin 1024) : EReal :=
  ((∑ c' : Fin 1024, ((∑ c : Fin 1024, Q (ix3 b t c) * KV (ix3 b c c')) * Ideal.ofBits .f32 0x3D000000#32) * PWT (ix2 c' o))
    + PB (ix1 o)) + X (ix3 b t o)

/-- The whole result array, index by index. -/
def G1 (Q : FVec Ideal S4x4096x1024 .bf16) (KV : FVec Ideal S4x1024x1024 .bf16) (PWT : FVec Ideal S1024x1024 .bf16)
    (PB : FVec Ideal S1024 .f32) (X : FVec Ideal S4x4096x1024 .f32) : FVec Ideal S4x4096x1024 .f32 :=
  fun i => G1at Q KV PWT PB X (i 0) (i 1) (i 2)

theorem G1_apply (Q : FVec Ideal S4x4096x1024 .bf16) (KV : FVec Ideal S4x1024x1024 .bf16) (PWT : FVec Ideal S1024x1024 .bf16)
    (PB : FVec Ideal S1024 .f32) (X : FVec Ideal S4x4096x1024 .f32) (b : Fin 4) (t : Fin 4096) (o : Fin 1024) :
    G1 Q KV PWT PB X (ix3 b t o)
      = ((∑ c' : Fin 1024, ((∑ c : Fin 1024, Q (ix3 b t c) * KV (ix3 b c c')) * Ideal.ofBits .f32 0x3D000000#32) * PWT (ix2 c' o))
          + PB (ix1 o)) + X (ix3 b t o) := rfl

/-! ## A 1024×1024 by 1024×1024 matrix product into a zero accumulator, read at an entry -/

local notation "D₁" => dot_S1024x1024_S1024x1024_S1024x1024_1_0_0_1_n_n

/-- The left operand's index at result entry `i` and contraction position `q`: the result's row, -/
theorem dotL0 (i : S1024x1024.Idx) (q : (D₁).contr.Idx) : ((D₁).lhsIdx i q 0).val = (i 0).val := by
  unfold DotDims.lhsIdx
  rw [dif_neg (show ¬(0 : Fin S1024x1024.rank) ∈ (D₁).lhsBatch by decide),
    dif_pos (show (0 : Fin S1024x1024.rank) ∈ (D₁).lhsNonContracting by decide)]
  rfl
/-- and the contraction position; -/
theorem dotL1 (i : S1024x1024.Idx) (q : (D₁).contr.Idx) : ((D₁).lhsIdx i q 1).val = (q ⟨0, by decide⟩).val :=
  (D₁).lhsIdx_val_of_single rfl i q
/-- the right operand's: the contraction position, -/
theorem dotR0 (i : S1024x1024.Idx) (q : (D₁).contr.Idx) : ((D₁).rhsIdx i q 0).val = (q ⟨0, by decide⟩).val :=
  (D₁).rhsIdx_val_of_single rfl i q
/-- and the result's column. -/
theorem dotR1 (i : S1024x1024.Idx) (q : (D₁).contr.Idx) : ((D₁).rhsIdx i q 1).val = (i 1).val := by
  unfold DotDims.rhsIdx
  rw [dif_neg (show ¬(1 : Fin S1024x1024.rank) ∈ (D₁).rhsBatch by decide),
    dif_pos (show (1 : Fin S1024x1024.rank) ∈ (D₁).rhsNonContracting by decide)]
  rfl

/-- So the product into a zero accumulator at entry `(r, o)` is the row-by-column sum. -/
theorem mm_apply (A B : FVec Ideal S1024x1024 .bf16) (r o : Fin 1024) :
    matmul D₁ none A B (constant S1024x1024 .f32 0x00000000#32) (ix2 r o) = ∑ k : Fin 1024, A (ix2 r k) * B (ix2 k o) := by
  simp only [matmul]
  rw [Ideal.matmul_constant_zero_apply, ← Equiv.sum_comp (contrEquiv1 D₁ 1024 rfl rfl).symm]
  refine Finset.sum_congr rfl fun k _ => ?_
  have hk := contrEquiv1_symm_val D₁ 1024 rfl rfl k
  have el : (D₁).lhsIdx (ix2 r o) ((contrEquiv1 D₁ 1024 rfl rfl).symm k) = ix2 r k := funext fun a => Fin.ext (by
    match a with
    | ⟨0, _⟩ => exact dotL0 _ _
    | ⟨1, _⟩ => exact (dotL1 _ _).trans hk)
  have er : (D₁).rhsIdx (ix2 r o) ((contrEquiv1 D₁ 1024 rfl rfl).symm k) = ix2 k o := funext fun a => Fin.ext (by
    match a with
    | ⟨0, _⟩ => exact (dotR0 _ _).trans hk
    | ⟨1, _⟩ => exact dotR1 _ _)
  rw [el, er]

/-! ## The body's value at an entry -/

/-- The value the body stores, at entry `(u, r, o)` of its 1×1024×1024 block (`u` the unit axis): row `r` of the first
    buffer times the second, scaled, times the third, plus the fourth at `o`, plus the fifth at `(r, o)`.  The reshapes
    drop or add the unit axis, the format changes are the identity, and each matrix product is into a zero accumulator. -/
theorem pay1_apply (v0 v2 : Vec Ideal S1x1024x1024 .bf16) (v8 : Vec Ideal S1024x1024 .bf16) (v11 : Vec Ideal S1024 .f32)
    (v15 : Vec Ideal S1x1024x1024 .f32) (u : Fin 1) (r o : Fin 1024) :
    k1_pay1 (F := Ideal) v0 v2 v8 v11 v15 (ix3 u r o)
      = ((∑ c' : Fin 1024, ((∑ c : Fin 1024, v0 (ix3 (0 : Fin 1) r c) * v2 (ix3 (0 : Fin 1) c c')) * Ideal.ofBits .f32 0x3D000000#32) * v8 (ix2 c' o))
          + v11 (ix1 o)) + v15 (ix3 (0 : Fin 1) r o) := by
  unfold k1_pay1
  refine (shapeCast_ab_1ab_apply _ _ u r o).trans ?_
  refine congrArg₂ (· + ·) (congrArg₂ (· + ·) ?_ ?_) ?_
  · refine (mm_apply _ _ r o).trans (Finset.sum_congr rfl fun c' _ => ?_)
    refine congrArg₂ (· * ·) ?_ (congrFun (shapeCast_self v8 _) _)
    refine congrArg (· * Ideal.ofBits .f32 0x3D000000#32) ?_
    refine (mm_apply _ _ r c').trans (Finset.sum_congr rfl fun c _ => ?_)
    exact congrArg₂ (· * ·) (shapeCast_1ab_ab_apply v0 _ r c) (shapeCast_1ab_ab_apply v2 _ c c')
  · exact (broadcastTo_1b_ab_apply _ _ r o).trans (shapeCast_a_1a_apply v11 _ (0 : Fin 1) o)
  · exact shapeCast_1ab_ab_apply v15 _ r o

/-- The same against the specification: when the five buffers hold, entry by entry, the rows and columns of the five
    arrays that the specification reads at `(b, t, o')`, the stored value at `(u, r, o)` is the specification there. -/
theorem pay1_eq_G1at (v0 v2 : Vec Ideal S1x1024x1024 .bf16) (v8 : Vec Ideal S1024x1024 .bf16) (v11 : Vec Ideal S1024 .f32)
    (v15 : Vec Ideal S1x1024x1024 .f32)
    (Q : FVec Ideal S4x4096x1024 .bf16) (KV : FVec Ideal S4x1024x1024 .bf16) (PWT : FVec Ideal S1024x1024 .bf16)
    (PB : FVec Ideal S1024 .f32) (X : FVec Ideal S4x4096x1024 .f32)
    (u : Fin 1) (r o : Fin 1024) (b : Fin 4) (t : Fin 4096) (o' : Fin 1024)
    (h0 : ∀ c : Fin 1024, v0 (ix3 (0 : Fin 1) r c) = Q (ix3 b t c))
    (h1 : ∀ c c' : Fin 1024, v2 (ix3 (0 : Fin 1) c c') = KV (ix3 b c c'))
    (h2 : ∀ c' : Fin 1024, v8 (ix2 c' o) = PWT (ix2 c' o'))
    (h3 : v11 (ix1 o) = PB (ix1 o'))
    (h4 : v15 (ix3 (0 : Fin 1) r o) = X (ix3 b t o')) :
    k1_pay1 (F := Ideal) v0 v2 v8 v11 v15 (ix3 u r o) = G1at Q KV PWT PB X b t o' := by
  rw [pay1_apply]
  unfold G1at
  rw [h3, h4]
  refine congrArg (· + X (ix3 b t o')) (congrArg (· + PB (ix1 o')) (Finset.sum_congr rfl fun c' _ => ?_))
  rw [h2 c']
  refine congrArg (· * PWT (ix2 c' o')) (congrArg (· * Ideal.ofBits .f32 0x3D000000#32) (Finset.sum_congr rfl fun c _ => ?_))
  rw [h0 c, h1 c c']

/-! ## The windows' blocks as parts of their arrays -/

/-- The six block index maps over the 4×4 grid, decided point by point: point `p` is batch `p / 4`, row block `p % 4`.
    q, the residual and the result move with the point; kv with the batch only; the matrix and the bias never. -/
theorem idx_facts1 : ∀ t : Fin cfg1.N,
    win1_5.index t (0 : Fin 3) = t.val / 4 ∧ win1_5.index t (1 : Fin 3) = t.val % 4 ∧ win1_5.index t (2 : Fin 3) = 0
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 3) = t.val / 4 ∧ win1_4.index t (1 : Fin 3) = t.val % 4 ∧ win1_4.index t (2 : Fin 3) = 0 :=
  (by decide +kernel : ∀ t : Fin grid1.N, _)

theorem lt16 (t : Fin cfg1.N) : t.val < 16 := Nat.lt_of_lt_of_eq t.isLt N_1

section Blocks
variable {F : FTy → Type} [FloatOps F]
variable (V : (c : Dev nD) → (b : Ref sig .tc) → Buf (Elt F) ((c : Thread nD τ).loc b))

/-- q's block at point `t` is rows `1024·(t % 4) …` of batch `t / 4`. -/
theorem iblk1_0_apply (c : Dev nD) (t : Fin cfg1.N) (x : S1x1024x1024.Idx) (k : S4x4096x1024.Idx)
    (hk0 : (k 0).val = t.val / 4) (hk1 : (k 1).val = 1024 * (t.val % 4) + (x 1).val) (hk2 : (k 2).val = (x 2).val) :
    (iblk1 V c 0 t : Vec F S1x1024x1024 .bf16) x = (V c main_v4_0 : S4x4096x1024.Idx → Elt F .bf16) k := by
  obtain ⟨-, -, -, e0, e1, e2, -⟩ := idx_facts1 t
  have hx : (x 0).val < 1 := (x 0).isLt
  show (V c main_v4_0 : S4x4096x1024.Idx → Elt F .bf16) (((cfg1.win 0).blk t).view.emb x) = _
  refine congrArg (V c main_v4_0 : S4x4096x1024.Idx → Elt F .bf16) (funext fun a => Fin.ext ?_)
  match a with
  | ⟨0, _⟩ => show win1_0.index t (0 : Fin 3) * 1 + 1 * (x 0).val = (k 0).val; omega
  | ⟨1, _⟩ => show win1_0.index t (1 : Fin 3) * 1024 + 1 * (x 1).val = (k 1).val; omega
  | ⟨2, _⟩ => show win1_0.index t (2 : Fin 3) * 1024 + 1 * (x 2).val = (k 2).val; omega

/-- kv's block at point `t` is the whole matrix of batch `t / 4`. -/
theorem iblk1_1_apply (c : Dev nD) (t : Fin cfg1.N) (x : S1x1024x1024.Idx) (k : S4x1024x1024.Idx)
    (hk0 : (k 0).val = t.val / 4) (hk1 : (k 1).val = (x 1).val) (hk2 : (k 2).val = (x 2).val) :
    (iblk1 V c 1 t : Vec F S1x1024x1024 .bf16) x = (V c main_v4_1 : S4x1024x1024.Idx → Elt F .bf16) k := by
  obtain ⟨-, -, -, -, -, -, e0, e1, e2, -⟩ := idx_facts1 t
  have hx : (x 0).val < 1 := (x 0).isLt
  show (V c main_v4_1 : S4x1024x1024.Idx → Elt F .bf16) (((cfg1.win 1).blk t).view.emb x) = _
  refine congrArg (V c main_v4_1 : S4x1024x1024.Idx → Elt F .bf16) (funext fun a => Fin.ext ?_)
  match a with
  | ⟨0, _⟩ => show win1_1.index t (0 : Fin 3) * 1 + 1 * (x 0).val = (k 0).val; omega
  | ⟨1, _⟩ => show win1_1.index t (1 : Fin 3) * 1024 + 1 * (x 1).val = (k 1).val; omega
  | ⟨2, _⟩ => show win1_1.index t (2 : Fin 3) * 1024 + 1 * (x 2).val = (k 2).val; omega

/-- The projection matrix's block is the whole matrix at every point. -/
theorem iblk1_2_apply (c : Dev nD) (t : Fin cfg1.N) (x : S1024x1024.Idx) (k : S1024x1024.Idx)
    (hk0 : (k 0).val = (x 0).val) (hk1 : (k 1).val = (x 1).val) :
    (iblk1 V c 2 t : Vec F S1024x1024 .bf16) x = (V c main_v3 : S1024x1024.Idx → Elt F .bf16) k := by
  obtain ⟨-, -, -, -, -, -, -, -, -, e0, e1, -⟩ := idx_facts1 t
  show (V c main_v3 : S1024x1024.Idx → Elt F .bf16) (((cfg1.win 2).blk t).view.emb x) = _
  refine congrArg (V c main_v3 : S1024x1024.Idx → Elt F .bf16) (funext fun a => Fin.ext ?_)
  match a with
  | ⟨0, _⟩ => show win1_2.index t (0 : Fin 2) * 1024 + 1 * (x 0).val = (k 0).val; omega
  | ⟨1, _⟩ => show win1_2.index t (1 : Fin 2) * 1024 + 1 * (x 1).val = (k 1).val; omega

/-- The bias's block is the whole vector at every point. -/
theorem iblk1_3_apply (c : Dev nD) (t : Fin cfg1.N) (x : S1024.Idx) (k : S1024.Idx) (hk0 : (k 0).val = (x 0).val) :
    (iblk1 V c 3 t : Vec F S1024 .f32) x = (V c main_arg6 : S1024.Idx → Elt F .f32) k := by
  obtain ⟨-, -, -, -, -, -, -, -, -, -, -, e0, -⟩ := idx_facts1 t
  show (V c main_arg6 : S1024.Idx → Elt F .f32) (((cfg1.win 3).blk t).view.emb x) = _
  refine congrArg (V c main_arg6 : S1024.Idx → Elt F .f32) (funext fun a => Fin.ext ?_)
  match a with
  | ⟨0, _⟩ => show win1_3.index t (0 : Fin 1) * 1024 + 1 * (x 0).val = (k 0).val; omega

/-- The residual's block at point `t` is rows `1024·(t % 4) …` of batch `t / 4`. -/
theorem iblk1_4_apply (c : Dev nD) (t : Fin cfg1.N) (x : S1x1024x1024.Idx) (k : S4x4096x1024.Idx)
    (hk0 : (k 0).val = t.val / 4) (hk1 : (k 1).val = 1024 * (t.val % 4) + (x 1).val) (hk2 : (k 2).val = (x 2).val) :
    (iblk1 V c 4 t : Vec F S1x1024x1024 .f32) x = (V c main_arg0 : S4x4096x1024.Idx → Elt F .f32) k := by
  obtain ⟨-, -, -, -, -, -, -, -, -, -, -, -, e0, e1, e2⟩ := idx_facts1 t
  have hx : (x 0).val < 1 := (x 0).isLt
  show (V c main_arg0 : S4x4096x1024.Idx → Elt F .f32) (((cfg1.win 4).blk t).view.emb x) = _
  refine congrArg (V c main_arg0 : S4x4096x1024.Idx → Elt F .f32) (funext fun a => Fin.ext ?_)
  match a with
  | ⟨0, _⟩ => show win1_4.index t (0 : Fin 3) * 1 + 1 * (x 0).val = (k 0).val; omega
  | ⟨1, _⟩ => show win1_4.index t (1 : Fin 3) * 1024 + 1 * (x 1).val = (k 1).val; omega
  | ⟨2, _⟩ => show win1_4.index t (2 : Fin 3) * 1024 + 1 * (x 2).val = (k 2).val; omega

end Blocks

/-! ## What each point writes back, and the result array after the last point -/

variable (V : (c : Dev nD) → (b : Ref sig .tc) → Buf (Elt Ideal) ((c : Thread nD τ).loc b))

/-- Entry `(u, r, o)` of the result's block at point `t` is entry `(t / 4, 1024·(t % 4) + r, o)` of the array. -/
theorem emb5 (t : Fin cfg1.N) (u : Fin 1) (r o : Fin 1024) (b : Fin 4) (tt : Fin 4096)
    (hb : b.val = t.val / 4) (htt : tt.val = 1024 * (t.val % 4) + r.val) :
    ((cfg1.win 5).blk t).view.emb (ix3 u r o) = (ix3 b tt o : S4x4096x1024.Idx) := by
  obtain ⟨e0, e1, e2, -⟩ := idx_facts1 t
  have hu : u.val < 1 := u.isLt
  refine funext fun a => Fin.ext ?_
  match a with
  | ⟨0, _⟩ => show win1_5.index t (0 : Fin 3) * 1 + 1 * u.val = b.val; omega
  | ⟨1, _⟩ => show win1_5.index t (1 : Fin 3) * 1024 + 1 * r.val = tt.val; omega
  | ⟨2, _⟩ => show win1_5.index t (2 : Fin 3) * 1024 + 1 * o.val = o.val; omega

/-- The value the body stores at point `t`, entry by entry, is the specification at the array entry the block's entry is. -/
theorem flushed1_pt (c : Dev nD) (t : Fin cfg1.N) (u : Fin 1) (r o : Fin 1024) :
    k1_pay1 (F := Ideal) (iblk1 V c 0 t) (iblk1 V c 1 t) (iblk1 V c 2 t) (iblk1 V c 3 t) (iblk1 V c 4 t) (ix3 u r o)
      = G1 (V c main_v4_0) (V c main_v4_1) (V c main_v3) (V c main_arg6) (V c main_arg0) (((cfg1.win 5).blk t).view.emb (ix3 u r o)) := by
  have h16 := lt16 t
  have hr : r.val < 1024 := r.isLt
  rw [emb5 t u r o ⟨t.val / 4, by omega⟩ ⟨1024 * (t.val % 4) + r.val, by omega⟩ rfl rfl]
  exact pay1_eq_G1at (iblk1 V c 0 t) (iblk1 V c 1 t) (iblk1 V c 2 t) (iblk1 V c 3 t) (iblk1 V c 4 t)
    (V c main_v4_0) (V c main_v4_1) (V c main_v3) (V c main_arg6) (V c main_arg0) u r o
    ⟨t.val / 4, by omega⟩ ⟨1024 * (t.val % 4) + r.val, by omega⟩ o
    (fun cc => iblk1_0_apply V c t _ _ rfl rfl rfl)
    (fun cc cc' => iblk1_1_apply V c t _ _ rfl rfl rfl)
    (fun cc' => iblk1_2_apply V c t _ _ rfl rfl)
    (iblk1_3_apply V c t _ _ rfl)
    (iblk1_4_apply V c t _ _ rfl rfl rfl)

/-- What point `t` writes back to the result array is block `t` of the specification. -/
theorem flushed1_eq (c : Dev nD) (t : Fin cfg1.N) :
    (dat1 (F := Ideal) V c).flushed 5 t
      = ((cfg1.win 5).blk t).view.read (Elt Ideal) (G1 (V c main_v4_0) (V c main_v4_1) (V c main_v3) (V c main_arg6) (V c main_arg0)) := by
  show (cfg1.win 5).cut (grid1.coords t) ((dat1 V c).after 5 t) = _
  rw [after1_5, out1_5_eq]
  funext j
  obtain ⟨u, r, o, rfl⟩ : ∃ (u : Fin 1) (r o : Fin 1024), j = ix3 u r o := ⟨j 0, j 1, j 2, eq_ix3 j⟩
  exact flushed1_pt V c t u r o

/-- An entry of the result array is in point `t`'s block iff each coordinate is in the block's range on its axis. -/
theorem mem_blk1 (t : Fin cfg1.N) (i : S4x4096x1024.Idx) :
    i ∈ ((cfg1.win 5).blk t).view.set ↔ ∀ a : Fin 3, win1_5.index t a * S1x1024x1024.size a ≤ (i a).val ∧ (i a).val < win1_5.index t a * S1x1024x1024.size a + S1x1024x1024.size a := by
  show i ∈ ((View.whole main_v5).slice (win1_5.rect t)).set ↔ _
  rw [View.set_slice_whole, Rect.mem_set_unit]
  exact Iff.rfl

/-- Every entry `(b, t, o)` of the result array is written back: by point `4·b + t / 1024`. -/
theorem cover1 (i : S4x4096x1024.Idx) : ∃ t : Fin cfg1.N, (cfg1.win 5).flush t = true ∧ i ∈ ((cfg1.win 5).blk t).view.set := by
  have h0 : (i 0).val < 4 := (i 0).isLt
  have h1 : (i 1).val < 4096 := (i 1).isLt
  have h2 : (i 2).val < 1024 := (i 2).isLt
  have hN : 4 * (i 0).val + (i 1).val / 1024 < cfg1.N := by rw [show cfg1.N = 16 from N_1]; omega
  refine ⟨⟨4 * (i 0).val + (i 1).val / 1024, hN⟩, flush1_5 _, ?_⟩
  obtain ⟨e0, e1, e2, -⟩ := idx_facts1 ⟨4 * (i 0).val + (i 1).val / 1024, hN⟩
  rw [mem_blk1]
  intro a
  match a with
  | ⟨0, _⟩ =>
    show win1_5.index ⟨4 * (i 0).val + (i 1).val / 1024, hN⟩ (0 : Fin 3) * 1 ≤ (i 0).val ∧ (i 0).val < win1_5.index ⟨4 * (i 0).val + (i 1).val / 1024, hN⟩ (0 : Fin 3) * 1 + 1
    rw [e0]; show (4 * (i 0).val + (i 1).val / 1024) / 4 * 1 ≤ (i 0).val ∧ (i 0).val < (4 * (i 0).val + (i 1).val / 1024) / 4 * 1 + 1; omega
  | ⟨1, _⟩ =>
    show win1_5.index ⟨4 * (i 0).val + (i 1).val / 1024, hN⟩ (1 : Fin 3) * 1024 ≤ (i 1).val ∧ (i 1).val < win1_5.index ⟨4 * (i 0).val + (i 1).val / 1024, hN⟩ (1 : Fin 3) * 1024 + 1024
    rw [e1]; show (4 * (i 0).val + (i 1).val / 1024) % 4 * 1024 ≤ (i 1).val ∧ (i 1).val < (4 * (i 0).val + (i 1).val / 1024) % 4 * 1024 + 1024; omega
  | ⟨2, _⟩ =>
    show win1_5.index ⟨4 * (i 0).val + (i 1).val / 1024, hN⟩ (2 : Fin 3) * 1024 ≤ (i 2).val ∧ (i 2).val < win1_5.index ⟨4 * (i 0).val + (i 1).val / 1024, hN⟩ (2 : Fin 3) * 1024 + 1024
    rw [e2]; omega

/-- THE RESULT ARRAY after the region: the specification of the five arrays as the region finds them, everywhere. -/
theorem final1 (c : Dev nD) :
    (dat1 (F := Ideal) V c).arrAt 5 cfg1.N = G1 (V c main_v4_0) (V c main_v4_1) (V c main_v3) (V c main_arg6) (V c main_arg0) :=
  (dat1 (F := Ideal) V c).arrAt_eq_of_cover 5 (G1 (V c main_v4_0) (V c main_v4_1) (V c main_v3) (V c main_arg6) (V c main_arg0))
    (fun t _ => flushed1_eq V c t) cover1

end Cert.KernelIdeal.Hand

end
-- ==== Proof.KI.Value0A.lean ====
/-
  What each kind of grid point of the first call leaves, as a value: the q window's buffer holds the q columns of the
  tile's projection; the accumulator holds, after the first tile of a batch, the zero matrix plus that tile's
  kᵀv, and after any other tile what the tile before left plus this tile's kᵀv; at the last tile of a batch the kᵀv
  window's buffer holds the accumulator just updated. Every store of the body writes a whole buffer, so a buffer
  ends at its last store's value, and every load reads a whole buffer: an input's block, or what the body itself
  stored just before.
-/
import proofs.«126821_j79027398246801_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a rectangle that starts at the origin, however the zeros are written. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- First tile of a batch, the q window: its one store covers the buffer, so the buffer holds that store's value, the
    q columns of this tile's projection. -/
theorem out0_A_5_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) :
    out0_A_5 c i arg2 harg2 arg3 harg3 arg4 harg4 arg5 harg5 arg6 harg6 arg7 harg7 arg8 harg8 arg9 harg9 hc0 hc1 x0 x1 x2 x3 x4 = k0_pay1 (k0_pay8 x0 x1 x2 x3 x4) := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S1x512x1024) zeros3]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

/-- First tile of a batch, the accumulator: it is zeroed, read back, and this tile's product added; the last store
    covers the buffer, and what it read back is the zero block. -/
theorem sout0_A_0_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : cond0_0 i) (hc1 : ¬cond0_1 i) (x0 : Vec F S1x512x1024 .f32) (x1 : Vec F S1024 .f32) (x2 : Vec F S1024 .f32) (x3 : Vec F S1024x3072 .bf16) (x4 : Vec F S3072 .f32) :
    sout0_A_0 c i arg2 harg2 arg3 harg3 arg4 harg4 arg5 harg5 arg6 harg6 arg7 harg7 arg8 harg8 arg9 harg9 hc0 hc1 x0 x1 x2 x3 x4 = k0_pay2 (k0_pay6 x0 x1 x2 x3 x4) (k0_pay7 x0 x1 x2 x3 x4) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) zeros2, View.readCov_unit_zero (S := S1024x1024) _ zeros2]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

/-- A middle tile, the q window. -/
theorem out0_B_5_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) :
    out0_B_5 c i arg2 harg2 arg3 harg3 arg4 harg4 arg5 harg5 arg6 harg6 arg7 harg7 arg8 harg8 arg9 harg9 hc0 hc1 x0 x1 x2 x3 x4 xs0 = k0_pay1 (k0_pay8 x0 x1 x2 x3 x4) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S1x512x1024) zeros3]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

/-- A middle tile, the accumulator: what the point before left, plus this tile's product. -/
theorem sout0_B_0_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : ¬cond0_1 i) (x0 : Vec F S1x512x1024 .f32) (x1 : Vec F S1024 .f32) (x2 : Vec F S1024 .f32) (x3 : Vec F S1024x3072 .bf16) (x4 : Vec F S3072 .f32) (xs0 : Vec F S1024x1024 .f32) :
    sout0_B_0 c i arg2 harg2 arg3 harg3 arg4 harg4 arg5 harg5 arg6 harg6 arg7 harg7 arg8 harg8 arg9 harg9 hc0 hc1 x0 x1 x2 x3 x4 xs0 = k0_pay2 (k0_pay6 x0 x1 x2 x3 x4) (k0_pay7 x0 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S1024x1024) zeros2]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

/-- The last tile of a batch, the q window. -/
theorem out0_C_5_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) :
    out0_C_5 c i arg2 harg2 arg3 harg3 arg4 harg4 arg5 harg5 arg6 harg6 arg7 harg7 arg8 harg8 arg9 harg9 hc0 hc1 x0 x1 x2 x3 x4 xs0 = k0_pay1 (k0_pay8 x0 x1 x2 x3 x4) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1x512x1024) zeros3]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

/-- The last tile of a batch, the accumulator. -/
theorem sout0_C_0_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) :
    sout0_C_0 c i arg2 harg2 arg3 harg3 arg4 harg4 arg5 harg5 arg6 harg6 arg7 harg7 arg8 harg8 arg9 harg9 hc0 hc1 x0 x1 x2 x3 x4 xs0 = k0_pay2 (k0_pay6 x0 x1 x2 x3 x4) (k0_pay7 x0 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) zeros2]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

/-- The last tile of a batch, the kᵀv window: the accumulator, just updated, read back and written out. -/
theorem out0_C_6_eq (c : Dev nD) (i : grid0.Coords) (arg2 : Memref sig .tc .vmem S1x512x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024x3072 .bf16) (harg5 : arg5.IsWhole) (arg6 : Memref sig .tc .vmem S3072 .f32) (harg6 : arg6.IsWhole) (arg7 : Memref sig .tc .vmem S1x512x1024 .bf16) (harg7 : arg7.IsWhole) (arg8 : Memref sig .tc .vmem S1x1024x1024 .bf16) (harg8 : arg8.IsWhole) (arg9 : Memref sig .tc .vmem S1024x1024 .f32) (harg9 : arg9.IsWhole) (hc0 : ¬cond0_0 i) (hc1 : cond0_1 i) (x0 : Vec F S1x512x1024 .f32) (x1 : Vec F S1024 .f32) (x2 : Vec F S1024 .f32) (x3 : Vec F S1024x3072 .bf16) (x4 : Vec F S3072 .f32) (xs0 : Vec F S1024x1024 .f32) :
    out0_C_6 c i arg2 harg2 arg3 harg3 arg4 harg4 arg5 harg5 arg6 harg6 arg7 harg7 arg8 harg8 arg9 harg9 hc0 hc1 x0 x1 x2 x3 x4 xs0 = k0_pay3 (k0_pay2 (k0_pay6 x0 x1 x2 x3 x4) (k0_pay7 x0 x1 x2 x3 x4) xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1x1024x1024) zeros3, View.readCov_unit_zero (S := S1024x1024) _ zeros2]
  simp only [View.readAt_eq_ld, harg2.read_unread, harg3.read_unread, harg4.read_unread, harg5.read_unread, harg6.read_unread, harg8.read_unread, harg9.read_unread, View.ld_unit_zero (S := S1x512x1024) zeros3, View.ld_unit_zero (S := S1024) zeros1, View.ld_unit_zero (S := S1024x3072) zeros2, View.ld_unit_zero (S := S3072) zeros1, View.ld_unit_zero (S := S1024x1024) zeros2, View.ld_unit_zero (S := S1x1024x1024) zeros3]

end Cert.KernelIdeal.Hand

end
-- ==== Proof.KI.Value0Acc.lean ====
/-
  What the kᵀv window's buffer and the accumulator hold after the body at a grid point, in terms of the point's tile
  alone: the tile's k and v columns are two of the three column slices of the projection of the tile's normalised
  rows. The accumulator holds the k columns' transpose times the v columns, added to the zero matrix at the first
  tile of a batch and to what the point before left at every other tile; at the last tile of a batch the kᵀv
  buffer holds the accumulator.
-/
import proofs.«126821_j79027398246801_2_alg».proof.Proof.KI.Value0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The k columns of the tile of grid point `t`. -/
def kv0_kT (c : Dev nD) (t : Fin cfg0.N) : FVec F S512x1024 .f32 := k0_pay6 (iblk0 V c 0 t) (iblk0 V c 1 t) (iblk0 V c 2 t) (iblk0 V c 3 t) (iblk0 V c 4 t)
/-- The v columns of the tile of grid point `t`. -/
def kv0_vT (c : Dev nD) (t : Fin cfg0.N) : FVec F S512x1024 .f32 := k0_pay7 (iblk0 V c 0 t) (iblk0 V c 1 t) (iblk0 V c 2 t) (iblk0 V c 3 t) (iblk0 V c 4 t)

/-- After the first tile of a batch the accumulator holds the zero matrix plus the tile's kᵀv. -/
theorem kv0_acc_first (c : Dev nD) (t : Fin cfg0.N) (h0 : t.val % 8 = 0) :
    (outsAt0 V c t.val t.isLt).2.2 = k0_pay2 (kv0_kT V c t) (kv0_vT V c t) (k0_pay4 (F := F)) := by
  unfold kv0_kT kv0_vT
  have h1 : ¬t.val % 8 = 7 := by omega
  rw [outsAt0_A V c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- After any other tile it holds what the point before left plus the tile's kᵀv. -/
theorem kv0_acc_next (c : Dev nD) (t : Fin cfg0.N) (h0 : ¬t.val % 8 = 0) :
    (outsAt0 V c t.val t.isLt).2.2 = k0_pay2 (kv0_kT V c t) (kv0_vT V c t) (outsAt0 V c (t.val - 1) (Nat.lt_of_le_of_lt (Nat.sub_le _ _) t.isLt)).2.2 := by
  unfold kv0_kT kv0_vT
  by_cases h1 : t.val % 8 = 7
  · rw [outsAt0_C V c t h0 h1]
    dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2
  · rw [outsAt0_B V c t h0 h1]
    dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2

/-- After the last tile of a batch the kᵀv window's buffer holds the accumulator. -/
theorem kv0_buf_last (c : Dev nD) (t : Fin cfg0.N) (h1 : t.val % 8 = 7) :
    (outsAt0 V c t.val t.isLt).2.1 = k0_pay3 (outsAt0 V c t.val t.isLt).2.2 := by
  have h0 : ¬t.val % 8 = 0 := by omega
  rw [outsAt0_C V c t h0 h1]
  dsimp only
  rw [out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2,
    sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2]

end Cert.KernelIdeal.Hand

end
-- ==== Proof.KI.Value0Blk.lean ====
/-
  Where the blocks of the first call sit. Grid point `t` of the 4 × 8 grid is tile `t % 8` of batch `t / 8`. The row
  window and the q window have 1 × 512 × 1024 blocks at block index `(t / 8, t % 8, 0)`: element `(0, r, c)` of the
  block is element `(t / 8, 512 (t % 8) + r, c)` of the array. The scale, shift, weight and bias windows are whole
  arrays at the origin. The kᵀv window has 1 × 1024 × 1024 blocks at `(t / 8, 0, 0)`.
-/
import proofs.«126821_j79027398246801_2_alg».proof.Proof.KI.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (V : (c : Dev nD) → (b : Ref sig .tc) → Buf (Elt F) ((c : Thread nD τ).loc b))

/-- The grid has 32 points. -/
theorem kv0_N0_eq : cfg0.N = 32 := N_0

/-- A grid point's number is below 32. -/
theorem kv0_lt32 (t : Fin cfg0.N) : t.val < 32 := lt_of_lt_of_eq t.isLt kv0_N0_eq

/-- The batch of grid point `t`. -/
def kv0_bOf (t : Fin cfg0.N) : Fin 4 := ⟨t.val / 8, by have := kv0_lt32 t; omega⟩
/-- The tile of grid point `t` within its batch. -/
def kv0_jOf (t : Fin cfg0.N) : Fin 8 := ⟨t.val % 8, by omega⟩
/-- The last point of batch `b`. -/
def kv0_lastOf (b : Fin 4) : Fin cfg0.N := ⟨8 * b.val + 7, by rw [kv0_N0_eq]; omega⟩
/-- The point of tile `j` of batch `b`. -/
def kv0_ptOf (b : Fin 4) (j : Fin 8) : Fin cfg0.N := ⟨8 * b.val + j.val, by rw [kv0_N0_eq]; omega⟩

/-- The printed index maps, decided over the 32 points. -/
theorem kv0_idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 3) = t.val / 8 ∧ win0_5.index t (1 : Fin 3) = t.val % 8 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-- The row block of point `t`: rows `512 (t % 8) …` of batch `t / 8`. -/
theorem kv0_iblk0_0_apply (c : Dev nD) (t : Fin cfg0.N) (r : Fin 512) (cc : Fin 1024) :
    (iblk0 V c 0 t : Vec F S1x512x1024 .f32) (ix3 0 r cc)
      = (V c main_arg0 : S4x4096x1024.Idx → Elt F .f32) (ix3 (kv0_bOf t) ⟨512 * (kv0_jOf t).val + r.val, by have := (kv0_jOf t).isLt; omega⟩ cc) := by
  obtain ⟨e0, e1, e2, -⟩ := kv0_idx_facts0 t
  unfold iblk0
  rw [View.read_apply]
  show V c main_arg0 _ = V c main_arg0 _
  congr 1
  funext a
  apply Fin.ext
  match a with
  | ⟨0, _⟩ => show win0_0.index t (0 : Fin 3) * 1 + 1 * 0 = t.val / 8; rw [e0]; omega
  | ⟨1, _⟩ => show win0_0.index t (1 : Fin 3) * 512 + 1 * r.val = 512 * (t.val % 8) + r.val; rw [e1]; omega
  | ⟨2, _⟩ => show win0_0.index t (2 : Fin 3) * 1024 + 1 * cc.val = cc.val; rw [e2]; omega

/-- The scale block is the whole scale array. -/
theorem kv0_iblk0_1_apply (c : Dev nD) (t : Fin cfg0.N) (cc : Fin 1024) :
    (iblk0 V c 1 t : Vec F S1024 .f32) (ix1 cc) = (V c main_arg1 : S1024.Idx → Elt F .f32) (ix1 cc) := by
  obtain ⟨-, -, -, e, -⟩ := kv0_idx_facts0 t
  unfold iblk0
  rw [View.read_apply]
  show V c main_arg1 _ = V c main_arg1 _
  congr 1
  funext a
  apply Fin.ext
  match a with
  | ⟨0, _⟩ => show win0_1.index t (0 : Fin 1) * 1024 + 1 * cc.val = cc.val; rw [e]; omega

/-- The shift block is the whole shift array. -/
theorem kv0_iblk0_2_apply (c : Dev nD) (t : Fin cfg0.N) (cc : Fin 1024) :
    (iblk0 V c 2 t : Vec F S1024 .f32) (ix1 cc) = (V c main_arg2 : S1024.Idx → Elt F .f32) (ix1 cc) := by
  obtain ⟨-, -, -, -, e, -⟩ := kv0_idx_facts0 t
  unfold iblk0
  rw [View.read_apply]
  show V c main_arg2 _ = V c main_arg2 _
  congr 1
  funext a
  apply Fin.ext
  match a with
  | ⟨0, _⟩ => show win0_2.index t (0 : Fin 1) * 1024 + 1 * cc.val = cc.val; rw [e]; omega

/-- The weight block is the whole (transposed) weight array. -/
theorem kv0_iblk0_3_apply (c : Dev nD) (t : Fin cfg0.N) (cc : Fin 1024) (o : Fin 3072) :
    (iblk0 V c 3 t : Vec F S1024x3072 .bf16) (ix2 cc o) = (V c main_v1 : S1024x3072.Idx → Elt F .bf16) (ix2 cc o) := by
  obtain ⟨-, -, -, -, -, e0, e1, -⟩ := kv0_idx_facts0 t
  unfold iblk0
  rw [View.read_apply]
  show V c main_v1 _ = V c main_v1 _
  congr 1
  funext a
  apply Fin.ext
  match a with
  | ⟨0, _⟩ => show win0_3.index t (0 : Fin 2) * 1024 + 1 * cc.val = cc.val; rw [e0]; omega
  | ⟨1, _⟩ => show win0_3.index t (1 : Fin 2) * 3072 + 1 * o.val = o.val; rw [e1]; omega

/-- The bias block is the whole bias array. -/
theorem kv0_iblk0_4_apply (c : Dev nD) (t : Fin cfg0.N) (o : Fin 3072) :
    (iblk0 V c 4 t : Vec F S3072 .f32) (ix1 o) = (V c main_arg4 : S3072.Idx → Elt F .f32) (ix1 o) := by
  obtain ⟨-, -, -, -, -, -, -, e, -⟩ := kv0_idx_facts0 t
  unfold iblk0
  rw [View.read_apply]
  show V c main_arg4 _ = V c main_arg4 _
  congr 1
  funext a
  apply Fin.ext
  match a with
  | ⟨0, _⟩ => show win0_4.index t (0 : Fin 1) * 3072 + 1 * o.val = o.val; rw [e]; omega

/-- An index of the q array is in point `t`'s block iff each coordinate is in the block's range on its axis. -/
theorem kv0_mem_blk0_5 (t : Fin cfg0.N) (i : S4x4096x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v4_0).slice (win0_5.rect t)).set ↔ _
  rw [View.set_slice_whole, Rect.mem_set_unit]
  exact Iff.rfl

/-- The same for the kᵀv array. -/
theorem kv0_mem_blk0_6 (t : Fin cfg0.N) (i : S4x1024x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole main_v4_1).slice (win0_6.rect t)).set ↔ _
  rw [View.set_slice_whole, Rect.mem_set_unit]
  exact Iff.rfl

/-- Every index of the q array is in the block of the point of its batch and tile. -/
theorem kv0_cover0_5 (i : S4x4096x1024.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 1024 := (i 2).isLt
  let t : Fin cfg0.N := ⟨8 * (i 0).val + (i 1).val / 512, by rw [kv0_N0_eq]; omega⟩
  refine ⟨t, flush0_5 t, ?_⟩
  obtain ⟨-, -, -, -, -, -, -, -, e0, e1, e2, -⟩ := kv0_idx_facts0 t
  rw [kv0_mem_blk0_5]
  intro a
  match a with
  | ⟨0, _⟩ => show win0_5.index t (0 : Fin 3) * 1 ≤ (i 0).val ∧ (i 0).val < win0_5.index t (0 : Fin 3) * 1 + 1
              rw [e0]; show (8 * (i 0).val + (i 1).val / 512) / 8 * 1 ≤ _ ∧ _ < (8 * (i 0).val + (i 1).val / 512) / 8 * 1 + 1; omega
  | ⟨1, _⟩ => show win0_5.index t (1 : Fin 3) * 512 ≤ (i 1).val ∧ (i 1).val < win0_5.index t (1 : Fin 3) * 512 + 512
              rw [e1]; show (8 * (i 0).val + (i 1).val / 512) % 8 * 512 ≤ _ ∧ _ < (8 * (i 0).val + (i 1).val / 512) % 8 * 512 + 512; omega
  | ⟨2, _⟩ => show win0_5.index t (2 : Fin 3) * 1024 ≤ (i 2).val ∧ (i 2).val < win0_5.index t (2 : Fin 3) * 1024 + 1024
              rw [e2]; omega

/-- Every index of the kᵀv array is in the block of the last point of its batch, the one point of the batch that
    writes the window back. -/
theorem kv0_cover0_6 (i : S4x1024x1024.Idx) :
    ∃ t : Fin cfg0.N, (cfg0.win 6).flush t = true ∧ i ∈ ((cfg0.win 6).blk t).view.set := by
  have h0 : (i 0).val < 4 := (i 0).isLt
  have h1 : (i 1).val < 1024 := (i 1).isLt
  have h2 : (i 2).val < 1024 := (i 2).isLt
  let t : Fin cfg0.N := ⟨8 * (i 0).val + 7, by rw [kv0_N0_eq]; omega⟩
  refine ⟨t, (flush0_6 t).mpr (by show (8 * (i 0).val + 7) % 8 = 7; omega), ?_⟩
  obtain ⟨-, -, -, -, -, -, -, -, -, -, -, e0, e1, e2⟩ := kv0_idx_facts0 t
  rw [kv0_mem_blk0_6]
  intro a
  match a with
  | ⟨0, _⟩ => show win0_6.index t (0 : Fin 3) * 1 ≤ (i 0).val ∧ (i 0).val < win0_6.index t (0 : Fin 3) * 1 + 1
              rw [e0]; show (8 * (i 0).val + 7) / 8 * 1 ≤ _ ∧ _ < (8 * (i 0).val + 7) / 8 * 1 + 1; omega
  | ⟨1, _⟩ => show win0_6.index t (1 : Fin 3) * 1024 ≤ (i 1).val ∧ (i 1).val < win0_6.index t (1 : Fin 3) * 1024 + 1024
              rw [e1]; omega
  | ⟨2, _⟩ => show win0_6.index t (2 : Fin 3) * 1024 ≤ (i 2).val ∧ (i 2).val < win0_6.index t (2 : Fin 3) * 1024 + 1024
              rw [e2]; omega

/-- Where an element of point `t`'s q block sits in the q array. -/
theorem kv0_emb0_5 (t : Fin cfg0.N) (r : Fin 512) (cc : Fin 1024) :
    ((cfg0.win 5).blk t).view.emb (ix3 (0 : Fin 1) r cc)
      = (ix3 (kv0_bOf t) (⟨512 * (kv0_jOf t).val + r.val, by have := (kv0_jOf t).isLt; omega⟩ : Fin 4096) cc : S4x4096x1024.Idx) := by
  obtain ⟨-, -, -, -, -, -, -, -, e0, e1, e2, -⟩ := kv0_idx_facts0 t
  funext a
  apply Fin.ext
  match a with
  | ⟨0, _⟩ => show win0_5.index t (0 : Fin 3) * 1 + 1 * 0 = t.val / 8; rw [e0]; omega
  | ⟨1, _⟩ => show win0_5.index t (1 : Fin 3) * 512 + 1 * r.val = 512 * (t.val % 8) + r.val; rw [e1]; omega
  | ⟨2, _⟩ => show win0_5.index t (2 : Fin 3) * 1024 + 1 * cc.val = cc.val; rw [e2]; omega

/-- Where an element of point `t`'s kᵀv block sits in the kᵀv array. -/
theorem kv0_emb0_6 (t : Fin cfg0.N) (a a' : Fin 1024) :
    ((cfg0.win 6).blk t).view.emb (ix3 (0 : Fin 1) a a') = (ix3 (kv0_bOf t) a a' : S4x1024x1024.Idx) := by
  obtain ⟨-, -, -, -, -, -, -, -, -, -, -, e0, e1, e2⟩ := kv0_idx_facts0 t
  funext d
  apply Fin.ext
  match d with
  | ⟨0, _⟩ => show win0_6.index t (0 : Fin 3) * 1 + 1 * 0 = t.val / 8; rw [e0]; omega
  | ⟨1, _⟩ => show win0_6.index t (1 : Fin 3) * 1024 + 1 * a.val = a.val; rw [e1]; omega
  | ⟨2, _⟩ => show win0_6.index t (2 : Fin 3) * 1024 + 1 * a'.val = a'.val; rw [e2]; omega

end Cert.KernelIdeal.Hand

end
-- ==== Proof.KI.Pay0.lean ====
/-
  The payloads of region 0 read at an index, at the ideal values. Three of the four are layout operations around an
  identity: a cast that adds a leading unit axis reads `(0, r, c)` at `(r, c)`; rounding to a narrower format is the
  identity on extended reals; a cast to the same shape is the identity. The fourth is the accumulation step
  `acc + kᵀ v`: the matrix product contracts the ROW axis of both operands, so its `(a, b)` entry is the sum over the
  512 rows `s` of `k[s, a] * v[s, b]`.
-/
import proofs.«126821_j79027398246801_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic

/-- The stored `q` tile: the `[512, 1024]` value viewed as a `[1, 512, 1024]` block reads `(0, r, c)` at `(r, c)`. -/
theorem pay1_0_apply (v40 : FVec Ideal S512x1024 .bf16) (r : Fin 512) (c : Fin 1024) :
    Gen.k0_pay1 v40 (ValueIdx.ix3 0 r c) = v40 (ValueIdx.ix2 r c) := by
  unfold Gen.k0_pay1
  exact ValueIdx.shapeCast_ab_1ab_apply v40 _ 0 r c

/-- The flushed `kᵀ v` block: rounding to the narrower format is the identity on extended reals, and the
    `[1024, 1024]` value viewed as a `[1, 1024, 1024]` block reads `(0, a, b)` at `(a, b)`. -/
theorem pay3_0_apply (v55 : Vec Ideal S1024x1024 .f32) (a b : Fin 1024) :
    Gen.k0_pay3 v55 (ValueIdx.ix3 0 a b) = v55 (ValueIdx.ix2 a b) := by
  unfold Gen.k0_pay3
  exact ValueIdx.shapeCast_ab_1ab_apply (α := EReal) (fun i => v55 i) _ 0 a b

/-- The accumulator's initial value: the zero word broadcast, every entry the real `0`. -/
theorem pay4_0_apply (a b : Fin 1024) : Gen.k0_pay4 (F := Ideal) (ValueIdx.ix2 a b) = 0 := by
  unfold Gen.k0_pay4
  refine (congrFun (shapeCast_self _ _) (ValueIdx.ix2 a b)).trans ?_
  exact Ideal.ofBits_zero_f32

/-- On the non-contracted axis of the left operand the operand index reads the output's row coordinate. -/
theorem lhs_kv_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl

/-- On the contracted axis of the left operand the operand index reads the contraction coordinate. -/
theorem lhs_kv_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q

/-- On the non-contracted axis of the right operand the operand index reads the output's column coordinate. -/
theorem rhs_kv_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- On the contracted axis of the right operand the operand index reads the contraction coordinate. -/
theorem rhs_kv_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q

/-- The matrix product of the accumulation step into the zero accumulator, read at `(a, b)`: the sum over the 512
    rows `s` of `x[s, a] * y[s, b]` (both operands contracted on their row axis). -/
theorem kv_matmul_apply (x y : FVec Ideal S512x1024 .bf16) (a b : Fin 1024) :
    FloatOps.matmul dot_S512x1024_S512x1024_S1024x1024_0_0_1_1_n_n none x y
        (constant (F := Ideal) S1024x1024 .f32 0x00000000#32) (ValueIdx.ix2 a b)
      = ∑ s : Fin 512, x (ValueIdx.ix2 s a) * y (ValueIdx.ix2 s b) := by
  rw [Ideal.matmul_constant_zero_apply, ← Equiv.sum_comp (ValueIdx.contrEquiv1 dot_S512x1024_S512x1024_S1024x1024_0_0_1_1_n_n 512 rfl rfl).symm]
  refine Finset.sum_congr rfl fun k _ => ?_
  have hk := ValueIdx.contrEquiv1_symm_val dot_S512x1024_S512x1024_S1024x1024_0_0_1_1_n_n 512 rfl rfl k
  have el : dot_S512x1024_S512x1024_S1024x1024_0_0_1_1_n_n.lhsIdx (ValueIdx.ix2 a b) ((ValueIdx.contrEquiv1 dot_S512x1024_S512x1024_S1024x1024_0_0_1_1_n_n 512 rfl rfl).symm k) = ValueIdx.ix2 k a := funext fun d => Fin.ext (by
    match d with
    | ⟨0, _⟩ => exact (lhs_kv_0 _ _).trans hk
    | ⟨1, _⟩ => exact lhs_kv_1 _ _)
  have er : dot_S512x1024_S512x1024_S1024x1024_0_0_1_1_n_n.rhsIdx (ValueIdx.ix2 a b) ((ValueIdx.contrEquiv1 dot_S512x1024_S512x1024_S1024x1024_0_0_1_1_n_n 512 rfl rfl).symm k) = ValueIdx.ix2 k b := funext fun d => Fin.ext (by
    match d with
    | ⟨0, _⟩ => exact (rhs_kv_0 _ _).trans hk
    | ⟨1, _⟩ => exact rhs_kv_1 _ _)
  rw [el, er]

/-- The accumulation step at `(a, b)`: the accumulator there plus the sum over the 512 rows `s` of
    `k[s, a] * v[s, b]` (rounding the operands to the narrower format is the identity on extended reals). -/
theorem pay2_0_apply (v38 v39 : FVec Ideal S512x1024 .f32) (v47 : Vec Ideal S1024x1024 .f32) (a b : Fin 1024) :
    Gen.k0_pay2 v38 v39 v47 (ValueIdx.ix2 a b)
      = v47 (ValueIdx.ix2 a b) + ∑ s : Fin 512, v38 (ValueIdx.ix2 s a) * v39 (ValueIdx.ix2 s b) := by
  unfold Gen.k0_pay2
  refine (congrFun (shapeCast_self _ _) (ValueIdx.ix2 a b)).trans ?_
  exact congrArg (v47 (ValueIdx.ix2 a b) + ·) (kv_matmul_apply (fun i => v38 i) (fun i => v39 i) a b)

end Cert.KernelIdeal.Hand

end
-- ==== Proof.Spec.lean ====
import Idealize.ShloMosaic.PureOps.Ideal

/-!
  The block as real arithmetic, index by index, and the law that joins its two arrangements.

  A row `x b t ·` of 1024 reals is normalised (mean `mu`, variance `var`, the reciprocal square
  root `rs` of the variance plus ε, then a scale and a shift per column), and mapped by an affine
  map to 3072 columns: the queries `q`, the keys `k` and the values `v` of the row. Attention
  without a softmax is bilinear: the output row of `t` is `∑ s, (⟨q t, k s⟩ / 32) · v s`, followed by a
  second affine map and the residual `x`.

  `refOut` forms the 4096 × 4096 scores first and then sums over the rows `s`.
  `kerOut` first sums `k s c · v s c'` over the rows `s` — in 8 consecutive blocks of 512 rows —
  into a 1024 × 1024 matrix `kv`, and then multiplies `q t` by it and by 1/32.
  The two are equal (`ref_eq_ker`) because finite sums over reals commute and products distribute
  over them: `∑ s, (∑ c, q c · k s c) / 32 · v s c' = (∑ c, q c · ∑ s, k s c · v s c') · (1/32)`, and a
  sum over 4096 = 8 · 512 rows is the sum over the blocks of the sums inside each block.
-/

noncomputable section

namespace Cert.Spec

open scoped BigOperators

variable (x : Fin 4 → Fin 4096 → Fin 1024 → ℝ) (nw nb : Fin 1024 → ℝ)
  (qw : Fin 3072 → Fin 1024 → ℝ) (qb : Fin 3072 → ℝ)
  (pw : Fin 1024 → Fin 1024 → ℝ) (pb : Fin 1024 → ℝ) (ε : ℝ)

/-- The reciprocal square root of a real (meant for a positive one). -/
def rs (y : ℝ) : ℝ := (Real.sqrt y)⁻¹

/-- The mean of a row. -/
def mu (b : Fin 4) (t : Fin 4096) : ℝ := (∑ c, x b t c) / 1024

/-- The variance of a row: the mean of the squared deviations. -/
def var (b : Fin 4) (t : Fin 4096) : ℝ :=
  (∑ c, (x b t c - mu x b t) * (x b t c - mu x b t)) / 1024

/-- A variance is a mean of squares: it is never negative. -/
theorem var_nonneg (b : Fin 4) (t : Fin 4096) : 0 ≤ var x b t :=
  div_nonneg (Finset.sum_nonneg fun _ _ => mul_self_nonneg _) (by norm_num)

/-- With a positive ε the argument of the reciprocal square root is positive. -/
theorem var_add_pos (hε : 0 < ε) (b : Fin 4) (t : Fin 4096) : 0 < var x b t + ε :=
  add_pos_of_nonneg_of_pos (var_nonneg x b t) hε

/-- The normalised row: deviation times reciprocal standard deviation, scaled and shifted per column. -/
def hn (b : Fin 4) (t : Fin 4096) (c : Fin 1024) : ℝ :=
  (x b t c - mu x b t) * rs (var x b t + ε) * nw c + nb c

/-- The first affine map, to 3072 columns. -/
def qkv (b : Fin 4) (t : Fin 4096) (o : Fin 3072) : ℝ :=
  (∑ c, hn x nw nb ε b t c * qw o c) + qb o

/-- Queries: columns 0 … 1023. -/
def q (b : Fin 4) (t : Fin 4096) (c : Fin 1024) : ℝ :=
  qkv x nw nb qw qb ε b t ⟨c.val, by omega⟩

/-- Keys: columns 1024 … 2047. -/
def k (b : Fin 4) (t : Fin 4096) (c : Fin 1024) : ℝ :=
  qkv x nw nb qw qb ε b t ⟨1024 + c.val, by omega⟩

/-- Values: columns 2048 … 3071. -/
def v (b : Fin 4) (t : Fin 4096) (c : Fin 1024) : ℝ :=
  qkv x nw nb qw qb ε b t ⟨2048 + c.val, by omega⟩

/-- Scores first: `x + ((((q kᵀ) / 32) v) pwᵀ + pb)`. -/
def refOut (b : Fin 4) (t : Fin 4096) (o : Fin 1024) : ℝ :=
  x b t o + ((∑ c' : Fin 1024, (∑ s : Fin 4096,
      ((∑ c : Fin 1024, q x nw nb qw qb ε b t c * k x nw nb qw qb ε b s c) / 32) * v x nw nb qw qb ε b s c')
    * pw o c') + pb o)

/-- `kᵀ v` of one batch, summed over its 4096 rows in 8 consecutive blocks of 512. -/
def kv (b : Fin 4) (c c' : Fin 1024) : ℝ :=
  ∑ j : Fin 8, ∑ s : Fin 512,
    k x nw nb qw qb ε b ⟨512 * j.val + s.val, by omega⟩ c * v x nw nb qw qb ε b ⟨512 * j.val + s.val, by omega⟩ c'

/-- Keys-times-values first: `(((q (kᵀ v)) · (1/32)) pwᵀ + pb) + x`. -/
def kerOut (b : Fin 4) (t : Fin 4096) (o : Fin 1024) : ℝ :=
  ((∑ c' : Fin 1024, ((∑ c : Fin 1024, q x nw nb qw qb ε b t c * kv x nw nb qw qb ε b c c') * (1 / 32)) * pw o c')
    + pb o) + x b t o

/-- A sum over 4096 = 8 · 512 rows is the sum over the 8 blocks of the sums over the 512 rows of a block. -/
theorem sum_blocks (f : Fin 4096 → ℝ) :
    ∑ s : Fin 4096, f s = ∑ j : Fin 8, ∑ r : Fin 512, f ⟨512 * j.val + r.val, by omega⟩ := by
  calc ∑ s : Fin 4096, f s
      = ∑ p : Fin 8 × Fin 512, f (finProdFinEquiv p) :=
        (Equiv.sum_comp (finProdFinEquiv (m := 8) (n := 512)) f).symm
    _ = ∑ j : Fin 8, ∑ r : Fin 512, f (finProdFinEquiv (j, r)) := Fintype.sum_prod_type _
    _ = _ := Finset.sum_congr rfl fun j _ => Finset.sum_congr rfl fun r _ =>
        congrArg f (Fin.ext (by simp [finProdFinEquiv]; omega))

/-- Attention without a softmax is associative: scores-then-values equals keys-times-values-then-queries. -/
theorem attn_assoc {S : Type*} [Fintype S] (qq : Fin 1024 → ℝ) (kk vv : S → Fin 1024 → ℝ) (c' : Fin 1024) :
    ∑ s : S, ((∑ c : Fin 1024, qq c * kk s c) / 32) * vv s c'
      = (∑ c : Fin 1024, qq c * ∑ s : S, kk s c * vv s c') * (1 / 32) := by
  simp_rw [Finset.sum_div, Finset.sum_mul, Finset.mul_sum, Finset.sum_mul]
  rw [Finset.sum_comm]
  exact Finset.sum_congr rfl fun c _ => Finset.sum_congr rfl fun s _ => by ring

/-- The two arrangements are one function. -/
theorem ref_eq_ker (b : Fin 4) (t : Fin 4096) (o : Fin 1024) :
    refOut x nw nb qw qb pw pb ε b t o = kerOut x nw nb qw qb pw pb ε b t o := by
  unfold refOut kerOut
  rw [add_comm]
  refine congrArg (· + x b t o) (congrArg (· + pb o) (Finset.sum_congr rfl fun c' _ => congrArg (· * pw o c') ?_))
  rw [attn_assoc]
  refine congrArg (· * (1 / 32)) (Finset.sum_congr rfl fun c _ => congrArg (q x nw nb qw qb ε b t c * ·) ?_)
  unfold kv
  exact sum_blocks _

end Cert.Spec

end
-- ==== Proof.Consts.lean ====
import Idealize.ShloMosaic.PureOps.Ideal

/-!
  The float words that the two programs share, read as real numbers.

  Each word is a finite binary float, so at the ideal instance it denotes a real: 1024 = 2^10 (the
  row length, by which both means divide, and whose square root scales the scores), its reciprocal
  root 1/32 = 2^(-5), and the variance offset ε = 10995116 · 2^(-40), the binary float nearest to
  10^(-5). Only the sign of ε matters to the proof: it keeps the argument of the reciprocal square
  root positive. The words are unfolded here once.
-/

noncomputable section

namespace Cert.Consts

open Idealize.ShloMosaic

/-- The word 0x44800000 denotes 1024 = 2^10. -/
theorem ofBits_1024 : Ideal.ofBits .f32 0x44800000#32 = ((1024 : ℝ) : EReal) := by
  simp [Ideal.ofBits, Ideal.ieee, -EReal.coe_mul]; norm_num

/-- ε: the real that the word 0x3727C5AC denotes, (2^23 + 2606508) · 2^(110 - 127 - 23). -/
def eps0 : ℝ := 10995116 * (2 : ℝ) ^ (-40 : ℤ)

/-- The word 0x3727C5AC denotes ε. -/
theorem ofBits_eps0 : Ideal.ofBits .f32 0x3727C5AC#32 = ((eps0 : ℝ) : EReal) := by
  simp [Ideal.ofBits, Ideal.ieee, eps0, -EReal.coe_mul]

/-- ε is positive. -/
theorem eps0_pos : 0 < eps0 := by unfold eps0; positivity

/-- The word 0x3D000000 denotes 1/32 = 2^(-5). -/
theorem ofBits_inv32 : Ideal.ofBits .f32 0x3D000000#32 = ((1 / 32 : ℝ) : EReal) := by
  simp [Ideal.ofBits, Ideal.ieee, -EReal.coe_mul]; norm_num

/-- 1024 = 32², so its square root is 32. -/
theorem sqrt_1024 : Real.sqrt 1024 = 32 := by
  rw [show (1024 : ℝ) = 32 ^ 2 by norm_num]
  exact Real.sqrt_sq (by norm_num)

end Cert.Consts

end
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KI.Pay5LN.lean ====
import proofs.«126821_j79027398246801_2_alg».proof.Proof.Gen.KernelIdeal.Skeleton
import proofs.«126821_j79027398246801_2_alg».proof.Proof.Spec
import proofs.«126821_j79027398246801_2_alg».proof.Proof.Consts
import proofs.«126821_j79027398246801_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
  The normalisation stage of the first kernel's payload, read entry by entry as real arithmetic.

  The payload takes a 512 × 1024 tile of rows, and for each row: the mean (the row sum over 1024, kept as a
  512 × 1 column), the deviation of each entry from it, the variance (the mean of the squared deviations, again a
  column), the reciprocal square root of the variance plus ε, and finally deviation × reciprocal root × scale + shift,
  the scale and the shift being vectors of 1024 entries laid along every row.

  When every entry of the tile, of the scale and of the shift is a real number, every entry of every stage is the
  coercion of a real: sums, differences and products of reals are real, a quotient by 1024 is the product with the
  reciprocal, and the reciprocal square root is applied to a variance plus a positive ε — a positive real — where it
  is (√y)⁻¹. The stages are named here as functions of the tile, so that each is read once, at a row r (and a
  column c), as the corresponding function of Cert.Spec at row 512 · j + r of batch b.
-/

noncomputable section

namespace Cert.KernelIdeal.Hand

open Cert.KernelIdeal Cert.KernelIdeal.Gen Idealize.ShloMosaic Idealize.ShloMosaic.ValueIdx
open scoped BigOperators

/-- A finite sum of coercions of reals is the coercion of the sum. -/
theorem pay5_coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum along the rows of a 512 × 1024 matrix, read at row r: the sum of that row's 1024 entries. -/
theorem pay5_rowSum (m : FVec Ideal S512x1024 .f32) (hφ : FKind.Formats .f32)
    (hacc : (0x00000000#32 : BitVec 32) = 0x00000000#32) (r : Fin 512) :
    multiReduction .add [1] S512 m 0x00000000#32 reduces_S512x1024_S512 hφ hacc (ix1 r)
      = ∑ k : Fin 1024, m (ix2 r k) := by
  refine (Ideal.multiReduction_add_single m 0x00000000#32 reduces_S512x1024_S512 hφ hacc (ix1 r)).trans ?_
  refine Finset.sum_congr rfl fun k _ => congrArg m ?_
  funext a
  match a with
  | ⟨0, _⟩ => rfl
  | ⟨1, _⟩ => rfl

/-! ## The stages, as functions of the tile -/

/-- The tile as a matrix: its leading unit axis dropped. -/
def p5_tile (v3 : Vec Ideal S1x512x1024 .f32) : FVec Ideal S512x1024 .f32 :=
  shapeCast S512x1024 v3 shapeCasts_S1x512x1024_S512x1024

/-- The row means of a matrix, kept as a column: each row's sum over 1024. -/
def p5_meanCol (m : FVec Ideal S512x1024 .f32) : FVec Ideal S512x1 .f32 :=
  divf (shapeCast S512x1 (multiReduction .add [1] S512 m 0x00000000#32 reduces_S512x1024_S512 (.inl rfl) rfl)
      shapeCasts_S512_S512x1)
    (broadcast S512x1 (Scalar.ofBits .f32 0x44800000#32))

/-- The deviations: each entry minus its row's mean. -/
def p5_dev (m : FVec Ideal S512x1024 .f32) : FVec Ideal S512x1024 .f32 :=
  subf m (broadcastTo S512x1024 (p5_meanCol m) broadcasts_S512x1_S512x1024)

/-- The reciprocal standard deviations, a column: the reciprocal square root of each row's variance plus ε. -/
def p5_rstdCol (m : FVec Ideal S512x1024 .f32) : FVec Ideal S512x1 .f32 :=
  rsqrt (addf (p5_meanCol (mulf (p5_dev m) (p5_dev m))) (broadcast S512x1 (Scalar.ofBits .f32 0x3727C5AC#32)))

/-- The normalised tile: deviation × reciprocal standard deviation × the column's scale + the column's shift. -/
def p5_hn (m : FVec Ideal S512x1024 .f32) (v21 v25 : Vec Ideal S1024 .f32) : FVec Ideal S512x1024 .f32 :=
  addf
    (mulf (mulf (p5_dev m) (broadcastTo S512x1024 (p5_rstdCol m) broadcasts_S512x1_S512x1024))
      (broadcastTo S512x1024 (shapeCast S1x1024 v21 shapeCasts_S1024_S1x1024) broadcasts_S1x1024_S512x1024))
    (broadcastTo S512x1024 (shapeCast S1x1024 v25 shapeCasts_S1024_S1x1024) broadcasts_S1x1024_S512x1024)

/-! ## The stages at an entry -/

/-- The mean column of a matrix of reals, at row r: the row's sum over 1024. -/
theorem p5_meanCol_apply (m : FVec Ideal S512x1024 .f32) (f : Fin 512 → Fin 1024 → ℝ)
    (hm : ∀ r c, m (ix2 r c) = ((f r c : ℝ) : EReal)) (r : Fin 512) (u : Fin 1) :
    p5_meanCol m (ix2 r u) = (((∑ c, f r c) / 1024 : ℝ) : EReal) := by
  unfold p5_meanCol
  rw [divf_apply, broadcast_apply, Cert.Keepdims.shapeCast_a_a1_apply, pay5_rowSum]
  simp only [hm, pay5_coe_sum]
  show Ideal.div _ (Ideal.ofBits .f32 0x44800000#32) = _
  rw [Cert.Consts.ofBits_1024, Ideal.div_coe (by norm_num : (1024 : ℝ) ≠ 0), ← EReal.coe_mul, mul_one_div]

section Stages

variable {x : Fin 4 → Fin 4096 → Fin 1024 → ℝ} {nw nb : Fin 1024 → ℝ} {b : Fin 4} {j : Fin 8}
  {v3 : Vec Ideal S1x512x1024 .f32} {v21 v25 : Vec Ideal S1024 .f32}
  (h3 : ∀ (r : Fin 512) (c : Fin 1024),
    v3 (ix3 0 r c) = ((x b ⟨512 * j.val + r.val, by omega⟩ c : ℝ) : EReal))
  (h21 : ∀ c : Fin 1024, v21 (ix1 c) = ((nw c : ℝ) : EReal))
  (h25 : ∀ c : Fin 1024, v25 (ix1 c) = ((nb c : ℝ) : EReal))

include h3

/-- The tile's entry (r, c) is entry c of row 512 · j + r of batch b. -/
theorem p5_tile_apply (r : Fin 512) (c : Fin 1024) :
    p5_tile v3 (ix2 r c) = ((x b ⟨512 * j.val + r.val, by omega⟩ c : ℝ) : EReal) :=
  (shapeCast_1ab_ab_apply v3 _ r c).trans (h3 r c)

/-- The mean of row r of the tile. -/
theorem p5_mean_at (r : Fin 512) (u : Fin 1) :
    p5_meanCol (p5_tile v3) (ix2 r u) = ((Spec.mu x b ⟨512 * j.val + r.val, by omega⟩ : ℝ) : EReal) :=
  p5_meanCol_apply _ (fun r c => x b ⟨512 * j.val + r.val, by omega⟩ c) (p5_tile_apply h3) r u

/-- The deviation of entry (r, c) from its row's mean. -/
theorem p5_dev_at (r : Fin 512) (c : Fin 1024) :
    p5_dev (p5_tile v3) (ix2 r c)
      = ((x b ⟨512 * j.val + r.val, by omega⟩ c - Spec.mu x b ⟨512 * j.val + r.val, by omega⟩ : ℝ) : EReal) := by
  unfold p5_dev
  rw [subf_apply, Cert.Keepdims.broadcastTo_a1_ab_apply, p5_mean_at h3, p5_tile_apply h3, ← EReal.coe_sub]

/-- The variance of row r of the tile: the mean of its squared deviations. -/
theorem p5_var_at (r : Fin 512) (u : Fin 1) :
    p5_meanCol (mulf (p5_dev (p5_tile v3)) (p5_dev (p5_tile v3))) (ix2 r u)
      = ((Spec.var x b ⟨512 * j.val + r.val, by omega⟩ : ℝ) : EReal) :=
  p5_meanCol_apply _
    (fun r c => (x b ⟨512 * j.val + r.val, by omega⟩ c - Spec.mu x b ⟨512 * j.val + r.val, by omega⟩)
      * (x b ⟨512 * j.val + r.val, by omega⟩ c - Spec.mu x b ⟨512 * j.val + r.val, by omega⟩))
    (fun r c => by rw [mulf_apply, p5_dev_at h3, ← EReal.coe_mul]) r u

/-- The reciprocal standard deviation of row r: the variance plus ε is a positive real, where the reciprocal square
    root is (√y)⁻¹. -/
theorem p5_rstd_at (r : Fin 512) (u : Fin 1) :
    p5_rstdCol (p5_tile v3) (ix2 r u)
      = ((Spec.rs (Spec.var x b ⟨512 * j.val + r.val, by omega⟩ + Consts.eps0) : ℝ) : EReal) := by
  have hp := Spec.var_add_pos x Consts.eps0 Consts.eps0_pos b ⟨512 * j.val + r.val, by omega⟩
  unfold p5_rstdCol
  show Ideal.rsqrt (p5_meanCol (mulf (p5_dev (p5_tile v3)) (p5_dev (p5_tile v3))) (ix2 r u)
    + Ideal.ofBits .f32 0x3727C5AC#32) = _
  rw [p5_var_at h3, Consts.ofBits_eps0, ← EReal.coe_add, Ideal.rsqrt_coe, if_neg (not_lt.mpr hp.le), if_neg hp.ne',
    Spec.rs]

include h21 h25

/-- The normalised tile at (r, c): the normalised row 512 · j + r of batch b at column c. -/
theorem p5_hn_at (r : Fin 512) (c : Fin 1024) :
    p5_hn (p5_tile v3) v21 v25 (ix2 r c)
      = ((Spec.hn x nw nb Consts.eps0 b ⟨512 * j.val + r.val, by omega⟩ c : ℝ) : EReal) := by
  unfold p5_hn
  rw [addf_apply, mulf_apply, mulf_apply, Cert.Keepdims.broadcastTo_a1_ab_apply, broadcastTo_1b_ab_apply,
    broadcastTo_1b_ab_apply, shapeCast_a_1a_apply, shapeCast_a_1a_apply, p5_dev_at h3, p5_rstd_at h3, h21, h25,
    ← EReal.coe_mul, ← EReal.coe_mul, ← EReal.coe_add, Spec.hn]

end Stages

end Cert.KernelIdeal.Hand

end
-- ==== Proof.KI.Pay5.lean ====
import proofs.«126821_j79027398246801_2_alg».proof.Proof.KI.Pay5LN

/-!
  The first kernel's payload at an entry: the fused query / key / value projection of the normalised tile.

  The payload is the matrix product of the normalised 512 × 1024 tile with a 1024 × 3072 weight block — into a zero
  accumulator, so entry (r, o) is the sum over the 1024 inner positions k of tile (r, k) times block (k, o) — plus a
  bias of 3072 entries laid along every row. The weight block arrives transposed: its entry (k, o) is the weight of
  output column o at input column k. Rounding the tile to the narrower format before the product changes nothing here,
  and neither does recasting the block to its own shape. With the normalised tile read as in the previous module, entry
  (r, o) is the first affine map of Cert.Spec at row 512 · j + r of batch b and column o; the three column slices at
  offsets 0, 1024 and 2048 are its queries, keys and values.
-/

noncomputable section

namespace Cert.KernelIdeal.Hand

open Cert.KernelIdeal Cert.KernelIdeal.Gen Idealize.ShloMosaic Idealize.ShloMosaic.ValueIdx
open scoped BigOperators

/-! ## The product's two operand indices, by coordinates -/

/-- The left operand's row is the output's row. -/
theorem p5_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- The left operand's column is the inner position. -/
theorem p5_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q

/-- The right operand's row is the inner position. -/
theorem p5_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

/-- The right operand's column is the output's column. -/
theorem p5_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- A 512 × 1024 by 1024 × 3072 product into a zero accumulator, at (r, o): the sum over the 1024 inner positions. -/
theorem p5_matmul_apply (lhs : FVec Ideal S512x1024 .bf16) (rhs : FVec Ideal S1024x3072 .bf16) (r : Fin 512)
    (o : Fin 3072) :
    matmul dot_S512x1024_S1024x3072_S512x3072_1_0_0_1_n_n none lhs rhs (constant S512x3072 .f32 0x00000000#32) (ix2 r o)
      = ∑ k : Fin 1024, lhs (ix2 r k) * rhs (ix2 k o) := by
  refine (Ideal.matmul_constant_zero_apply dot_S512x1024_S1024x3072_S512x3072_1_0_0_1_n_n none lhs rhs (ix2 r o)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r o) ((contrEquiv1 dot_S512x1024_S1024x3072_S512x3072_1_0_0_1_n_n 1024 rfl rfl).symm k) = ix2 r k :=
    funext fun a => Fin.ext (by
      match a with
      | ⟨0, _⟩ => exact p5_lhs_0 _ _
      | ⟨1, _⟩ => exact (p5_lhs_1 _ _).trans hk)
  have er : dot_S512x1024_S1024x3072_S512x3072_1_0_0_1_n_n.rhsIdx (ix2 r o) ((contrEquiv1 dot_S512x1024_S1024x3072_S512x3072_1_0_0_1_n_n 1024 rfl rfl).symm k) = ix2 k o :=
    funext fun a => Fin.ext (by
      match a with
      | ⟨0, _⟩ => exact (p5_rhs_0 _ _).trans hk
      | ⟨1, _⟩ => exact p5_rhs_1 _ _)
  rw [el, er]

/-- The payload, stage by stage: the product of the normalised tile with the weight block, plus the bias row. -/
theorem k0_pay5_eq (v3 : Vec Ideal S1x512x1024 .f32) (v21 v25 : Vec Ideal S1024 .f32)
    (v30 : Vec Ideal S1024x3072 .bf16) (v33 : Vec Ideal S3072 .f32) :
    k0_pay5 (F := Ideal) v3 v21 v25 v30 v33
      = addf
          (matmul dot_S512x1024_S1024x3072_S512x3072_1_0_0_1_n_n none (truncf .bf16 (p5_hn (p5_tile v3) v21 v25) bitsLt_bf16_f32)
            (shapeCast S1024x3072 v30 shapeCasts_S1024x3072_S1024x3072 : FVec Ideal S1024x3072 .bf16)
            (constant S512x3072 .f32 0x00000000#32))
          (broadcastTo S512x3072 (shapeCast S1x3072 v33 shapeCasts_S3072_S1x3072) broadcasts_S1x3072_S512x3072) :=
  rfl

section Payload

variable (x : Fin 4 → Fin 4096 → Fin 1024 → ℝ) (nw nb : Fin 1024 → ℝ) (qw : Fin 3072 → Fin 1024 → ℝ)
  (qb : Fin 3072 → ℝ) (b : Fin 4) (j : Fin 8)
  (v3 : Vec Ideal S1x512x1024 .f32) (v21 v25 : Vec Ideal S1024 .f32) (v30 : Vec Ideal S1024x3072 .bf16)
  (v33 : Vec Ideal S3072 .f32)
  (h3 : ∀ (r : Fin 512) (c : Fin 1024),
    v3 (ValueIdx.ix3 0 r c) = ((x b ⟨512 * j.val + r.val, by omega⟩ c : ℝ) : EReal))
  (h21 : ∀ c : Fin 1024, v21 (ValueIdx.ix1 c) = ((nw c : ℝ) : EReal))
  (h25 : ∀ c : Fin 1024, v25 (ValueIdx.ix1 c) = ((nb c : ℝ) : EReal))
  (h30 : ∀ (c : Fin 1024) (o : Fin 3072), v30 (ValueIdx.ix2 c o) = ((qw o c : ℝ) : EReal))
  (h33 : ∀ o : Fin 3072, v33 (ValueIdx.ix1 o) = ((qb o : ℝ) : EReal))

include h3 h21 h25 h30 h33

/-- The payload at (r, o): the first affine map of row 512 · j + r of batch b, at column o. -/
theorem pay5_apply (r : Fin 512) (o : Fin 3072) :
    k0_pay5 v3 v21 v25 v30 v33 (ValueIdx.ix2 r o)
      = ((Cert.Spec.qkv x nw nb qw qb Cert.Consts.eps0 b ⟨512 * j.val + r.val, by omega⟩ o : ℝ) : EReal) := by
  rw [k0_pay5_eq, addf_apply, p5_matmul_apply, broadcastTo_1b_ab_apply, shapeCast_a_1a_apply, h33]
  simp only [truncf_apply, shapeCast_self, p5_hn_at h3 h21 h25, h30, ← EReal.coe_mul, pay5_coe_sum, ← EReal.coe_add]
  rw [Spec.qkv]

/-- The query slice (columns 0 … 1023; its rounding to the narrower format changes nothing) at (r, c). -/
theorem pay8_apply (r : Fin 512) (c : Fin 1024) :
    k0_pay8 v3 v21 v25 v30 v33 (ValueIdx.ix2 r c)
      = ((Cert.Spec.q x nw nb qw qb Cert.Consts.eps0 b ⟨512 * j.val + r.val, by omega⟩ c : ℝ) : EReal) := by
  refine (slice2_axis1_apply 0 (k0_pay5 v3 v21 v25 v30 v33) slices_S512x3072_o0_0_S512x1024 r c
    ⟨c.val, by omega⟩ (Nat.zero_add _).symm).trans ?_
  rw [pay5_apply x nw nb qw qb b j v3 v21 v25 v30 v33 h3 h21 h25 h30 h33, Spec.q]

/-- The key slice (columns 1024 … 2047) at (r, c). -/
theorem pay6_apply (r : Fin 512) (c : Fin 1024) :
    k0_pay6 v3 v21 v25 v30 v33 (ValueIdx.ix2 r c)
      = ((Cert.Spec.k x nw nb qw qb Cert.Consts.eps0 b ⟨512 * j.val + r.val, by omega⟩ c : ℝ) : EReal) := by
  refine (slice2_axis1_apply 1024 (k0_pay5 v3 v21 v25 v30 v33) slices_S512x3072_o0_1024_S512x1024 r c
    ⟨1024 + c.val, by omega⟩ rfl).trans ?_
  rw [pay5_apply x nw nb qw qb b j v3 v21 v25 v30 v33 h3 h21 h25 h30 h33, Spec.k]

/-- The value slice (columns 2048 … 3071) at (r, c). -/
theorem pay7_apply (r : Fin 512) (c : Fin 1024) :
    k0_pay7 v3 v21 v25 v30 v33 (ValueIdx.ix2 r c)
      = ((Cert.Spec.v x nw nb qw qb Cert.Consts.eps0 b ⟨512 * j.val + r.val, by omega⟩ c : ℝ) : EReal) := by
  refine (slice2_axis1_apply 2048 (k0_pay5 v3 v21 v25 v30 v33) slices_S512x3072_o0_2048_S512x1024 r c
    ⟨2048 + c.val, by omega⟩ rfl).trans ?_
  rw [pay5_apply x nw nb qw qb b j v3 v21 v25 v30 v33 h3 h21 h25 h30 h33, Spec.v]

end Payload

end Cert.KernelIdeal.Hand

end
-- ==== Proof.SpecKv.lean ====
import proofs.«126821_j79027398246801_2_alg».proof.Proof.Spec

/-!
  The sum `kv` of a batch, one tile of 512 rows at a time.

  `kvTile b j` is the contribution of tile `j`: the sum over its 512 rows `s` of `k s a · v s a'`.
  `kvUpTo b m` is the sum of the contributions of the tiles `j < m`: nothing for `m = 0`, one more tile at each
  step, and the whole of `kv b` at `m = 8`.
-/

noncomputable section

namespace Cert.Spec

open scoped BigOperators

variable (x : Fin 4 → Fin 4096 → Fin 1024 → ℝ) (nw nb : Fin 1024 → ℝ)
  (qw : Fin 3072 → Fin 1024 → ℝ) (qb : Fin 3072 → ℝ) (ε : ℝ)

/-- Tile `j` of batch `b`: its 512 rows' share of `kᵀ v`. -/
def kvTile (b : Fin 4) (j : Fin 8) (a a' : Fin 1024) : ℝ :=
  ∑ s : Fin 512,
    k x nw nb qw qb ε b ⟨512 * j.val + s.val, by omega⟩ a * v x nw nb qw qb ε b ⟨512 * j.val + s.val, by omega⟩ a'

/-- The tiles `j < m` of batch `b`, summed. -/
def kvUpTo (b : Fin 4) (m : ℕ) (a a' : Fin 1024) : ℝ :=
  ∑ j ∈ Finset.univ.filter (fun j : Fin 8 => j.val < m), kvTile x nw nb qw qb ε b j a a'

/-- No tile: the empty sum. -/
theorem kvUpTo_zero (b : Fin 4) (a a' : Fin 1024) : kvUpTo x nw nb qw qb ε b 0 a a' = 0 := by
  unfold kvUpTo
  rw [Finset.filter_false_of_mem (fun j _ => Nat.not_lt_zero _), Finset.sum_empty]

/-- One more tile. -/
theorem kvUpTo_succ (b : Fin 4) (m : ℕ) (hm : m < 8) (a a' : Fin 1024) :
    kvUpTo x nw nb qw qb ε b (m + 1) a a'
      = kvUpTo x nw nb qw qb ε b m a a' + kvTile x nw nb qw qb ε b ⟨m, hm⟩ a a' := by
  unfold kvUpTo
  have hset : Finset.univ.filter (fun j : Fin 8 => j.val < m + 1)
      = insert (⟨m, hm⟩ : Fin 8) (Finset.univ.filter (fun j : Fin 8 => j.val < m)) := by
    ext j
    simp only [Finset.mem_filter, Finset.mem_univ, true_and, Finset.mem_insert, Fin.ext_iff]
    omega
  rw [hset, Finset.sum_insert (by simp), add_comm]

/-- All eight tiles: the whole sum. -/
theorem kvUpTo_eight (b : Fin 4) (a a' : Fin 1024) :
    kvUpTo x nw nb qw qb ε b 8 a a' = kv x nw nb qw qb ε b a a' := by
  unfold kvUpTo kv kvTile
  rw [Finset.filter_true_of_mem (fun j _ => j.isLt)]

end Cert.Spec

end
-- ==== Proof.KI.Value0.lean ====
/-
  The kᵀv array after the first call, at real arguments: entry (b, a, a') is the sum over all 4096 rows s of batch b
  of k s a · v s a'.

  The tile of grid point t is rows 512 (t % 8) … of batch t / 8, so its k and v columns are the reals of Cert.Spec at
  those rows. By induction on the point, the accumulator after point t holds at (a, a') the sum of the tiles
  0 … t % 8 of the batch: the first tile of a batch starts from the zero matrix, every other tile adds its own
  512 rows to what the point before left. At the last tile of a batch all eight tiles are in, the accumulator is
  written to the kᵀv window, and the window's block (t / 8, 0, 0) is that batch's slab of the array; the four last
  tiles cover the array.
-/
import proofs.«126821_j79027398246801_2_alg».proof.Proof.KI.Value0Acc
import proofs.«126821_j79027398246801_2_alg».proof.Proof.KI.Value0Blk
import proofs.«126821_j79027398246801_2_alg».proof.Proof.KI.Pay0
import proofs.«126821_j79027398246801_2_alg».proof.Proof.KI.Pay5
import proofs.«126821_j79027398246801_2_alg».proof.Proof.SpecKv

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Consts
open scoped BigOperators

/-- A finite sum of coercions of reals is the coercion of the sum. -/
theorem kv0_coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Real

variable (V : (c : Dev nD) → (b : Ref sig .tc) → Buf (Elt Ideal) ((c : Thread nD τ).loc b)) (c : Dev nD)
  {x : Fin 4 → Fin 4096 → Fin 1024 → ℝ} {nw nb : Fin 1024 → ℝ} {qw : Fin 3072 → Fin 1024 → ℝ} {qb : Fin 3072 → ℝ}
  (h0 : ∀ (b : Fin 4) (t : Fin 4096) (cc : Fin 1024), V c main_arg0 (ix3 b t cc) = ((x b t cc : ℝ) : EReal))
  (h1 : ∀ cc : Fin 1024, V c main_arg1 (ix1 cc) = ((nw cc : ℝ) : EReal))
  (h2 : ∀ cc : Fin 1024, V c main_arg2 (ix1 cc) = ((nb cc : ℝ) : EReal))
  (h3 : ∀ (cc : Fin 1024) (o : Fin 3072), V c main_v1 (ix2 cc o) = ((qw o cc : ℝ) : EReal))
  (h4 : ∀ o : Fin 3072, V c main_arg4 (ix1 o) = ((qb o : ℝ) : EReal))

include h0 h1 h2 h3 h4

/-- The k columns of the tile of point `t` are the keys of its rows. -/
theorem kv0_kT_apply (t : Fin cfg0.N) (s : Fin 512) (a : Fin 1024) :
    kv0_kT V c t (ix2 s a)
      = ((Spec.k x nw nb qw qb eps0 (kv0_bOf t) ⟨512 * (kv0_jOf t).val + s.val, by have := (kv0_jOf t).isLt; omega⟩ a : ℝ) : EReal) := by
  unfold kv0_kT
  exact pay6_apply x nw nb qw qb (kv0_bOf t) (kv0_jOf t) (iblk0 V c 0 t) (iblk0 V c 1 t) (iblk0 V c 2 t) (iblk0 V c 3 t) (iblk0 V c 4 t)
    (fun r cc => (kv0_iblk0_0_apply V c t r cc).trans (h0 _ _ _))
    (fun cc => (kv0_iblk0_1_apply V c t cc).trans (h1 cc))
    (fun cc => (kv0_iblk0_2_apply V c t cc).trans (h2 cc))
    (fun cc o => (kv0_iblk0_3_apply V c t cc o).trans (h3 cc o))
    (fun o => (kv0_iblk0_4_apply V c t o).trans (h4 o)) s a

/-- The v columns of the tile of point `t` are the values of its rows. -/
theorem kv0_vT_apply (t : Fin cfg0.N) (s : Fin 512) (a : Fin 1024) :
    kv0_vT V c t (ix2 s a)
      = ((Spec.v x nw nb qw qb eps0 (kv0_bOf t) ⟨512 * (kv0_jOf t).val + s.val, by have := (kv0_jOf t).isLt; omega⟩ a : ℝ) : EReal) := by
  unfold kv0_vT
  exact pay7_apply x nw nb qw qb (kv0_bOf t) (kv0_jOf t) (iblk0 V c 0 t) (iblk0 V c 1 t) (iblk0 V c 2 t) (iblk0 V c 3 t) (iblk0 V c 4 t)
    (fun r cc => (kv0_iblk0_0_apply V c t r cc).trans (h0 _ _ _))
    (fun cc => (kv0_iblk0_1_apply V c t cc).trans (h1 cc))
    (fun cc => (kv0_iblk0_2_apply V c t cc).trans (h2 cc))
    (fun cc o => (kv0_iblk0_3_apply V c t cc o).trans (h3 cc o))
    (fun o => (kv0_iblk0_4_apply V c t o).trans (h4 o)) s a

/-- The tile's own contribution to entry (a, a'): its 512 rows' products. -/
theorem kv0_tile_sum (t : Fin cfg0.N) (a a' : Fin 1024) :
    ∑ s : Fin 512, kv0_kT V c t (ix2 s a) * kv0_vT V c t (ix2 s a')
      = ((Spec.kvTile x nw nb qw qb eps0 (kv0_bOf t) (kv0_jOf t) a a' : ℝ) : EReal) := by
  simp only [kv0_kT_apply V c h0 h1 h2 h3 h4, kv0_vT_apply V c h0 h1 h2 h3 h4, ← EReal.coe_mul, kv0_coe_sum]
  rfl

/-- The accumulator after point `n`: the tiles 0 … n % 8 of the batch, summed. -/
theorem kv0_acc : ∀ (n : ℕ) (hn : n < cfg0.N) (a a' : Fin 1024),
    (outsAt0 V c n hn).2.2 (ix2 a a')
      = ((Spec.kvUpTo x nw nb qw qb eps0 (kv0_bOf ⟨n, hn⟩) (n % 8 + 1) a a' : ℝ) : EReal) := by
  intro n
  induction n using Nat.strong_induction_on with
  | _ n ih =>
    intro hn a a'
    have hm : n % 8 < 8 := Nat.mod_lt _ (by norm_num)
    have hstep := Spec.kvUpTo_succ x nw nb qw qb eps0 (kv0_bOf ⟨n, hn⟩) (n % 8) hm a a'
    have htile := kv0_tile_sum V c h0 h1 h2 h3 h4 ⟨n, hn⟩ a a'
    by_cases hfirst : n % 8 = 0
    · refine (congrFun (kv0_acc_first V c ⟨n, hn⟩ hfirst) (ix2 a a')).trans ?_
      refine (pay2_0_apply _ _ _ a a').trans ?_
      rw [pay4_0_apply a a', htile, zero_add, hstep]
      have hz : Spec.kvUpTo x nw nb qw qb eps0 (kv0_bOf ⟨n, hn⟩) (n % 8) a a' = 0 := by
        rw [hfirst]; exact Spec.kvUpTo_zero x nw nb qw qb eps0 _ a a'
      rw [hz, zero_add]
      rfl
    · refine (congrFun (kv0_acc_next V c ⟨n, hn⟩ hfirst) (ix2 a a')).trans ?_
      refine (pay2_0_apply _ _ _ a a').trans ?_
      have hprev := ih (n - 1) (by omega) (Nat.lt_of_le_of_lt (Nat.sub_le _ _) hn) a a'
      have hb : kv0_bOf ⟨n - 1, Nat.lt_of_le_of_lt (Nat.sub_le _ _) hn⟩ = kv0_bOf ⟨n, hn⟩ :=
        Fin.ext (by show (n - 1) / 8 = n / 8; omega)
      have hk : (n - 1) % 8 + 1 = n % 8 := by omega
      rw [hb, hk] at hprev
      rw [show (outsAt0 V c ((⟨n, hn⟩ : Fin cfg0.N).val - 1) (Nat.lt_of_le_of_lt (Nat.sub_le _ _) (⟨n, hn⟩ : Fin cfg0.N).isLt)).2.2 (ix2 a a')
          = _ from hprev, htile, ← EReal.coe_add, hstep]
      rfl

/-- What the kᵀv array ends holding: at (b, a, a') the sum over the rows of batch b. -/
abbrev kv0_G (x : Fin 4 → Fin 4096 → Fin 1024 → ℝ) (nw nb : Fin 1024 → ℝ) (qw : Fin 3072 → Fin 1024 → ℝ)
    (qb : Fin 3072 → ℝ) : S4x1024x1024.Idx → EReal :=
  fun i => ((Spec.kv x nw nb qw qb eps0 (i 0) (i 1) (i 2) : ℝ) : EReal)

/-- What a last tile writes back is its batch's slab of `kv0_G`. -/
theorem kv0_flushed (t : Fin cfg0.N) (hf : (cfg0.win 6).flush t = true) :
    (dat0 V c).flushed 6 t = ((cfg0.win 6).blk t).view.read (Elt Ideal) (kv0_G x nw nb qw qb) := by
  have h7 : t.val % 8 = 7 := (flush0_6 t).mp hf
  show (cfg0.win 6).cut (grid0.coords t) ((dat0 V c).after 6 t) = _
  rw [after0_6, kv0_buf_last V c t h7]
  funext y
  obtain ⟨z, a, a', rfl⟩ : ∃ (z : Fin 1) (a a' : Fin 1024), y = ix3 z a a' := ⟨y 0, y 1, y 2, eq_ix3 y⟩
  obtain rfl : z = 0 := Subsingleton.elim _ _
  show k0_pay3 (outsAt0 V c t.val t.isLt).2.2 (ix3 0 a a') = kv0_G x nw nb qw qb (((cfg0.win 6).blk t).view.emb (ix3 0 a a'))
  rw [kv0_emb0_6 t a a']
  refine (pay3_0_apply _ a a').trans ?_
  rw [kv0_acc V c h0 h1 h2 h3 h4 t.val t.isLt a a', h7, Spec.kvUpTo_eight]

/-- THE kᵀv ARRAY after the first call. -/
theorem final0_6 (b : Fin 4) (a a' : Fin 1024) :
    (dat0 (F := Ideal) V c).arrAt 6 cfg0.N (ix3 b a a') = ((Spec.kv x nw nb qw qb eps0 b a a' : ℝ) : EReal) :=
  congrFun ((dat0 V c).arrAt_eq_of_cover 6 (kv0_G x nw nb qw qb) (kv0_flushed V c h0 h1 h2 h3 h4) kv0_cover0_6) (ix3 b a a')

end Real

end Cert.KernelIdeal.Hand

end
-- ==== Proof.KI.Value0Q.lean ====
/- Region 0's q array at the exact (extended-real) instance: after the first kernel call its first result array
   holds, at row (b, t) and column c, the query of that row — the row of x normalised (mean, variance plus ε,
   reciprocal square root, scale and shift per column) and mapped by the first 1024 columns of the affine map.

   The mathematics.  Whatever the kind of grid point (first tile of a batch, a middle one, the last), the body writes
   into the q window's buffer one value only: the query slice of the projected, normalised tile, reshaped by a
   leading unit axis; the accumulator plays no part in it.  Point p = 8·b + j handles rows 512·j … 512·j + 511 of batch
   b: block (b, j, 0) of x and of q; the normalisation vectors, the projection matrix and its bias are whole arrays at
   every point.  Every point writes its q block back, and row (b, t) lies in the block of point 8·b + t / 512, so the
   array ends holding the query everywhere. -/
import proofs.«126821_j79027398246801_2_alg».proof.Proof.KI.Value0A
import proofs.«126821_j79027398246801_2_alg».proof.Proof.KI.Pay0
import proofs.«126821_j79027398246801_2_alg».proof.Proof.KI.Pay5
import proofs.«126821_j79027398246801_2_alg».proof.Proof.KI.Value0Blk

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## What every point leaves in the q window's buffer -/

section AnyInstance
variable {F : FTy → Type} [FloatOps F]
variable (V : (c : Dev nD) → (b : Ref sig .tc) → Buf (Elt F) ((c : Thread nD τ).loc b))

set_option maxHeartbeats 1000000 in
/-- At every point, of whichever kind, the q window's buffer after the body is the query slice of the point's five
    input blocks, with a leading unit axis. -/
theorem q0_out_eq (c : Dev nD) (p : Fin cfg0.N) :
    (outsAt0 V c p.val p.isLt).1 = k0_pay1 (k0_pay8 (iblk0 V c 0 p) (iblk0 V c 1 p) (iblk0 V c 2 p) (iblk0 V c 3 p) (iblk0 V c 4 p)) := by
  by_cases h0 : p.val % 8 = 0
  · have h1 : ¬p.val % 8 = 7 := by omega
    rw [outsAt0_A V c p h0 h1]
    dsimp only
    exact out0_A_5_eq c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) ((hcond0_0 p).mpr h0) (fun h => h1 ((hcond0_1 p).mp h)) (iblk0 V c 0 p) (iblk0 V c 1 p) (iblk0 V c 2 p) (iblk0 V c 3 p) (iblk0 V c 4 p)
  · by_cases h1 : p.val % 8 = 7
    · rw [outsAt0_C V c p h0 h1]
      dsimp only
      exact out0_C_5_eq c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) (fun h => h0 ((hcond0_0 p).mp h)) ((hcond0_1 p).mpr h1) (iblk0 V c 0 p) (iblk0 V c 1 p) (iblk0 V c 2 p) (iblk0 V c 3 p) (iblk0 V c 4 p) (outsAt0 V c (p.val - 1) (Nat.lt_of_le_of_lt (Nat.sub_le _ _) p.isLt)).2.2
    · rw [outsAt0_B V c p h0 h1]
      dsimp only
      exact out0_B_5_eq c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) (fun h => h0 ((hcond0_0 p).mp h)) (fun h => h1 ((hcond0_1 p).mp h)) (iblk0 V c 0 p) (iblk0 V c 1 p) (iblk0 V c 2 p) (iblk0 V c 3 p) (iblk0 V c 4 p) (outsAt0 V c (p.val - 1) (Nat.lt_of_le_of_lt (Nat.sub_le _ _) p.isLt)).2.2

end AnyInstance

/-! ## The q array after the region -/

section AtIdeal
variable (V : (c : Dev nD) → (b : Ref sig .tc) → Buf (Elt Ideal) ((c : Thread nD τ).loc b))

/-- The specification as one array: at row `(b, t)`, column `c`, the query of that row. -/
def q0_G (x : Fin 4 → Fin 4096 → Fin 1024 → ℝ) (nw nb : Fin 1024 → ℝ) (qw : Fin 3072 → Fin 1024 → ℝ) (qb : Fin 3072 → ℝ) :
    S4x4096x1024.Idx → EReal :=
  fun i => ((Cert.Spec.q x nw nb qw qb Cert.Consts.eps0 (i 0) (i 1) (i 2) : ℝ) : EReal)

theorem q0_G_apply (x : Fin 4 → Fin 4096 → Fin 1024 → ℝ) (nw nb : Fin 1024 → ℝ) (qw : Fin 3072 → Fin 1024 → ℝ) (qb : Fin 3072 → ℝ)
    (b : Fin 4) (t : Fin 4096) (cc : Fin 1024) :
    q0_G x nw nb qw qb (ix3 b t cc) = ((Cert.Spec.q x nw nb qw qb Cert.Consts.eps0 b t cc : ℝ) : EReal) := rfl

/-- What point `p` writes back to the q array is block `p` of the specification: the stored value is the query slice
    of the point's blocks, the x block is rows `512·(p % 8) …` of batch `p / 8`, and the four other blocks are the whole
    normalisation vectors, projection matrix and bias. -/
theorem q0_flushed_eq (c : Dev nD) {x : Fin 4 → Fin 4096 → Fin 1024 → ℝ} {nw nb : Fin 1024 → ℝ} {qw : Fin 3072 → Fin 1024 → ℝ} {qb : Fin 3072 → ℝ}
    (h0 : ∀ (b : Fin 4) (t : Fin 4096) (cc : Fin 1024), V c main_arg0 (ix3 b t cc) = ((x b t cc : ℝ) : EReal))
    (h1 : ∀ cc : Fin 1024, V c main_arg1 (ix1 cc) = ((nw cc : ℝ) : EReal))
    (h2 : ∀ cc : Fin 1024, V c main_arg2 (ix1 cc) = ((nb cc : ℝ) : EReal))
    (h3 : ∀ (cc : Fin 1024) (o : Fin 3072), V c main_v1 (ix2 cc o) = ((qw o cc : ℝ) : EReal))
    (h4 : ∀ o : Fin 3072, V c main_arg4 (ix1 o) = ((qb o : ℝ) : EReal))
    (p : Fin cfg0.N) :
    (dat0 (F := Ideal) V c).flushed 5 p = ((cfg0.win 5).blk p).view.read (Elt Ideal) (q0_G x nw nb qw qb) := by
  show (cfg0.win 5).cut (grid0.coords p) ((dat0 V c).after 5 p) = _
  rw [after0_5, q0_out_eq]
  funext y
  obtain ⟨u, r, cc, rfl⟩ : ∃ (u : Fin 1) (r : Fin 512) (cc : Fin 1024), y = ix3 u r cc := ⟨y 0, y 1, y 2, eq_ix3 y⟩
  obtain rfl : u = 0 := Subsingleton.elim _ _
  show k0_pay1 (k0_pay8 (iblk0 V c 0 p) (iblk0 V c 1 p) (iblk0 V c 2 p) (iblk0 V c 3 p) (iblk0 V c 4 p)) (ix3 (0 : Fin 1) r cc)
    = q0_G x nw nb qw qb (((cfg0.win 5).blk p).view.emb (ix3 (0 : Fin 1) r cc))
  rw [kv0_emb0_5 p r cc]
  refine (pay1_0_apply (k0_pay8 (iblk0 V c 0 p) (iblk0 V c 1 p) (iblk0 V c 2 p) (iblk0 V c 3 p) (iblk0 V c 4 p)) r cc).trans ?_
  exact pay8_apply x nw nb qw qb (kv0_bOf p) (kv0_jOf p) (iblk0 V c 0 p) (iblk0 V c 1 p) (iblk0 V c 2 p) (iblk0 V c 3 p) (iblk0 V c 4 p)
    (fun r cc => (kv0_iblk0_0_apply V c p r cc).trans (h0 _ _ _))
    (fun cc => (kv0_iblk0_1_apply V c p cc).trans (h1 cc))
    (fun cc => (kv0_iblk0_2_apply V c p cc).trans (h2 cc))
    (fun cc o => (kv0_iblk0_3_apply V c p cc o).trans (h3 cc o))
    (fun o => (kv0_iblk0_4_apply V c p o).trans (h4 o))
    r cc

/-- THE q ARRAY after the region: at every row and column the query of that row. -/
theorem final0_5 (c : Dev nD) {x : Fin 4 → Fin 4096 → Fin 1024 → ℝ} {nw nb : Fin 1024 → ℝ} {qw : Fin 3072 → Fin 1024 → ℝ} {qb : Fin 3072 → ℝ}
    (h0 : ∀ (b : Fin 4) (t : Fin 4096) (cc : Fin 1024), V c main_arg0 (ix3 b t cc) = ((x b t cc : ℝ) : EReal))
    (h1 : ∀ cc : Fin 1024, V c main_arg1 (ix1 cc) = ((nw cc : ℝ) : EReal))
    (h2 : ∀ cc : Fin 1024, V c main_arg2 (ix1 cc) = ((nb cc : ℝ) : EReal))
    (h3 : ∀ (cc : Fin 1024) (o : Fin 3072), V c main_v1 (ix2 cc o) = ((qw o cc : ℝ) : EReal))
    (h4 : ∀ o : Fin 3072, V c main_arg4 (ix1 o) = ((qb o : ℝ) : EReal))
    (b : Fin 4) (t : Fin 4096) (cc : Fin 1024) :
    (dat0 (F := Ideal) V c).arrAt 5 cfg0.N (ix3 b t cc) = ((Cert.Spec.q x nw nb qw qb Cert.Consts.eps0 b t cc : ℝ) : EReal) :=
  (congrFun ((dat0 (F := Ideal) V c).arrAt_eq_of_cover 5 (q0_G x nw nb qw qb)
    (fun p _ => q0_flushed_eq V c h0 h1 h2 h3 h4 p) kv0_cover0_5) (ix3 b t cc)).trans (q0_G_apply x nw nb qw qb b t cc)

end AtIdeal

end Cert.KernelIdeal.Hand

end
-- ==== Proof.KI.Final.lean ====
/-
  The kernel program's result at the exact instance, on real inputs: entry (b, t, o) of the result's buffer at the end is
  the real number ((∑_{c'} ((∑_c q[b,t,c]·kv[b,c,c'])·(1/32))·pw[o,c']) + pb[o]) + x[b,t,o], where q, k, v are the
  three column ranges of LayerNorm(x)·qwᵀ + qb and kv[b] = kᵀv summed over the eight tiles of batch b. Region 1's final
  array is one function of its five input arrays; those are region 0's two final arrays, the transposed projection
  weight the host wrote, and two argument arrays — each read back here as the coercion of a real array.
-/
import proofs.«126821_j79027398246801_2_alg».proof.Proof.KI.HostVals
import proofs.«126821_j79027398246801_2_alg».proof.Proof.KI.Value1
import proofs.«126821_j79027398246801_2_alg».proof.Proof.KI.Value0
import proofs.«126821_j79027398246801_2_alg».proof.Proof.KI.Value0Q
import proofs.«126821_j79027398246801_2_alg».proof.Proof.Spec
import proofs.«126821_j79027398246801_2_alg».proof.Proof.Consts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A finite sum of real numbers read in the extended reals. -/
theorem coe_fsum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable (m : (ℓ : Loc nD τ sig) → Buf (Elt Ideal) ℓ) (ρ : Dev nD → PrngReg)

theorem value_main (c : Dev nD)
    {x : Fin 4 → Fin 4096 → Fin 1024 → ℝ} {nw nb : Fin 1024 → ℝ} {qw : Fin 3072 → Fin 1024 → ℝ} {qb : Fin 3072 → ℝ}
    {pw : Fin 1024 → Fin 1024 → ℝ} {pb : Fin 1024 → ℝ}
    (h0 : ∀ (b : Fin 4) (t : Fin 4096) (cc : Fin 1024), (m ((c : Thread nD τ).loc main_arg0) : S4x4096x1024.Idx → EReal) (ix3 b t cc) = ((x b t cc : ℝ) : EReal))
    (h1 : ∀ cc : Fin 1024, (m ((c : Thread nD τ).loc main_arg1) : S1024.Idx → EReal) (ix1 cc) = ((nw cc : ℝ) : EReal))
    (h2 : ∀ cc : Fin 1024, (m ((c : Thread nD τ).loc main_arg2) : S1024.Idx → EReal) (ix1 cc) = ((nb cc : ℝ) : EReal))
    (h3 : ∀ (o : Fin 3072) (cc : Fin 1024), (m ((c : Thread nD τ).loc main_arg3) : S3072x1024.Idx → EReal) (ix2 o cc) = ((qw o cc : ℝ) : EReal))
    (h4 : ∀ o : Fin 3072, (m ((c : Thread nD τ).loc main_arg4) : S3072.Idx → EReal) (ix1 o) = ((qb o : ℝ) : EReal))
    (h5 : ∀ (o cc : Fin 1024), (m ((c : Thread nD τ).loc main_arg5) : S1024x1024.Idx → EReal) (ix2 o cc) = ((pw o cc : ℝ) : EReal))
    (h6 : ∀ o : Fin 1024, (m ((c : Thread nD τ).loc main_arg6) : S1024.Idx → EReal) (ix1 o) = ((pb o : ℝ) : EReal))
    (b : Fin 4) (t : Fin 4096) (o : Fin 1024) :
    (Wa4 m ρ c (Proc.devRef .tc main_v5) : S4x4096x1024.Idx → EReal) (ix3 b t o)
      = ((Cert.Spec.kerOut x nw nb qw qb pw pb Cert.Consts.eps0 b t o : ℝ) : EReal) := by
  have e4 : Wa4 m ρ c (Proc.devRef .tc main_v5)
      = G1 (Va3 m ρ c main_v4_0) (Va3 m ρ c main_v4_1) (Va3 m ρ c main_v3) (Va3 m ρ c main_arg6) (Va3 m ρ c main_arg0) :=
    (Wa4_arr m ρ c 5).trans (final1 (Va3 m ρ) c)
  -- region 0 is entered with the argument arrays as launched and the q/k/v weight transposed
  have g0 : ∀ (b : Fin 4) (t : Fin 4096) (cc : Fin 1024), Va1 m ρ c main_arg0 (ix3 b t cc) = ((x b t cc : ℝ) : EReal) := fun b t cc =>
    (congrFun (Wa1_keep m ρ c main_arg0 (by decide)) _).trans (h0 b t cc)
  have g1 : ∀ cc : Fin 1024, Va1 m ρ c main_arg1 (ix1 cc) = ((nw cc : ℝ) : EReal) := fun cc =>
    (congrFun (Wa1_keep m ρ c main_arg1 (by decide)) _).trans (h1 cc)
  have g2 : ∀ cc : Fin 1024, Va1 m ρ c main_arg2 (ix1 cc) = ((nb cc : ℝ) : EReal) := fun cc =>
    (congrFun (Wa1_keep m ρ c main_arg2 (by decide)) _).trans (h2 cc)
  have g3 : ∀ (cc : Fin 1024) (o : Fin 3072), Va1 m ρ c main_v1 (ix2 cc o) = ((qw o cc : ℝ) : EReal) := fun cc o =>
    (Wa1_main_v1_apply m ρ c cc o).trans (h3 o cc)
  have g4 : ∀ o : Fin 3072, Va1 m ρ c main_arg4 (ix1 o) = ((qb o : ℝ) : EReal) := fun o =>
    (congrFun (Wa1_keep m ρ c main_arg4 (by decide)) _).trans (h4 o)
  -- region 1's five input arrays
  have hQ : ∀ (b : Fin 4) (t : Fin 4096) (cc : Fin 1024), Va3 m ρ c main_v4_0 (ix3 b t cc)
      = ((Cert.Spec.q x nw nb qw qb Cert.Consts.eps0 b t cc : ℝ) : EReal) := fun b t cc =>
    (congrFun ((Wa3_keep m ρ c main_v4_0 (by decide)).trans (Wa2_arr m ρ c 5)) _).trans (final0_5 (Va1 m ρ) c g0 g1 g2 g3 g4 b t cc)
  have hKV : ∀ (b : Fin 4) (a a' : Fin 1024), Va3 m ρ c main_v4_1 (ix3 b a a')
      = ((Cert.Spec.kv x nw nb qw qb Cert.Consts.eps0 b a a' : ℝ) : EReal) := fun b a a' =>
    (congrFun ((Wa3_keep m ρ c main_v4_1 (by decide)).trans (Wa2_arr m ρ c 6)) _).trans (final0_6 (Va1 m ρ) c g0 g1 g2 g3 g4 b a a')
  have hPW : ∀ (cc o : Fin 1024), Va3 m ρ c main_v3 (ix2 cc o) = ((pw o cc : ℝ) : EReal) := fun cc o =>
    (congrFun ((Wa3_keep m ρ c main_v3 (by decide)).trans (Wa2_of_ne m ρ c main_v3 (by decide))) _).trans
      ((Wa1_main_v3_apply m ρ c cc o).trans (h5 o cc))
  have hPB : ∀ o : Fin 1024, Va3 m ρ c main_arg6 (ix1 o) = ((pb o : ℝ) : EReal) := fun o =>
    (congrFun ((Wa3_keep m ρ c main_arg6 (by decide)).trans ((Wa2_of_ne m ρ c main_arg6 (by decide)).trans (Wa1_keep m ρ c main_arg6 (by decide)))) _).trans (h6 o)
  have hX : ∀ (b : Fin 4) (t : Fin 4096) (cc : Fin 1024), Va3 m ρ c main_arg0 (ix3 b t cc) = ((x b t cc : ℝ) : EReal) := fun b t cc =>
    (congrFun ((Wa3_keep m ρ c main_arg0 (by decide)).trans (((Wa2_arr m ρ c 0).trans (((dat0 (Va1 m ρ) c).arrAt_in 0 rfl _).trans (A_eq0 (Va1 m ρ) c 0))).trans
      (Wa1_keep m ρ c main_arg0 (by decide)))) _).trans (h0 b t cc)
  rw [e4, G1_apply]
  simp only [hQ, hKV, hPW, hPB, hX, Cert.Consts.ofBits_inv32, ← EReal.coe_mul, coe_fsum, ← EReal.coe_add]
  rfl

end Cert.KernelIdeal.Hand

end
-- ==== Proof.RefSide.lean ====
import proofs.«126821_j79027398246801_2_alg».proof.Proof.Gen.ReferenceIdeal.Read
import proofs.«126821_j79027398246801_2_alg».proof.Proof.Spec
import proofs.«126821_j79027398246801_2_alg».proof.Proof.Consts

/-!
  The reference, read index by index, is the real function `Cert.Spec.refOut`.

  When every entry of the seven argument arrays is a real number, every intermediate array of the
  reference is, entry by entry, the coercion of a real: sums, differences and products of reals stay
  real; a quotient by 1024 or by 32 is the product with the reciprocal; and the reciprocal square root
  is applied to a variance plus a positive ε, a positive real, where it is `(√y)⁻¹`. Stage by stage —
  the mean, the deviation, the variance, the reciprocal standard deviation, the normalised row, the
  first affine map and its three column slices, the scaled scores, their product with the values, the
  second affine map with its bias, and the residual — the entry at `(b, t, ·)` is the coercion of the
  corresponding function of `Cert.Spec`. A broadcast reads its operand at the index with the new
  axes dropped; a contraction over one axis is a finite sum whose two index maps are named by their
  coordinates.
-/

noncomputable section

namespace Cert.RefSide

open Idealize.ShloMosaic Idealize.ShloMosaic.ValueIdx
open Cert.ReferenceIdeal Cert.ReferenceIdeal.Read Cert.Consts
open scoped BigOperators

/-- A finite sum of coercions of reals is the coercion of the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Two indices of a rank-3 (rank-2, rank-1) shape with the same coordinates are equal; each coordinate computes. -/
local macro "idx3" : tactic =>
  `(tactic| (funext a; match a with | ⟨0, _⟩ => rfl | ⟨1, _⟩ => rfl | ⟨2, _⟩ => rfl))
local macro "idx2" : tactic =>
  `(tactic| (funext a; match a with | ⟨0, _⟩ => rfl | ⟨1, _⟩ => rfl))
local macro "idx1" : tactic =>
  `(tactic| (funext a; match a with | ⟨0, _⟩ => rfl))

section Stages

variable {X : FVec Ideal S4x4096x1024 .f32} {NW NB : FVec Ideal S1024 .f32}
  {QW : FVec Ideal S3072x1024 .f32} {QB : FVec Ideal S3072 .f32}
  {PW : FVec Ideal S1024x1024 .f32} {PB : FVec Ideal S1024 .f32}
  {x : Fin 4 → Fin 4096 → Fin 1024 → ℝ} {nw nb : Fin 1024 → ℝ}
  {qw : Fin 3072 → Fin 1024 → ℝ} {qb : Fin 3072 → ℝ}
  {pw : Fin 1024 → Fin 1024 → ℝ} {pb : Fin 1024 → ℝ}
  (hX : ∀ b t c, X (ix3 b t c) = ((x b t c : ℝ) : EReal))
  (hNW : ∀ c, NW (ix1 c) = ((nw c : ℝ) : EReal))
  (hNB : ∀ c, NB (ix1 c) = ((nb c : ℝ) : EReal))
  (hQW : ∀ o c, QW (ix2 o c) = ((qw o c : ℝ) : EReal))
  (hQB : ∀ o, QB (ix1 o) = ((qb o : ℝ) : EReal))
  (hPW : ∀ o c, PW (ix2 o c) = ((pw o c : ℝ) : EReal))
  (hPB : ∀ o, PB (ix1 o) = ((pb o : ℝ) : EReal))

include hX

/-- The mean of row `(b, t)`: the sum of its 1024 entries (from a zero initial value) over 1024. -/
theorem mean_at (b : Fin 4) (t : Fin 4096) (z : Fin 1) :
    val_main_v3 (F := Ideal) X (ix3 b t z) = ((Spec.mu x b t : ℝ) : EReal) := by
  rw [val_main_v3_apply, val_main_v1_apply, val_main_v0_apply, val_main_v2_apply, val_main_cst_0_apply,
    val_main_cst_apply]
  have hidx : ∀ k : Fin 1024, idx_main_v0 (idx_main_v1 (ix3 b t z)) k = ix3 b t k := fun k => by idx3
  simp only [hidx, hX, Ideal.hostDivf_def, Ideal.ofBits_def, Ideal.ofBits_zero_f32, ofBits_1024, zero_add, coe_sum,
    Ideal.div_coe (by norm_num : (1024 : ℝ) ≠ 0), ← EReal.coe_mul]
  rw [Spec.mu, mul_one_div]

/-- The deviation of an entry from its row's mean (the copy that is squared). -/
theorem dev_at (b : Fin 4) (t : Fin 4096) (c : Fin 1024) :
    val_main_v5 (F := Ideal) X (ix3 b t c) = ((x b t c - Spec.mu x b t : ℝ) : EReal) := by
  rw [val_main_v5_apply, val_main_v4_apply,
    show idx_main_v4 (ix3 b t c) = ix3 b t (0 : Fin 1) from by idx3,
    mean_at hX, hX, Ideal.subf_def, ← EReal.coe_sub]

/-- The deviation again (the copy that is normalised). -/
theorem dev_at' (b : Fin 4) (t : Fin 4096) (c : Fin 1024) :
    val_main_v12 (F := Ideal) X (ix3 b t c) = ((x b t c - Spec.mu x b t : ℝ) : EReal) := by
  rw [val_main_v12_apply, val_main_v11_apply,
    show idx_main_v11 (ix3 b t c) = ix3 b t (0 : Fin 1) from by idx3,
    mean_at hX, hX, Ideal.subf_def, ← EReal.coe_sub]

/-- The variance of row `(b, t)`: the sum of the squared deviations over 1024. -/
theorem var_at (b : Fin 4) (t : Fin 4096) (z : Fin 1) :
    val_main_v10 (F := Ideal) X (ix3 b t z) = ((Spec.var x b t : ℝ) : EReal) := by
  rw [val_main_v10_apply, val_main_v8_apply, val_main_v7_apply, val_main_v9_apply, val_main_cst_2_apply,
    val_main_cst_1_apply]
  have hidx : ∀ k : Fin 1024, idx_main_v7 (idx_main_v8 (ix3 b t z)) k = ix3 b t k := fun k => by idx3
  simp only [hidx, val_main_v6_apply, dev_at hX, Ideal.mulf_def, Ideal.hostDivf_def, Ideal.ofBits_def,
    Ideal.ofBits_zero_f32, ofBits_1024, zero_add, ← EReal.coe_mul, coe_sum,
    Ideal.div_coe (by norm_num : (1024 : ℝ) ≠ 0)]
  rw [Spec.var, mul_one_div]

/-- The reciprocal standard deviation: the variance plus ε is a positive real, where the reciprocal square root
    is `(√y)⁻¹`. -/
theorem rstd_at (b : Fin 4) (t : Fin 4096) (z : Fin 1) :
    val_main_v15 (F := Ideal) X (ix3 b t z) = ((Spec.rs (Spec.var x b t + eps0) : ℝ) : EReal) := by
  have hp := Spec.var_add_pos x eps0 eps0_pos b t
  rw [val_main_v15_apply, val_main_v14_apply, val_main_v13_apply, val_main_cst_3_apply, var_at hX,
    Ideal.hostUnary_rsqrt_def, Ideal.addf_def, Ideal.ofBits_def, ofBits_eps0, ← EReal.coe_add, Ideal.rsqrt_coe,
    if_neg (not_lt.mpr hp.le), if_neg hp.ne', Spec.rs]

include hNW hNB

/-- The normalised row: deviation times reciprocal standard deviation, times the column's scale, plus its shift. -/
theorem hn_at (b : Fin 4) (t : Fin 4096) (c : Fin 1024) :
    val_main_v23 (F := Ideal) X NW NB (ix3 b t c) = ((Spec.hn x nw nb eps0 b t c : ℝ) : EReal) := by
  rw [val_main_v23_apply, val_main_v20_apply, val_main_v17_apply, val_main_v16_apply, val_main_v19_apply,
    val_main_v18_apply, val_main_v22_apply, val_main_v21_apply,
    show idx_main_v16 (ix3 b t c) = ix3 b t (0 : Fin 1) from by idx3,
    show idx_main_v18 (idx_main_v19 (ix3 b t c)) = ix1 c from by idx1,
    show idx_main_v21 (idx_main_v22 (ix3 b t c)) = ix1 c from by idx1,
    dev_at' hX, rstd_at hX, hNW, hNB]
  simp only [Ideal.addf_def, Ideal.mulf_def, ← EReal.coe_mul, ← EReal.coe_add]
  rw [Spec.hn]

include hQW hQB

/-- The first affine map: a contraction of the normalised row with row `o` of the weights, plus the bias. -/
theorem qkv_at (b : Fin 4) (t : Fin 4096) (o : Fin 3072) :
    val_main_v27 (F := Ideal) X NW NB QW QB (ix3 b t o) = ((Spec.qkv x nw nb qw qb eps0 b t o : ℝ) : EReal) := by
  rw [val_main_v27_apply, val_main_v24_apply, val_main_v26_apply, val_main_v25_apply,
    show idx_main_v25 (idx_main_v26 (ix3 b t o)) = ix1 o from by idx1]
  have hl : ∀ k : Fin 1024, lidx_main_v24 (ix3 b t o) k = ix3 b t k := fun k => by idx3
  have hr : ∀ k : Fin 1024, ridx_main_v24 (ix3 b t o) k = ix2 o k := fun k => by idx2
  simp only [hl, hr, hn_at hX hNW hNB, hQW, hQB, Ideal.addf_def, ← EReal.coe_mul, coe_sum, ← EReal.coe_add]
  rw [Spec.qkv]

/-- Queries: the columns 0 … 1023 of the affine map. -/
theorem q_at (b : Fin 4) (t : Fin 4096) (c : Fin 1024) :
    val_main_v28 (F := Ideal) X NW NB QW QB (ix3 b t c) = ((Spec.q x nw nb qw qb eps0 b t c : ℝ) : EReal) := by
  rw [val_main_v28_apply,
    show idx_main_v28 (ix3 b t c) = ix3 b t (⟨c.val, by omega⟩ : Fin 3072) from by idx3,
    qkv_at hX hNW hNB hQW hQB, Spec.q]

/-- Keys: the columns 1024 … 2047. -/
theorem k_at (b : Fin 4) (t : Fin 4096) (c : Fin 1024) :
    val_main_v29 (F := Ideal) X NW NB QW QB (ix3 b t c) = ((Spec.k x nw nb qw qb eps0 b t c : ℝ) : EReal) := by
  rw [val_main_v29_apply,
    show idx_main_v29 (ix3 b t c) = ix3 b t (⟨1024 + c.val, by omega⟩ : Fin 3072) from by idx3,
    qkv_at hX hNW hNB hQW hQB, Spec.k]

/-- Values: the columns 2048 … 3071. -/
theorem v_at (b : Fin 4) (t : Fin 4096) (c : Fin 1024) :
    val_main_v30 (F := Ideal) X NW NB QW QB (ix3 b t c) = ((Spec.v x nw nb qw qb eps0 b t c : ℝ) : EReal) := by
  rw [val_main_v30_apply,
    show idx_main_v30 (ix3 b t c) = ix3 b t (⟨2048 + c.val, by omega⟩ : Fin 3072) from by idx3,
    qkv_at hX hNW hNB hQW hQB, Spec.v]

omit hX hNW hNB hQW hQB in
/-- The scale of the scores: the square root of 1024 is 32. -/
theorem scale_val (i : S_.Idx) : val_main_v32 (F := Ideal) i = ((32 : ℝ) : EReal) := by
  rw [val_main_v32_apply, val_main_cst_4_apply, Ideal.hostUnary_sqrt_def, Ideal.ofBits_def, ofBits_1024,
    Ideal.sqrt_coe, if_neg (by norm_num), sqrt_1024]

/-- The scaled score of rows `t` and `s` of a batch: their queries' and keys' inner product over 32. -/
theorem score_at (b : Fin 4) (t s : Fin 4096) :
    val_main_v34 (F := Ideal) X NW NB QW QB (ix3 b t s)
      = (((∑ c : Fin 1024, Spec.q x nw nb qw qb eps0 b t c * Spec.k x nw nb qw qb eps0 b s c) / 32 : ℝ) : EReal) := by
  rw [val_main_v34_apply, val_main_v31_apply, val_main_v33_apply, scale_val]
  have hl : ∀ k : Fin 1024, lidx_main_v31 (ix3 b t s) k = ix3 b t k := fun k => by idx3
  have hr : ∀ k : Fin 1024, ridx_main_v31 (ix3 b t s) k = ix3 b s k := fun k => by idx3
  simp only [hl, hr, q_at hX hNW hNB hQW hQB, k_at hX hNW hNB hQW hQB, Ideal.hostDivf_def, ← EReal.coe_mul, coe_sum,
    Ideal.div_coe (by norm_num : (32 : ℝ) ≠ 0)]
  rw [mul_one_div]

/-- The attention output: the scores of row `t` against every row `s`, times the values of `s`. -/
theorem attn_at (b : Fin 4) (t : Fin 4096) (c' : Fin 1024) :
    val_main_v35 (F := Ideal) X NW NB QW QB (ix3 b t c')
      = ((∑ s : Fin 4096, ((∑ c : Fin 1024, Spec.q x nw nb qw qb eps0 b t c * Spec.k x nw nb qw qb eps0 b s c) / 32)
          * Spec.v x nw nb qw qb eps0 b s c' : ℝ) : EReal) := by
  rw [val_main_v35_apply]
  have hl : ∀ k : Fin 4096, lidx_main_v35 (ix3 b t c') k = ix3 b t k := fun k => by idx3
  have hr : ∀ k : Fin 4096, ridx_main_v35 (ix3 b t c') k = ix3 b k c' := fun k => by idx3
  simp only [hl, hr, score_at hX hNW hNB hQW hQB, v_at hX hNW hNB hQW hQB, ← EReal.coe_mul, coe_sum]

include hPW hPB

/-- The whole reference at an index: the second affine map of the attention output, plus the residual. -/
theorem ref_is_spec (b : Fin 4) (t : Fin 4096) (o : Fin 1024) :
    val_main_v40 (F := Ideal) X NW NB QW QB PW PB (ix3 b t o)
      = ((Spec.refOut x nw nb qw qb pw pb eps0 b t o : ℝ) : EReal) := by
  rw [val_main_v40_apply, val_main_v39_apply, val_main_v36_apply, val_main_v38_apply, val_main_v37_apply,
    show idx_main_v37 (idx_main_v38 (ix3 b t o)) = ix1 o from by idx1]
  have hl : ∀ k : Fin 1024, lidx_main_v36 (ix3 b t o) k = ix3 b t k := fun k => by idx3
  have hr : ∀ k : Fin 1024, ridx_main_v36 (ix3 b t o) k = ix2 o k := fun k => by idx2
  simp only [hl, hr, attn_at hX hNW hNB hQW hQB, hX, hPW, hPB, Ideal.addf_def, ← EReal.coe_mul, coe_sum,
    ← EReal.coe_add]
  rw [Spec.refOut]

end Stages

end Cert.RefSide

end
-- ==== Proof.Finite.lean ====
/-
  Finiteness of the argument arrays from the precondition. The precondition evaluates, for each of the seven
  float arguments, the conjunction over all entries of `|a| < +∞`, and states that the conjunction of the seven
  results is the word 1. At the ideal instance an entry is an extended real and `|x|` is `max x (-x)`, so each entry
  is neither `⊤` nor `⊥`: it is a real number.
-/
import proofs.«126821_j79027398246801_2_alg».proof.Defs
import Idealize.ShloMosaic.Lib.ReduceAll
import Idealize.ShloMosaic.Lib.ValueIdx

noncomputable section

namespace Cert.Finite

open Idealize.ShloMosaic

/-- The f32 pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` lies strictly below `+∞` is a real number:
    at `⊤` the maximum is `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word of `|x| < +∞` being 1 says that `x` is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

instance : Subsingleton Cert.Pre_finite_inputs.S_.Idx := ⟨fun a b => funext fun d => d.elim0⟩

/-- One `jnp.all(|a| < +∞)` that came out 1: every entry of `a` is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu j = 1#1) :
    ∀ i, ∃ r : ℝ, a i = (r : EReal) := by
  intro i
  have hi := Host.reduce_andi_all _ _ hr hu j e i
  exact real_of_cmp (a i) hi

open Cert.Pre_finite_inputs in
/-- The precondition gives: every entry of every argument array is a real number. -/
theorem finite_of_pre [Cert.Pre_finite_inputs.Facts]
    (a0 : FVec Ideal S4x4096x1024 .f32) (a1 a2 : FVec Ideal S1024 .f32) (a3 : FVec Ideal S3072x1024 .f32)
    (a4 : FVec Ideal S3072 .f32) (a5 : FVec Ideal S1024x1024 .f32) (a6 : FVec Ideal S1024 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

/-- The same for the kernel's argument buffers on a device, from the certificate's precondition. -/
theorem finite_of_Pre_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) :=
  finite_of_pre _ _ _ _ _ _ _ (hpre c)

/-- An array of extended reals all of whose entries are real numbers is the image of a real-valued array. -/
theorem exists_real_array {ι : Type} (a : ι → EReal) (h : ∀ i, ∃ r : ℝ, a i = (r : EReal)) :
    ∃ x : ι → ℝ, a = fun i => (x i : EReal) := by
  choose x hx using h
  exact ⟨x, funext hx⟩

/-- The kernel's seven argument buffers on a device are the images of real-valued arrays. -/
theorem real_arrays_of_Pre_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (x0 : Cert.KernelIdeal.S4x4096x1024.Idx → ℝ) (x1 x2 : Cert.KernelIdeal.S1024.Idx → ℝ)
      (x3 : Cert.KernelIdeal.S3072x1024.Idx → ℝ) (x4 : Cert.KernelIdeal.S3072.Idx → ℝ)
      (x5 : Cert.KernelIdeal.S1024x1024.Idx → ℝ) (x6 : Cert.KernelIdeal.S1024.Idx → ℝ),
      (m ((c.tc : Thread Cert.KernelIdeal.nD Cert.KernelIdeal.τ).loc Cert.KernelIdeal.main_arg0) : FVec Ideal Cert.KernelIdeal.S4x4096x1024 .f32) = (fun i => (x0 i : EReal))
      ∧ (m ((c.tc : Thread Cert.KernelIdeal.nD Cert.KernelIdeal.τ).loc Cert.KernelIdeal.main_arg1) : FVec Ideal Cert.KernelIdeal.S1024 .f32) = (fun i => (x1 i : EReal))
      ∧ (m ((c.tc : Thread Cert.KernelIdeal.nD Cert.KernelIdeal.τ).loc Cert.KernelIdeal.main_arg2) : FVec Ideal Cert.KernelIdeal.S1024 .f32) = (fun i => (x2 i : EReal))
      ∧ (m ((c.tc : Thread Cert.KernelIdeal.nD Cert.KernelIdeal.τ).loc Cert.KernelIdeal.main_arg3) : FVec Ideal Cert.KernelIdeal.S3072x1024 .f32) = (fun i => (x3 i : EReal))
      ∧ (m ((c.tc : Thread Cert.KernelIdeal.nD Cert.KernelIdeal.τ).loc Cert.KernelIdeal.main_arg4) : FVec Ideal Cert.KernelIdeal.S3072 .f32) = (fun i => (x4 i : EReal))
      ∧ (m ((c.tc : Thread Cert.KernelIdeal.nD Cert.KernelIdeal.τ).loc Cert.KernelIdeal.main_arg5) : FVec Ideal Cert.KernelIdeal.S1024x1024 .f32) = (fun i => (x5 i : EReal))
      ∧ (m ((c.tc : Thread Cert.KernelIdeal.nD Cert.KernelIdeal.τ).loc Cert.KernelIdeal.main_arg6) : FVec Ideal Cert.KernelIdeal.S1024 .f32) = (fun i => (x6 i : EReal)) := by
  obtain ⟨f0, f1, f2, f3, f4, f5, f6⟩ := finite_of_Pre_KernelIdeal m hpre c
  obtain ⟨x0, h0⟩ := exists_real_array _ f0
  obtain ⟨x1, h1⟩ := exists_real_array _ f1
  obtain ⟨x2, h2⟩ := exists_real_array _ f2
  obtain ⟨x3, h3⟩ := exists_real_array _ f3
  obtain ⟨x4, h4⟩ := exists_real_array _ f4
  obtain ⟨x5, h5⟩ := exists_real_array _ f5
  obtain ⟨x6, h6⟩ := exists_real_array _ f6
  exact ⟨x0, x1, x2, x3, x4, x5, x6, h0, h1, h2, h3, h4, h5, h6⟩

end Cert.Finite

end
-- ==== Proof.Algebraic.lean ====
/-
  The algebraic claim. On finite inputs every argument entry is a real number; the reference's result, read stage by
  stage, is the coercion of the real function refOut; the kernel program's result, read off its run, is the coercion of
  kerOut; and refOut = kerOut over the reals: (∑_s ((∑_c q_c k_{s,c})/32)·v_{s,c'}) = (∑_c q_c·(∑_s k_{s,c} v_{s,c'}))·(1/32), the sum over the
  4096 rows of a batch split into 8 tiles of 512.
-/
import proofs.«126821_j79027398246801_2_alg».proof.Defs
import proofs.«126821_j79027398246801_2_alg».proof.Proof.Gen.KernelIdeal
import proofs.«126821_j79027398246801_2_alg».proof.Proof.Gen.ReferenceIdeal
import proofs.«126821_j79027398246801_2_alg».proof.Proof.Gen.Pre_finite_inputs
import proofs.«126821_j79027398246801_2_alg».proof.Proof.Gen.ReferenceIdeal.Read
import proofs.«126821_j79027398246801_2_alg».proof.Proof.KI.Final
import proofs.«126821_j79027398246801_2_alg».proof.Proof.RefSide
import proofs.«126821_j79027398246801_2_alg».proof.Proof.Finite

noncomputable section

namespace Cert.Proof

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Hand.Wa4 m ρ c (Proc.devRef .tc Cert.KernelIdeal.main_v5), Cert.KernelIdeal.Hand.run_valH m ρ, ?_⟩
  refine (θ_run Cert.ReferenceIdeal.defs _ _).mono (fun _ h c => ⟨(h c).1.trans ?_, (h c).2⟩)
    (Cert.ReferenceIdeal.Value.run (F := Ideal) m' ρ')
  obtain ⟨x0, x1, x2, x3, x4, x5, x6, e0, e1, e2, e3, e4, e5, e6⟩ := Cert.Finite.real_arrays_of_Pre_KernelIdeal m hpre c
  rw [Cert.ReferenceIdeal.Read.val_main_v40_eq, (hagree c).1, (hagree c).2.1, (hagree c).2.2.1, (hagree c).2.2.2.1,
    (hagree c).2.2.2.2.1, (hagree c).2.2.2.2.2.1, (hagree c).2.2.2.2.2.2]
  funext i
  obtain ⟨b, t, o, rfl⟩ : ∃ (b : Fin 4) (t : Fin 4096) (o : Fin 1024), i = ix3 b t o := ⟨i 0, i 1, i 2, eq_ix3 i⟩
  refine (Cert.RefSide.ref_is_spec (x := fun b t cc => x0 (ix3 b t cc)) (nw := fun cc => x1 (ix1 cc)) (nb := fun cc => x2 (ix1 cc))
    (qw := fun o cc => x3 (ix2 o cc)) (qb := fun o => x4 (ix1 o)) (pw := fun o cc => x5 (ix2 o cc)) (pb := fun o => x6 (ix1 o))
    (fun b t cc => congrFun e0 _) (fun cc => congrFun e1 _) (fun cc => congrFun e2 _) (fun o cc => congrFun e3 _)
    (fun o => congrFun e4 _) (fun o cc => congrFun e5 _) (fun o => congrFun e6 _) b t o).trans ?_
  rw [Cert.Spec.ref_eq_ker]
  exact (Cert.KernelIdeal.Hand.value_main m ρ c (fun b t cc => congrFun e0 _) (fun cc => congrFun e1 _) (fun cc => congrFun e2 _)
    (fun o cc => congrFun e3 _) (fun o => congrFun e4 _) (fun o cc => congrFun e5 _) (fun o => congrFun e6 _) b t o).symm

end Cert.Proof

end
-- ==== Proof.lean ====
/-
  The certificate: the program's frame at the word-level instance and at the exact one, the reference's frame, the
  (empty) idealization ledger, and the algebraic claim — at the exact instance, on finite inputs, the two-call kernel
  program and the reference end with equal results. The kernel forms q·(kᵀv)·(1/32), accumulating kᵀv over the tiles
  of a batch; the reference forms ((q·kᵀ)/√1024)·v; over the reals these are one number, by associativity and
  distributivity of finite sums (every intermediate value is a real, the variance plus ε being positive).
-/
import proofs.«126821_j79027398246801_2_alg».proof.Defs
import proofs.«126821_j79027398246801_2_alg».proof.Proof.Frames
import proofs.«126821_j79027398246801_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
